-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v17) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S64x32 .f32) (main_arg7 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x32 .f32 := Host.absf main_arg6
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg7 main_v33

def fn {F : FTy → Type} [FloatOps F] (main_arg0 : FVec F S10000x128 .f32) (main_arg1 : FVec F S10000x10000 .f32) (main_arg2 : FVec F S128x64 .f32) (main_arg3 : FVec F S64 .f32) (main_arg4 : FVec F S64x32 .f32) (main_arg5 : FVec F S32 .f32) (main_arg6 : FVec F S64x32 .f32) (main_arg7 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S64x64 : Shape := ⟨2, ![64, 64]⟩
abbrev S1x64 : Shape := ⟨2, ![1, 64]⟩
abbrev S10000x32 : Shape := ⟨2, ![10000, 32]⟩
abbrev S200x10000 : Shape := ⟨2, ![200, 10000]⟩
abbrev S200x32 : Shape := ⟨2, ![200, 32]⟩
abbrev S10000x64 : Shape := ⟨2, ![10000, 64]⟩
abbrev S200x64 : Shape := ⟨2, ![200, 64]⟩

abbrev nBuf : Space → Nat
  | .hbm => 15
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S64x64, .f32⟩
  | .hbm, ⟨9, _⟩ => ⟨S64, .f32⟩
  | .hbm, ⟨10, _⟩ => ⟨S1x64, .f32⟩
  | .hbm, ⟨11, _⟩ => ⟨S1x64, .f32⟩
  | .hbm, ⟨12, _⟩ => ⟨S10000x10000, .f32⟩
  | .hbm, ⟨13, _⟩ => ⟨S10000x32, .f32⟩
  | .hbm, ⟨14, _⟩ => ⟨S10000x32, .f32⟩
  | .local _ .vmem, ⟨0, _⟩ => ⟨S200x10000, .f32⟩
  | .local _ .vmem, ⟨1, _⟩ => ⟨S200x10000, .f32⟩
  | .local _ .vmem, ⟨2, _⟩ => ⟨S10000x128, .f32⟩
  | .local _ .vmem, ⟨3, _⟩ => ⟨S128x64, .f32⟩
  | .local _ .vmem, ⟨4, _⟩ => ⟨S1x64, .f32⟩
  | .local _ .vmem, ⟨5, _⟩ => ⟨S64x64, .f32⟩
  | .local _ .vmem, ⟨6, _⟩ => ⟨S1x64, .f32⟩
  | .local _ .vmem, ⟨7, _⟩ => ⟨S200x10000, .f32⟩
  | .local _ .vmem, ⟨8, _⟩ => ⟨S200x10000, .f32⟩
  | .local _ .vmem, ⟨9, _⟩ => ⟨S200x32, .f32⟩
  | .local _ .vmem, ⟨10, _⟩ => ⟨S200x32, .f32⟩
  | .local _ .vmem, ⟨11, _⟩ => ⟨S200x32, .f32⟩
  | .local _ .vmem, ⟨12, _⟩ => ⟨S200x32, .f32⟩
  | .local _ .vmem, ⟨13, _⟩ => ⟨S10000x64, .f32⟩
  | .local _ .vmem, ⟨14, _⟩ => ⟨S10000x64, .f32⟩
  | .local _ .vmem, ⟨15, _⟩ => ⟨S10000x32, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![150], ![false]⟩

def k0_cond2 (i : grid0.Coords) : BitVec 1 :=
  let arg0 : BitVec 32 := BitVec.ofNat 32 (i 0).val
  let c50_i32 : BitVec 32 := 50#32
  let v3 : BitVec 1 := Scalar.cmpi .slt arg0 c50_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c200_i32 : BitVec 32 := 200#32
  let v26 : BitVec 32 := Scalar.muli arg0 c200_i32
  let v27 : Index := Scalar.indexCast v26
  let c0_14 : Index := 0#32
  ![v27.toNat, 0]
def k0_cond4 (i : grid0.Coords) : BitVec 1 :=
  let arg0 : BitVec 32 := BitVec.ofNat 32 (i 0).val
  let c50_i32_4 : BitVec 32 := 50#32
  let v9 : BitVec 1 := Scalar.cmpi .sge arg0 c50_i32_4
  let c100_i32 : BitVec 32 := 100#32
  let v10 : BitVec 1 := Scalar.cmpi .slt arg0 c100_i32
  let v11 : BitVec 1 := Scalar.andi v9 v10
  let v12 : BitVec 32 := Scalar.extui v11
  let c0_i32_5 : BitVec 32 := 0#32
  let v13 : BitVec 1 := Scalar.cmpi .ne v12 c0_i32_5
  v13

def k0_off2 (i : grid0.Coords) : Fin 2 → Nat :=
  let arg0 : BitVec 32 := BitVec.ofNat 32 (i 0).val
  let c50_i32_18 : BitVec 32 := 50#32
  let v31 : BitVec 32 := Scalar.subi arg0 c50_i32_18
  let c200_i32 : BitVec 32 := 200#32
  let v32 : BitVec 32 := Scalar.muli v31 c200_i32
  let v33 : Index := Scalar.indexCast v32
  let c0_19 : Index := 0#32
  ![v33.toNat, 0]
def k0_cond5 (i : grid0.Coords) : BitVec 1 :=
  let arg0 : BitVec 32 := BitVec.ofNat 32 (i 0).val
  let c100_i32_6 : BitVec 32 := 100#32
  let v14 : BitVec 1 := Scalar.cmpi .sge arg0 c100_i32_6
  let v15 : BitVec 32 := Scalar.extui v14
  let c0_i32_7 : BitVec 32 := 0#32
  let v16 : BitVec 1 := Scalar.cmpi .ne v15 c0_i32_7
  v16

def k0_off3 (i : grid0.Coords) : Fin 2 → Nat :=
  let arg0 : BitVec 32 := BitVec.ofNat 32 (i 0).val
  let c100_i32_8 : BitVec 32 := 100#32
  let v17 : BitVec 32 := Scalar.subi arg0 c100_i32_8
  let c200_i32 : BitVec 32 := 200#32
  let v18 : BitVec 32 := Scalar.muli v17 c200_i32
  let v19 : Index := Scalar.indexCast v18
  let c0 : Index := 0#32
  ![v19.toNat, 0]
def cc0_transform_0 (i : grid0.Coords) : Fin 2 → Nat :=
  let arg0 : BitVec 32 := BitVec.ofNat 32 (i 0).val
  let c50_i32 : BitVec 32 := 50#32
  let v0 : BitVec 1 := Scalar.cmpi .slt arg0 c50_i32
  let c100_i32 : BitVec 32 := 100#32
  let v1 : BitVec 1 := Scalar.cmpi .slt arg0 c100_i32
  let c50_i32_0 : BitVec 32 := 50#32
  let v2 : BitVec 32 := Scalar.subi arg0 c50_i32_0
  let c49_i32 : BitVec 32 := 49#32
  let v3 : BitVec 32 := Scalar.select v1 v2 c49_i32
  let v4 : BitVec 32 := Scalar.select v0 arg0 v3
  let c0_i32 : BitVec 32 := 0#32
  let c0_i32_1 : BitVec 32 := 0#32
  ![v4.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c100_i32 : BitVec 32 := 100#32
  let v0 : BitVec 32 := Scalar.subi arg0 c100_i32
  let c0_i32 : BitVec 32 := 0#32
  let c49_i32 : BitVec 32 := 49#32
  let v1 : BitVec 32 := Scalar.maxsi c0_i32 v0
  let v2 : BitVec 32 := Scalar.minsi c49_i32 v1
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let c49_i32 : BitVec 32 := 49#32
  let v1 : BitVec 32 := Scalar.maxsi c0_i32 v0
  let v2 : BitVec 32 := Scalar.minsi c49_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c50_i32 : BitVec 32 := 50#32
  let v0 : BitVec 32 := Scalar.subi arg0 c50_i32
  let c0_i32 : BitVec 32 := 0#32
  let c49_i32 : BitVec 32 := 49#32
  let v1 : BitVec 32 := Scalar.maxsi c0_i32 v0
  let v2 : BitVec 32 := Scalar.minsi c49_i32 v1
  let c0_i32_0 : BitVec 32 := 0#32
  let c0_i32_1 : BitVec 32 := 0#32
  ![v2.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S200x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S200x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S200x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S64x32_S64x32_S64x64_d1 : Shape.Concatenates [S64x32, S64x32] S64x64 1
  concatenates_S32_S32_S64_d0 : Shape.Concatenates [S32, S32] S64 0
  bcast_S64_S1x64_1 : S64.BroadcastsInDim S1x64 (![1] : Fin 1 → Fin S1x64.rank)
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x10000_S200x10000_0_0 : ∀ a, (![0, 0] : Fin 2 → Nat) a + S200x10000.size a ≤ S200x10000.size a
  h_S200x10000 : 0 < S200x10000.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  h_S200x64 : 0 < S200x64.numel
  shapeCasts_S200x64_S200x64 : S200x64.ShapeCasts S200x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S200x64_o0_0_S200x32 : S200x64.Slices ![0, 0] S200x32
  inb_S200x32_S200x32_0_0 : ∀ a, (![0, 0] : Fin 2 → Nat) a + S200x32.size a ≤ S200x32.size a
  h_S200x32 : 0 < S200x32.numel
  slices_S200x64_o0_32_S200x32 : S200x64.Slices ![0, 32] S200x32
  bitsLt_bf16_f32 : FTy.bits .bf16 < FTy.bits .f32
  shapeCasts_S200x32_S200x32 : S200x32.ShapeCasts S200x32
  inb_S10000x32_S10000x32_0_0 : ∀ a, (![0, 0] : Fin 2 → Nat) a + S10000x32.size a ≤ S10000x32.size a
  h_S10000x32 : 0 < S10000x32.numel
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S10000x64_S64x64_S10000x64_1_0_0_1_n_n_wf : DotDims.WF S10000x64 S64x64 S10000x64 [1] [0] [0] [1] [] []
  dot_S200x32_S10000x32_S200x10000_1_1_0_0_n_n_wf : DotDims.WF S200x32 S10000x32 S200x10000 [1] [1] [0] [0] [] []
  hrank0 : 0 < grid0.rank
  k0_off1_inb : ∀ i : grid0.Coords, ∀ (k0_h2 : k0_cond2 i = 1#1), ∀ a, (k0_off1 i) a + S200x64.size a ≤ S10000x64.size a
  k0_off2_inb : ∀ i : grid0.Coords, ∀ (k0_h4 : k0_cond4 i = 1#1), ∀ a, (k0_off2 i) a + S200x32.size a ≤ S10000x32.size a
  k0_off2_packedbf16 : ∀ i : grid0.Coords, ∀ (k0_h4 : k0_cond4 i = 1#1), (Rect.unit (s := S10000x32) (k0_off2 i) S200x32.size (k0_off2_inb i k0_h4)).PackedRows (EltTy.packing .bf16)
  k0_off3_inb : ∀ i : grid0.Coords, ∀ (k0_h5 : k0_cond5 i = 1#1), ∀ a, (k0_off3 i) a + S200x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x10000.size a ≤ S10000x10000.size a
  hwx0_6 : ∀ i : grid0.Coords, EltTy.bits .f32 = 32 ∨ (Rect.block (s := S10000x10000) S200x10000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S200x32.size a ≤ S10000x32.size a
  hwx0_7 : ∀ i : grid0.Coords, EltTy.bits .f32 = 32 ∨ (Rect.block (s := S10000x32) S200x32.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S200x32.size a ≤ S10000x32.size a
  hwx0_8 : ∀ i : grid0.Coords, EltTy.bits .f32 = 32 ∨ (Rect.block (s := S10000x32) S200x32.size (cc0_transform_8 i) (hinb0_8 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S200x32_S10000x32_S200x10000_1_1_0_0_n_n : DotDims S200x32 S10000x32 S200x10000 where
  lhsContracting := [1]
  rhsContracting := [1]
  lhsNonContracting := [0]
  rhsNonContracting := [0]
  lhsBatch := []
  rhsBatch := []
  wf := dot_S200x32_S10000x32_S200x10000_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4_0) S200x10000.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4_1) S200x32.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_2) S200x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond5 i == 1#1) | 7 => fun i => !(k0_cond4 i == 1#1) | 8 => fun i => !(k0_cond4 i == 1#1) | ⟨_ + 9, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩
abbrev S32x10000 : Shape := ⟨2, ![32, 10000]⟩

abbrev nBuf : Space → Nat
  | .hbm => 42
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S64x32, .f32⟩
  | .hbm, ⟨7, _⟩ => ⟨S32, .f32⟩
  | .hbm, ⟨8, _⟩ => ⟨S10000x64, .f32⟩
  | .hbm, ⟨9, _⟩ => ⟨S10000x64, .f32⟩
  | .hbm, ⟨10, _⟩ => ⟨S1x64, .f32⟩
  | .hbm, ⟨11, _⟩ => ⟨S10000x64, .f32⟩
  | .hbm, ⟨12, _⟩ => ⟨S10000x64, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x32, .f32⟩
  | .hbm, ⟨17, _⟩ => ⟨S10000x32, .f32⟩
  | .hbm, ⟨18, _⟩ => ⟨S1x32, .f32⟩
  | .hbm, ⟨19, _⟩ => ⟨S10000x32, .f32⟩
  | .hbm, ⟨20, _⟩ => ⟨S10000x32, .f32⟩
  | .hbm, ⟨21, _⟩ => ⟨S_, .f32⟩
  | .hbm, ⟨22, _⟩ => ⟨S10000x32, .f32⟩
  | .hbm, ⟨23, _⟩ => ⟨S10000x32, .f32⟩
  | .hbm, ⟨24, _⟩ => ⟨S10000x32, .f32⟩
  | .hbm, ⟨25, _⟩ => ⟨S10000x32, .f32⟩
  | .hbm, ⟨26, _⟩ => ⟨S1x32, .f32⟩
  | .hbm, ⟨27, _⟩ => ⟨S10000x32, .f32⟩
  | .hbm, ⟨28, _⟩ => ⟨S10000x32, .f32⟩
  | .hbm, ⟨29, _⟩ => ⟨S_, .f32⟩
  | .hbm, ⟨30, _⟩ => ⟨S10000x32, .f32⟩
  | .hbm, ⟨31, _⟩ => ⟨S10000x32, .f32⟩
  | .hbm, ⟨32, _⟩ => ⟨S32x10000, .f32⟩
  | .hbm, ⟨33, _⟩ => ⟨S10000x10000, .f32⟩
  | .hbm, ⟨34, _⟩ => ⟨S10000x10000, .f32⟩
  | .hbm, ⟨35, _⟩ => ⟨S10000x10000, .f32⟩
  | .hbm, ⟨36, _⟩ => ⟨S_, .f32⟩
  | .hbm, ⟨37, _⟩ => ⟨S10000x10000, .f32⟩
  | .hbm, ⟨38, _⟩ => ⟨S10000x10000, .f32⟩
  | .hbm, ⟨39, _⟩ => ⟨S_, .f32⟩
  | .hbm, ⟨40, _⟩ => ⟨S10000x10000, .f32⟩
  | .hbm, ⟨41, _⟩ => ⟨S10000x10000, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call2_cst : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  transposes_S10000x32_S32x10000_1_0 : S10000x32.Transposes [1, 0] S32x10000
  bcast_S_S10000x10000 : S_.BroadcastsInDim S10000x10000 (![] : Fin 0 → Fin S10000x10000.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x10000_S10000x32_S10000x32_1_0_0_1_n_n_wf : DotDims.WF S10000x10000 S10000x32 S10000x32 [1] [0] [0] [1] [] []
  dot_S10000x32_S32x10000_S10000x10000_1_0_0_1_n_n_wf : DotDims.WF S10000x32 S32x10000 S10000x10000 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x10000_S10000x10000_1_0_0_1_n_n : DotDims S10000x32 S32x10000 S10000x10000 where
  lhsContracting := [1]
  rhsContracting := [0]
  lhsNonContracting := [0]
  rhsNonContracting := [1]
  lhsBatch := []
  rhsBatch := []
  wf := dot_S10000x32_S32x10000_S10000x10000_1_0_0_1_n_n_wf

class Facts : Prop extends Facts₀ where

variable [Facts]
-- ==== Proof.LibRowsStore.lean ====
/-
  A store of whole rows into a whole buffer, read back.

  A rank-2 buffer of extents `d` holds contents `s`; rows `[o, o + W)`, every column, are overwritten by a
  payload `w`. Reading the buffer back, an index whose row lies in `[o, o + W)` holds the payload at the row minus
  `o` and the same column; every other index holds what `s` held. Likewise a load of rows `[o, o + W)` of a buffer
  holding `s` is `s` at the row plus `o`.
-/
import Idealize.ShloMosaic.Lib.WritesUnit
import Idealize.ShloMosaic.Lib.Pipeline.Frame
import Idealize.ShloMosaic.Lib.Pipeline.FrameBody

namespace Idealize.ShloMosaic.RowsStore

open Idealize.ShloMosaic

variable {sig : RefSig} {κ : Kind} {sp : Space} {e : EltTy} {Val : EltTy → Type} {d : Fin 2 → ℕ}

/-- The contents `s` with rows `[o, o + W)` replaced by the payload `w` (indexed from row 0). -/
def upd {α : Type} {size : Fin 2 → ℕ} (s : (⟨2, d⟩ : Shape).Idx → α) (o W : ℕ) (hW : size (0 : Fin 2) = W)
    (hD : size (1 : Fin 2) = d (1 : Fin 2)) (w : (⟨2, size⟩ : Shape).Idx → α) : (⟨2, d⟩ : Shape).Idx → α :=
  fun y => if h : o ≤ (y (0 : Fin 2)).val ∧ (y (0 : Fin 2)).val < o + W then
      w (Rect.unitLocal (s := ⟨2, d⟩) (off := ![o, 0]) (size := size) y (Rect.unit_rows_mem y hW hD h))
    else s y

/-- Inside the rows: the payload at the local position. -/
theorem upd_of_mem {α : Type} {size : Fin 2 → ℕ} (s : (⟨2, d⟩ : Shape).Idx → α) (o W : ℕ) (hW : size (0 : Fin 2) = W)
    (hD : size (1 : Fin 2) = d (1 : Fin 2)) (w : (⟨2, size⟩ : Shape).Idx → α) (y : (⟨2, d⟩ : Shape).Idx)
    (x : (⟨2, size⟩ : Shape).Idx) (hx0 : (y (0 : Fin 2)).val = o + (x (0 : Fin 2)).val)
    (hx1 : (y (1 : Fin 2)).val = (x (1 : Fin 2)).val) : upd s o W hW hD w y = w x := by
  have h : o ≤ (y (0 : Fin 2)).val ∧ (y (0 : Fin 2)).val < o + W := by
    have := (x (0 : Fin 2)).isLt
    subst hW
    constructor
    · omega
    · show (y (0 : Fin 2)).val < o + size 0
      have h2 : (x (0 : Fin 2)).val < size 0 := (x (0 : Fin 2)).isLt
      omega
  unfold upd
  rw [dif_pos h]
  congr 1
  funext a
  apply Fin.ext
  rw [Rect.unitLocal_val]
  revert a
  rw [Fin.forall_fin_two]
  constructor
  · show (y 0).val - o = (x 0).val
    omega
  · show (y 1).val - 0 = (x 1).val
    omega

/-- Outside the rows: the old contents. -/
theorem upd_of_not_mem {α : Type} {size : Fin 2 → ℕ} (s : (⟨2, d⟩ : Shape).Idx → α) (o W : ℕ) (hW : size (0 : Fin 2) = W)
    (hD : size (1 : Fin 2) = d (1 : Fin 2)) (w : (⟨2, size⟩ : Shape).Idx → α) (y : (⟨2, d⟩ : Shape).Idx)
    (h : (y (0 : Fin 2)).val < o ∨ o + W ≤ (y (0 : Fin 2)).val) : upd s o W hW hD w y = s y := by
  unfold upd
  rw [dif_neg (by omega)]

/-- One store of rows `[o, o + W)` into a whole buffer holding `s`, read back. -/
theorem read_store (M : Memref sig κ sp (⟨2, d⟩ : Shape) e) (hM : M.IsWhole) (s : (⟨2, d⟩ : Shape).Idx → Val e)
    {off size : Fin 2 → ℕ} {o W : ℕ} (inb : ∀ a : Fin 2, off a + size a ≤ d a)
    (w : (Rect.unit (s := ⟨2, d⟩) off size inb).shape.Idx → Val e) (hoff : off = ![o, 0]) (hW : size (0 : Fin 2) = W)
    (hD : size (1 : Fin 2) = d (1 : Fin 2)) :
    M.view.read Val (M.view.writes Val (hM.unread s)
        [(⟨Rect.unit (s := ⟨2, d⟩) off size inb, w⟩ : View.Piece Val (⟨2, d⟩ : Shape) e)])
      = upd s o W hW hD w := by
  funext y
  rw [View.read_writes_cons_rows M.view (hM.unread s) inb w [] y hoff hW hD]
  unfold upd
  split
  · rfl
  · rw [View.writes_nil, hM.read_unread]

end Idealize.ShloMosaic.RowsStore
-- ==== Proof.K.Setup.lean ====
import proofs.«179708_g35227321761815_cont_8to1_b_828_11_alg».proof.Proof.Gen.Kernel.Frame
import proofs.«179708_g35227321761815_cont_8to1_b_828_11_alg».proof.Proof.Gen.Kernel.Skeleton
import proofs.«179708_g35227321761815_cont_8to1_b_828_11_alg».proof.Proof.LibRowsStore
import Idealize.ShloMosaic.Lib.Pipeline.FrameSuffix

set_option maxRecDepth 16384

noncomputable section

/-!
  The grid has 150 points in three phases of 50. This module decides, once over the grid, which of the body's five
  conditional blocks run at a point (the first point; points below 50; point 50; points 50 to 99; points from 100 on),
  the row offsets the body computes there (200 times the point's position in its phase), and where the three output
  windows are idle and written back.
-/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The five conditions, as the body computes them, and where they hold -/

abbrev c1 (i : grid0.Coords) : Prop := (Scalar.cmpi .ne (Scalar.extui (Scalar.cmpi .eq (BitVec.ofNat 32 (i 0).val) 0#32)) 0#32) = 1#1
abbrev c2 (i : grid0.Coords) : Prop := k0_cond2 i = 1#1
abbrev c3 (i : grid0.Coords) : Prop := (Scalar.cmpi .ne (Scalar.extui (Scalar.cmpi .eq (BitVec.ofNat 32 (i 0).val) 50#32)) 0#32) = 1#1
abbrev c4 (i : grid0.Coords) : Prop := k0_cond4 i = 1#1
abbrev c5 (i : grid0.Coords) : Prop := k0_cond5 i = 1#1

/-- The first block runs at the first point only. -/
theorem hc1 : ∀ t : Fin cfg0.N, c1 (grid0.coords t) ↔ t.val = 0 :=
  (by decide +kernel : ∀ t : Fin grid0.N, c1 (grid0.coords t) ↔ t.val = 0)
/-- The second block runs at the points of the first phase. -/
theorem hc2 : ∀ t : Fin cfg0.N, c2 (grid0.coords t) ↔ t.val < 50 :=
  (by decide +kernel : ∀ t : Fin grid0.N, c2 (grid0.coords t) ↔ t.val < 50)
/-- The third block runs at the first point of the second phase only. -/
theorem hc3 : ∀ t : Fin cfg0.N, c3 (grid0.coords t) ↔ t.val = 50 :=
  (by decide +kernel : ∀ t : Fin grid0.N, c3 (grid0.coords t) ↔ t.val = 50)
/-- The fourth block runs at the points of the second phase. -/
theorem hc4 : ∀ t : Fin cfg0.N, c4 (grid0.coords t) ↔ (50 ≤ t.val ∧ t.val < 100) :=
  (by decide +kernel : ∀ t : Fin grid0.N, c4 (grid0.coords t) ↔ (50 ≤ t.val ∧ t.val < 100))
/-- The fifth block runs at the points of the third phase. -/
theorem hc5 : ∀ t : Fin cfg0.N, c5 (grid0.coords t) ↔ 100 ≤ t.val :=
  (by decide +kernel : ∀ t : Fin grid0.N, c5 (grid0.coords t) ↔ 100 ≤ t.val)

/-! ## The row offsets -/

/-- In the first phase the hidden rows go to rows `200 t` on. -/
theorem hoff1 : ∀ t : Fin cfg0.N, t.val < 50 → k0_off1 (grid0.coords t) 0 = 200 * t.val :=
  (by decide +kernel : ∀ t : Fin grid0.N, t.val < 50 → k0_off1 (grid0.coords t) 0 = 200 * t.val)
/-- In the second phase the mean rows go to rows `200 (t - 50)` on. -/
theorem hoff2 : ∀ t : Fin cfg0.N, 50 ≤ t.val → t.val < 100 → k0_off2 (grid0.coords t) 0 = 200 * (t.val - 50) :=
  (by decide +kernel : ∀ t : Fin grid0.N, 50 ≤ t.val → t.val < 100 → k0_off2 (grid0.coords t) 0 = 200 * (t.val - 50))
/-- In the third phase the mean rows are read from row `200 (t - 100)` on. -/
theorem hoff3 : ∀ t : Fin cfg0.N, 100 ≤ t.val → k0_off3 (grid0.coords t) 0 = 200 * (t.val - 100) :=
  (by decide +kernel : ∀ t : Fin grid0.N, 100 ≤ t.val → k0_off3 (grid0.coords t) 0 = 200 * (t.val - 100))

theorem off1_eq (i : grid0.Coords) : k0_off1 i = ![k0_off1 i 0, 0] := by
  funext a; revert a; rw [Fin.forall_fin_two]; exact ⟨rfl, rfl⟩
theorem off2_eq (i : grid0.Coords) : k0_off2 i = ![k0_off2 i 0, 0] := by
  funext a; revert a; rw [Fin.forall_fin_two]; exact ⟨rfl, rfl⟩
theorem off3_eq (i : grid0.Coords) : k0_off3 i = ![k0_off3 i 0, 0] := by
  funext a; revert a; rw [Fin.forall_fin_two]; exact ⟨rfl, rfl⟩

/-! ## Idle points and write-backs of the three output windows -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The reconstruction window is idle before the third phase and live in it; it is written back at every point of the third phase. -/
theorem idle6 : ∀ t : Fin cfg0.N, t.val < 100 → cfg0.idle 6 (grid0.coords t) = true := by decide +kernel
theorem live6 : ∀ t : Fin cfg0.N, 100 ≤ t.val → cfg0.idle 6 (grid0.coords t) = false := by decide +kernel
theorem flush6 : ∀ t : Fin cfg0.N, (cfg0.win 6).flush t = true ↔ 100 ≤ t.val := by decide +kernel
/-- The two head windows are live in the second phase only; they are written back at points 50 to 98 and at the last point. -/
theorem idle7 : ∀ t : Fin cfg0.N, (t.val < 50 ∨ 100 ≤ t.val) → cfg0.idle 7 (grid0.coords t) = true := by decide +kernel
theorem live7 : ∀ t : Fin cfg0.N, 50 ≤ t.val → t.val < 100 → cfg0.idle 7 (grid0.coords t) = false := by decide +kernel
theorem flush7 : ∀ t : Fin cfg0.N, (cfg0.win 7).flush t = true ↔ ((50 ≤ t.val ∧ t.val < 99) ∨ t.val = 149) := by decide +kernel
theorem idle8 : ∀ t : Fin cfg0.N, (t.val < 50 ∨ 100 ≤ t.val) → cfg0.idle 8 (grid0.coords t) = true := by decide +kernel
theorem live8 : ∀ t : Fin cfg0.N, 50 ≤ t.val → t.val < 100 → cfg0.idle 8 (grid0.coords t) = false := by decide +kernel
theorem flush8 : ∀ t : Fin cfg0.N, (cfg0.win 8).flush t = true ↔ ((50 ≤ t.val ∧ t.val < 99) ∨ t.val = 149) := by decide +kernel
theorem fetch6 : ∀ t : Fin cfg0.N, (cfg0.win 6).fetch t = false := by decide +kernel
theorem fetch7 : ∀ t : Fin cfg0.N, (cfg0.win 7).fetch t = false := by decide +kernel
theorem fetch8 : ∀ t : Fin cfg0.N, (cfg0.win 8).fetch t = false := by decide +kernel

/-! ## The scratch buffers -/

abbrev scM0 : Memref sig .tc .vmem S10000x64 .f32 := Memref.whole cc0_scratch0
abbrev scM1 : Memref sig .tc .vmem S10000x64 .f32 := Memref.whole cc0_scratch1
abbrev scM2 : Memref sig .tc .vmem S10000x32 .bf16 := Memref.whole cc0_scratch2

/-- What the launch hands the region: the three scratch buffers at some contents and the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.Kernel.Body

end
-- ==== Proof.K.Spec.lean ====
import proofs.«179708_g35227321761815_cont_8to1_b_828_11_alg».proof.Proof.K.Setup
import Idealize.ShloMosaic.Lib.ValueIdx
import Idealize.ShloMosaic.Lib.Pipeline.Value

set_option maxRecDepth 16384

noncomputable section

/-!
  What the three results are, as functions of the six arrays the region is launched on (the adjacency, the
  features, the first layer's weights and bias row, the two heads' weights side by side and their bias rows end to end):
  the projected features `x W0`; the hidden rows, block `b` of 200 rows the ramp of `adj_b (x W0) + b0`; their
  projection by both heads; the two heads' rows, block by block, and the kept means; the reconstruction, block `b` the
  logistic function of the kept means' rows `b` against all of them. Written with the body's own operations, so the
  same text reads at words and at extended reals. Also: each input window's block at a point as rows of its array.
-/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2 eq_ix2)

variable (m : (ℓ : Loc nD τ sig) → Buf (Elt F) ℓ)

/-- Rows `[200 b, 200 b + 200)` of an array of 10000 rows. -/
def rowsOf {α : Type} {n : ℕ} (A : (⟨2, ![10000, n]⟩ : Shape).Idx → α) (b : ℕ) : (⟨2, ![200, n]⟩ : Shape).Idx → α :=
  fun y => A (ix2 ⟨(200 * b + (y 0).val) % 10000, Nat.mod_lt _ (by norm_num)⟩ (y 1))

/-- Fifty blocks of 200 rows stacked: row `r` is row `r % 200` of block `r / 200`. -/
def stack {α : Type} {n : ℕ} (B : ℕ → (⟨2, ![200, n]⟩ : Shape).Idx → α) : (⟨2, ![10000, n]⟩ : Shape).Idx → α :=
  fun y => B ((y 0).val / 200) (ix2 ⟨(y 0).val % 200, Nat.mod_lt _ (by norm_num)⟩ (y 1))

theorem stack_apply {α : Type} {n : ℕ} (B : ℕ → (⟨2, ![200, n]⟩ : Shape).Idx → α) (b : ℕ) (r : Fin 200) (q : Fin n)
    (k : Fin 10000) (hk : k.val = 200 * b + r.val) : stack B (ix2 k q) = B b (ix2 r q) := by
  have key : ∀ (b' r' : ℕ) (hr : r' < 200), b' = b → r' = r.val → B b' (ix2 ⟨r', hr⟩ q) = B b (ix2 r q) := by
    intro b' r' hr hb hr'; subst hb; subst hr'; rfl
  have hr := r.isLt
  exact key _ _ _ (by show k.val / 200 = b; omega) (by show k.val % 200 = r.val; omega)

theorem rowsOf_apply {α : Type} {n : ℕ} (A : (⟨2, ![10000, n]⟩ : Shape).Idx → α) (b : ℕ) (hb : b < 50) (r : Fin 200) (q : Fin n) :
    rowsOf A b (ix2 r q) = A (ix2 ⟨200 * b + r.val, by have := r.isLt; omega⟩ q) := by
  have hr := r.isLt
  unfold rowsOf
  refine congrArg A (congrArg (fun k => ix2 k q) (Fin.ext ?_))
  show (200 * b + r.val) % 10000 = 200 * b + r.val
  exact Nat.mod_eq_of_lt (by omega)

theorem rowsOf_stack {α : Type} {n : ℕ} (B : ℕ → (⟨2, ![200, n]⟩ : Shape).Idx → α) (b : ℕ) (hb : b < 50) :
    rowsOf (stack B) b = B b := by
  funext y
  have hy : (y 0).val < 200 := (y 0).isLt
  unfold rowsOf
  rw [stack_apply B b (y 0) (y 1) _ (by show (200 * b + (y 0).val) % 10000 = _; exact Nat.mod_eq_of_lt (by omega))]
  exact congrArg (B b) (eq_ix2 y).symm

/-! ## The arrays the region is launched on -/

abbrev aADJ (c : Dev nD) : Vec F S10000x10000 .f32 := V m c main_arg1
abbrev aX (c : Dev nD) : Vec F S10000x128 .f32 := V m c main_arg0
abbrev aW0 (c : Dev nD) : Vec F S128x64 .f32 := V m c main_arg2
abbrev aB0 (c : Dev nD) : Vec F S1x64 .f32 := V m c main_v3
abbrev aW12 (c : Dev nD) : Vec F S64x64 .f32 := V m c main_v0
abbrev aB12 (c : Dev nD) : Vec F S1x64 .f32 := V m c main_v2

/-! ## The windows' block indices, decided over the grid, and their blocks -/

theorem idx0_0 : ∀ t : Fin cfg0.N, win0_0.index t 0 = if t.val < 50 then t.val else if t.val < 100 then t.val - 50 else 49 :=
  (by decide +kernel : ∀ t : Fin grid0.N, win0_0.index t 0 = if t.val < 50 then t.val else if t.val < 100 then t.val - 50 else 49)
theorem idx0_1 : ∀ t : Fin cfg0.N, win0_0.index t 1 = 0 :=
  (by decide +kernel : ∀ t : Fin grid0.N, win0_0.index t 1 = 0)
theorem idx6 : ∀ t : Fin cfg0.N, win0_6.index t 0 = t.val - 100 ∧ win0_6.index t 1 = 0 :=
  (by decide +kernel : ∀ t : Fin grid0.N, win0_6.index t 0 = t.val - 100 ∧ win0_6.index t 1 = 0)
theorem idx7 : ∀ t : Fin cfg0.N, win0_7.index t 0 = min (t.val - 50) 49 ∧ win0_7.index t 1 = 0 :=
  (by decide +kernel : ∀ t : Fin grid0.N, win0_7.index t 0 = min (t.val - 50) 49 ∧ win0_7.index t 1 = 0)
theorem idx8 : ∀ t : Fin cfg0.N, win0_8.index t 0 = min (t.val - 50) 49 ∧ win0_8.index t 1 = 0 :=
  (by decide +kernel : ∀ t : Fin grid0.N, win0_8.index t 0 = min (t.val - 50) 49 ∧ win0_8.index t 1 = 0)

/-- The adjacency's block at a point is the 200 rows its block index names. -/
theorem iblk0 (c : Dev nD) (t : Fin cfg0.N) :
    (iblk m c 0 t : Vec F S200x10000 .f32) = rowsOf (aADJ m c) (win0_0.index t 0) := by
  funext y
  unfold iblk rowsOf
  rw [View.read_apply]
  show V m c main_arg1 (((cfg0.win 0).blk t).view.emb y) = V m c main_arg1 _
  have h0 := idx0_0 t
  have h1 := idx0_1 t
  have hN : t.val < 150 := lt_of_lt_of_eq t.isLt N_0
  have hy : (y 0).val < 200 := (y 0).isLt
  have hle : win0_0.index t 0 ≤ 49 := by rw [h0]; split_ifs <;> omega
  refine congrArg (V m c main_arg1) (funext fun a => Fin.ext ?_)
  match a with
  | ⟨0, _⟩ =>
    show win0_0.index t 0 * 200 + 1 * (y 0).val = (200 * win0_0.index t 0 + (y 0).val) % 10000
    rw [Nat.mod_eq_of_lt (by omega)]; omega
  | ⟨1, _⟩ =>
    show win0_0.index t 1 * 10000 + 1 * (y 1).val = (y 1).val
    rw [h1]; omega

theorem idx1 : ∀ t : Fin cfg0.N, win0_1.index t 0 = 0 ∧ win0_1.index t 1 = 0 :=
  (by decide +kernel : ∀ t : Fin grid0.N, win0_1.index t 0 = 0 ∧ win0_1.index t 1 = 0)
/-- Window 1's block is its whole array at every point. -/
theorem iblk1 (c : Dev nD) (t : Fin cfg0.N) : (iblk m c 1 t : Vec F S10000x128 .f32) = aX m c := by
  funext y
  unfold iblk
  rw [View.read_apply]
  show V m c main_arg0 (((cfg0.win 1).blk t).view.emb y) = V m c main_arg0 y
  obtain ⟨h0, h1⟩ := idx1 t
  refine congrArg (V m c main_arg0) (funext fun a => Fin.ext ?_)
  match a with
  | ⟨0, _⟩ =>
    show win0_1.index t 0 * 10000 + 1 * (y 0).val = (y 0).val
    rw [h0]; omega
  | ⟨1, _⟩ =>
    show win0_1.index t 1 * 128 + 1 * (y 1).val = (y 1).val
    rw [h1]; omega

theorem idx2 : ∀ t : Fin cfg0.N, win0_2.index t 0 = 0 ∧ win0_2.index t 1 = 0 :=
  (by decide +kernel : ∀ t : Fin grid0.N, win0_2.index t 0 = 0 ∧ win0_2.index t 1 = 0)
/-- Window 2's block is its whole array at every point. -/
theorem iblk2 (c : Dev nD) (t : Fin cfg0.N) : (iblk m c 2 t : Vec F S128x64 .f32) = aW0 m c := by
  funext y
  unfold iblk
  rw [View.read_apply]
  show V m c main_arg2 (((cfg0.win 2).blk t).view.emb y) = V m c main_arg2 y
  obtain ⟨h0, h1⟩ := idx2 t
  refine congrArg (V m c main_arg2) (funext fun a => Fin.ext ?_)
  match a with
  | ⟨0, _⟩ =>
    show win0_2.index t 0 * 128 + 1 * (y 0).val = (y 0).val
    rw [h0]; omega
  | ⟨1, _⟩ =>
    show win0_2.index t 1 * 64 + 1 * (y 1).val = (y 1).val
    rw [h1]; omega

theorem idx3 : ∀ t : Fin cfg0.N, win0_3.index t 0 = 0 ∧ win0_3.index t 1 = 0 :=
  (by decide +kernel : ∀ t : Fin grid0.N, win0_3.index t 0 = 0 ∧ win0_3.index t 1 = 0)
/-- Window 3's block is its whole array at every point. -/
theorem iblk3 (c : Dev nD) (t : Fin cfg0.N) : (iblk m c 3 t : Vec F S1x64 .f32) = aB0 m c := by
  funext y
  unfold iblk
  rw [View.read_apply]
  show V m c main_v3 (((cfg0.win 3).blk t).view.emb y) = V m c main_v3 y
  obtain ⟨h0, h1⟩ := idx3 t
  refine congrArg (V m c main_v3) (funext fun a => Fin.ext ?_)
  match a with
  | ⟨0, _⟩ =>
    show win0_3.index t 0 * 1 + 1 * (y 0).val = (y 0).val
    rw [h0]; omega
  | ⟨1, _⟩ =>
    show win0_3.index t 1 * 64 + 1 * (y 1).val = (y 1).val
    rw [h1]; omega

theorem idx4 : ∀ t : Fin cfg0.N, win0_4.index t 0 = 0 ∧ win0_4.index t 1 = 0 :=
  (by decide +kernel : ∀ t : Fin grid0.N, win0_4.index t 0 = 0 ∧ win0_4.index t 1 = 0)
/-- Window 4's block is its whole array at every point. -/
theorem iblk4 (c : Dev nD) (t : Fin cfg0.N) : (iblk m c 4 t : Vec F S64x64 .f32) = aW12 m c := by
  funext y
  unfold iblk
  rw [View.read_apply]
  show V m c main_v0 (((cfg0.win 4).blk t).view.emb y) = V m c main_v0 y
  obtain ⟨h0, h1⟩ := idx4 t
  refine congrArg (V m c main_v0) (funext fun a => Fin.ext ?_)
  match a with
  | ⟨0, _⟩ =>
    show win0_4.index t 0 * 64 + 1 * (y 0).val = (y 0).val
    rw [h0]; omega
  | ⟨1, _⟩ =>
    show win0_4.index t 1 * 64 + 1 * (y 1).val = (y 1).val
    rw [h1]; omega

theorem idx5 : ∀ t : Fin cfg0.N, win0_5.index t 0 = 0 ∧ win0_5.index t 1 = 0 :=
  (by decide +kernel : ∀ t : Fin grid0.N, win0_5.index t 0 = 0 ∧ win0_5.index t 1 = 0)
/-- Window 5's block is its whole array at every point. -/
theorem iblk5 (c : Dev nD) (t : Fin cfg0.N) : (iblk m c 5 t : Vec F S1x64 .f32) = aB12 m c := by
  funext y
  unfold iblk
  rw [View.read_apply]
  show V m c main_v2 (((cfg0.win 5).blk t).view.emb y) = V m c main_v2 y
  obtain ⟨h0, h1⟩ := idx5 t
  refine congrArg (V m c main_v2) (funext fun a => Fin.ext ?_)
  match a with
  | ⟨0, _⟩ =>
    show win0_5.index t 0 * 1 + 1 * (y 0).val = (y 0).val
    rw [h0]; omega
  | ⟨1, _⟩ =>
    show win0_5.index t 1 * 64 + 1 * (y 1).val = (y 1).val
    rw [h1]; omega

/-! ## The results -/

/-- The features projected by the first layer's weights. -/
def sXW (c : Dev nD) : Vec F S10000x64 .f32 := k0_pay1 (aX m c) (aW0 m c)
/-- The hidden rows: block `b` is the ramp of the adjacency's rows `b` times the projected features plus the bias row. -/
def sH (c : Dev nD) : Vec F S10000x64 .f32 := stack fun b => k0_pay2 (rowsOf (aADJ m c) b) (sXW m c) (aB0 m c)
/-- The hidden rows projected by the two heads' weights side by side. -/
def sHW (c : Dev nD) : Vec F S10000x64 .f32 := k0_pay3 (sH m c) (aW12 m c)
/-- The mean head's rows. -/
def sMU (c : Dev nD) : Vec F S10000x32 .f32 := stack fun b => k0_pay5 (rowsOf (aADJ m c) b) (sHW m c) (aB12 m c)
/-- The log-variance head's rows. -/
def sLV (c : Dev nD) : Vec F S10000x32 .f32 := stack fun b => k0_pay6 (rowsOf (aADJ m c) b) (sHW m c) (aB12 m c)
/-- The means as kept for the third phase. -/
def sZ (c : Dev nD) : Vec F S10000x32 .bf16 := stack fun b => k0_pay7 (rowsOf (aADJ m c) b) (sHW m c) (aB12 m c)
/-- The reconstruction: block `b` is the logistic function of the kept means' rows `b` against all the kept means. -/
def sREC (c : Dev nD) : Vec F S10000x10000 .f32 := stack fun b => k0_pay8 (rowsOf (sZ m c) b) (sZ m c)

end Cert.Kernel.Body

end
-- ==== Proof.K.Inv.lean ====
import proofs.«179708_g35227321761815_cont_8to1_b_828_11_alg».proof.Proof.K.Spec

set_option maxRecDepth 16384

noncomputable section

/-!
  What the three scratch buffers hold after point `n`: the first the projected features through the first phase and
  the hidden rows' projection from point 50 on; the second the hidden rows on its first `200 (n + 1)` rows; the third,
  from point 50 on, the kept means on its first `200 (n - 49)` rows. Each point's stores keep this, and in the second
  and third phases what the point stores into its output blocks is the block of the result.
-/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2 eq_ix2)
open Idealize.ShloMosaic.RowsStore (upd upd_of_mem upd_of_not_mem)

variable (m : (ℓ : Loc nD τ sig) → Buf (Elt F) ℓ)

/-- The scratch buffers' contents after point `n`. -/
def Inv (c : Dev nD) (n : ℕ) (S0 S1 : Vec F S10000x64 .f32) (S2 : Vec F S10000x32 .bf16) : Prop :=
  (n < 50 → S0 = sXW m c) ∧ (50 ≤ n → S0 = sHW m c)
  ∧ (∀ y : S10000x64.Idx, (y 0).val < 200 * (n + 1) → S1 y = sH m c y)
  ∧ (∀ y : S10000x32.Idx, 50 ≤ n → (y 0).val < 200 * (n + 1 - 50) → S2 y = sZ m c y)

/-- Rows `[200 b, 200 b + 200)` rewritten with block `b` of a stack agree with the stack up to row `200 (b + 1)`, if the
    old contents did up to row `200 b`. -/
theorem upd_stack {α : Type} {n : ℕ} (S : (⟨2, ![10000, n]⟩ : Shape).Idx → α) (B : ℕ → (⟨2, ![200, n]⟩ : Shape).Idx → α)
    (b : ℕ) (hb : b < 50) (hS : ∀ y : (⟨2, ![10000, n]⟩ : Shape).Idx, (y 0).val < 200 * b → S y = stack B y)
    (y : (⟨2, ![10000, n]⟩ : Shape).Idx) (hy : (y 0).val < 200 * (b + 1)) :
    upd (d := ![10000, n]) (size := ![200, n]) S (200 * b) 200 rfl rfl (B b) y = stack B y := by
  by_cases h : 200 * b ≤ (y 0).val
  · have hlt : (y 0).val - 200 * b < 200 := by omega
    rw [upd_of_mem (d := ![10000, n]) (size := ![200, n]) S (200 * b) 200 rfl rfl (B b) y (ix2 ⟨(y 0).val - 200 * b, hlt⟩ (y 1)) (by show (y 0).val = 200 * b + ((y 0).val - 200 * b); omega) rfl]
    exact (stack_apply B b ⟨(y 0).val - 200 * b, hlt⟩ (y 1) (y 0) (by show (y 0).val = 200 * b + ((y 0).val - 200 * b); omega)).symm.trans
      (congrArg (stack B) (eq_ix2 y).symm)
  · rw [upd_of_not_mem (d := ![10000, n]) (size := ![200, n]) S (200 * b) 200 rfl rfl (B b) y (Or.inl (by omega))]
    exact hS y (by omega)

/-- The first point. -/
theorem inv_first (c : Dev nD) (S1 : Vec F S10000x64 .f32) (S2 : Vec F S10000x32 .bf16) :
    Inv m c 0 (sXW m c) (upd (d := ![10000, 64]) (size := ![200, 64]) S1 0 200 rfl rfl (k0_pay2 (rowsOf (aADJ m c) 0) (sXW m c) (aB0 m c))) S2 := by
  refine ⟨fun _ => rfl, fun h => absurd h (by omega), fun y hy => ?_, fun y h => absurd h (by omega)⟩
  exact upd_stack S1 (fun b => k0_pay2 (rowsOf (aADJ m c) b) (sXW m c) (aB0 m c)) 0 (by omega) (fun y hy => absurd hy (by omega)) y hy

/-- A later point of the first phase. -/
theorem inv_phase1 (c : Dev nD) (n : ℕ) (h0 : 0 < n) (hn : n < 50) (S0 S1 : Vec F S10000x64 .f32) (S2 : Vec F S10000x32 .bf16)
    (h : Inv m c (n - 1) S0 S1 S2) :
    Inv m c n S0 (upd (d := ![10000, 64]) (size := ![200, 64]) S1 (200 * n) 200 rfl rfl (k0_pay2 (rowsOf (aADJ m c) n) S0 (aB0 m c))) S2 := by
  obtain ⟨hA, -, hS1, -⟩ := h
  have e0 : S0 = sXW m c := hA (by omega)
  subst e0
  refine ⟨fun _ => rfl, fun h => absurd h (by omega), fun y hy => ?_, fun y h => absurd h (by omega)⟩
  exact upd_stack S1 (fun b => k0_pay2 (rowsOf (aADJ m c) b) (sXW m c) (aB0 m c)) n hn (fun y hy => hS1 y (by omega)) y hy

/-- After the first phase the second scratch holds all the hidden rows. -/
theorem inv_hidden (c : Dev nD) (n : ℕ) (hn : 49 ≤ n) (S0 S1 : Vec F S10000x64 .f32) (S2 : Vec F S10000x32 .bf16)
    (h : Inv m c n S0 S1 S2) : S1 = sH m c :=
  funext fun y => h.2.2.1 y (by have h2 : (y 0).val < 10000 := Idealize.ShloMosaic.ValueIdx.idx2_lt0 y; omega)

/-- After the second phase the third scratch holds all the kept means. -/
theorem inv_means (c : Dev nD) (n : ℕ) (hn : 99 ≤ n) (S0 S1 : Vec F S10000x64 .f32) (S2 : Vec F S10000x32 .bf16)
    (h : Inv m c n S0 S1 S2) : S2 = sZ m c :=
  funext fun y => h.2.2.2 y (by omega) (by have h2 : (y 0).val < 10000 := Idealize.ShloMosaic.ValueIdx.idx2_lt0 y; omega)

/-- The first point of the second phase. -/
theorem inv_mid (c : Dev nD) (S0 S1 : Vec F S10000x64 .f32) (S2 : Vec F S10000x32 .bf16) (h : Inv m c 49 S0 S1 S2) :
    Inv m c 50 (k0_pay3 S1 (aW12 m c)) S1
      (upd (d := ![10000, 32]) (size := ![200, 32]) S2 0 200 rfl rfl (k0_pay7 (rowsOf (aADJ m c) 0) (k0_pay3 S1 (aW12 m c)) (aB12 m c)))
    ∧ k0_pay3 S1 (aW12 m c) = sHW m c := by
  have e1 : S1 = sH m c := inv_hidden m c 49 (le_refl _) S0 S1 S2 h
  subst e1
  refine ⟨⟨fun h => absurd h (by omega), fun _ => rfl, fun y _ => rfl, fun y _ hy => ?_⟩, rfl⟩
  exact upd_stack S2 (fun b => k0_pay7 (rowsOf (aADJ m c) b) (sHW m c) (aB12 m c)) 0 (by omega) (fun y hy => absurd hy (by omega)) y hy

/-- A later point of the second phase. -/
theorem inv_phase2 (c : Dev nD) (n : ℕ) (h0 : 50 < n) (hn : n < 100) (S0 S1 : Vec F S10000x64 .f32) (S2 : Vec F S10000x32 .bf16)
    (h : Inv m c (n - 1) S0 S1 S2) :
    Inv m c n S0 S1 (upd (d := ![10000, 32]) (size := ![200, 32]) S2 (200 * (n - 50)) 200 rfl rfl (k0_pay7 (rowsOf (aADJ m c) (n - 50)) S0 (aB12 m c)))
    ∧ S0 = sHW m c := by
  obtain ⟨-, hB, hS1, hS2⟩ := h
  have e0 : S0 = sHW m c := hB (by omega)
  subst e0
  refine ⟨⟨fun h => absurd h (by omega), fun _ => rfl, fun y hy => hS1 y (by have h2 : (y 0).val < 10000 := Idealize.ShloMosaic.ValueIdx.idx2_lt0 y; omega), fun y _ hy => ?_⟩, rfl⟩
  exact upd_stack S2 (fun b => k0_pay7 (rowsOf (aADJ m c) b) (sHW m c) (aB12 m c)) (n - 50) (by omega)
    (fun y hy => hS2 y (by omega) (by omega)) y (by omega)

/-- A point of the third phase: nothing in scratch changes. -/
theorem inv_phase3 (c : Dev nD) (n : ℕ) (h0 : 100 ≤ n) (S0 S1 : Vec F S10000x64 .f32) (S2 : Vec F S10000x32 .bf16)
    (h : Inv m c (n - 1) S0 S1 S2) : Inv m c n S0 S1 S2 ∧ S2 = sZ m c := by
  have e2 : S2 = sZ m c := inv_means m c (n - 1) (by omega) S0 S1 S2 h
  obtain ⟨-, hB, hS1, -⟩ := h
  exact ⟨⟨fun h => absurd h (by omega), fun _ => hB (by omega), fun y hy => hS1 y (by have h2 : (y 0).val < 10000 := Idealize.ShloMosaic.ValueIdx.idx2_lt0 y; omega), fun y _ _ => congrFun e2 y⟩, e2⟩

/-- Block `b` of each head's rows, and of the reconstruction, as the body computes it. -/
theorem rows_mu (c : Dev nD) (b : ℕ) (hb : b < 50) : rowsOf (sMU m c) b = k0_pay5 (rowsOf (aADJ m c) b) (sHW m c) (aB12 m c) :=
  rowsOf_stack _ b hb
theorem rows_lv (c : Dev nD) (b : ℕ) (hb : b < 50) : rowsOf (sLV m c) b = k0_pay6 (rowsOf (aADJ m c) b) (sHW m c) (aB12 m c) :=
  rowsOf_stack _ b hb
theorem rows_rec (c : Dev nD) (b : ℕ) (hb : b < 50) : rowsOf (sREC m c) b = k0_pay8 (rowsOf (sZ m c) b) (sZ m c) :=
  rowsOf_stack _ b hb

end Cert.Kernel.Body

end
-- ==== Proof.K.CaseA.lean ====
import proofs.«179708_g35227321761815_cont_8to1_b_828_11_alg».proof.Proof.K.Setup
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.RowsStore (upd)

set_option maxHeartbeats 4000000 in
/-- The first point: the features are projected into the first scratch, then the first 200 hidden rows are written into the second. -/
theorem runA (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : c1 i) (h2 : c2 i) (h3 : ¬c3 i) (h4 : ¬c4 i) (h5 : ¬c5 i) (o : ℕ) (ho : k0_off1 i = ![o, 0])
    (x0 : Vec F S200x10000 .f32) (x1 : Vec F S10000x128 .f32) (x2 : Vec F S128x64 .f32) (x3 : Vec F S1x64 .f32) (s1 : Vec F S10000x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d) ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k0_pay1 x1 x2) ∗ owns (c : Thread nD τ) arg11 fullShare (upd (d := ![10000, 64]) (size := ![200, 64]) s1 o 200 rfl rfl (k0_pay2 x0 (k0_pay1 x1 x2) x3))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg11.eq_unread hfs1
  sl_exec (disch := first | exact h1 | exact h2 | exact h3 | exact h4 | exact h5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  iexists _; isplitr
  swap; · iexact HS1
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 64]) (o := o) (W := 200) arg11 harg11 s1 _ _ ho rfl rfl

end Cert.Kernel.Body

end
-- ==== Proof.K.CaseB.lean ====
import proofs.«179708_g35227321761815_cont_8to1_b_828_11_alg».proof.Proof.K.Setup
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.RowsStore (upd)

set_option maxHeartbeats 4000000 in
/-- A later point of the first phase: 200 more hidden rows are written into the second scratch. -/
theorem runB (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : c2 i) (h3 : ¬c3 i) (h4 : ¬c4 i) (h5 : ¬c5 i) (o : ℕ) (ho : k0_off1 i = ![o, 0])
    (x0 : Vec F S200x10000 .f32) (x3 : Vec F S1x64 .f32) (s0 : Vec F S10000x64 .f32) (s1 : Vec F S10000x64 .f32)
    (E : Set ℕ) (K : PUnit → sProp 𝕄) :
    iprop(owns (c : Thread nD τ) arg1 fullShare x0 ∗ owns (c : Thread nD τ) arg4 fullShare x3 ∗ owns (c : Thread nD τ) arg10 fullShare s0 ∗ owns (c : Thread nD τ) arg11 fullShare s1
        ∗ (iprop(owns (c : Thread nD τ) arg1 fullShare x0 ∗ owns (c : Thread nD τ) arg4 fullShare x3 ∗ owns (c : Thread nD τ) arg10 fullShare s0 ∗ owns (c : Thread nD τ) arg11 fullShare (upd (d := ![10000, 64]) (size := ![200, 64]) s1 o 200 rfl rfl (k0_pay2 x0 s0 x3))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f3, %hf3, H3⟩, ⟨%fs0, %hfs0, HS0⟩, ⟨%fs1, %hfs1, HS1⟩, Hk⟩
  obtain rfl := harg1.eq_unread hf0; obtain rfl := harg4.eq_unread hf3; obtain rfl := harg10.eq_unread hfs0; obtain rfl := harg11.eq_unread hfs1
  sl_exec (disch := first | exact h1 | exact h2 | exact h3 | exact h4 | exact h5)
  sl_step
  iapply Hk
  isplitl [H0]
  · iexists _; isplitr; · ipureintro; exact harg1.read_unread _
    iexact H0
  isplitl [H3]
  · iexists _; isplitr; · ipureintro; exact harg4.read_unread _
    iexact H3
  isplitl [HS0]
  · iexists _; isplitr; · ipureintro; exact harg10.read_unread _
    iexact HS0
  iexists _; isplitr
  swap; · iexact HS1
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 64]) (o := o) (W := 200) arg11 harg11 s1 _ _ ho rfl rfl

end Cert.Kernel.Body

end
-- ==== Proof.K.CaseC.lean ====
import proofs.«179708_g35227321761815_cont_8to1_b_828_11_alg».proof.Proof.K.Setup
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.RowsStore (upd)

set_option maxHeartbeats 4000000 in
/-- The first point of the second phase: the hidden rows are projected by both heads' weights into the first scratch, then the first 200 rows of both heads are stored and the mean's kept in the third scratch. -/
theorem runC (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : ¬c2 i) (h3 : c3 i) (h4 : c4 i) (h5 : ¬c5 i) (o : ℕ) (ho : k0_off2 i = ![o, 0])
    (x0 : Vec F S200x10000 .f32) (x4 : Vec F S64x64 .f32) (x5 : Vec F S1x64 .f32) (s1 : Vec F S10000x64 .f32) (s2 : Vec F S10000x32 .bf16)
    (E : Set ℕ) (K : PUnit → sProp 𝕄) :
    iprop(owns (c : Thread nD τ) arg1 fullShare x0 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s1 ∗ owns (c : Thread nD τ) arg12 fullShare s2
        ∗ (iprop(owns (c : Thread nD τ) arg1 fullShare x0 ∗ owns (c : Thread nD τ) arg5 fullShare x4 ∗ owns (c : Thread nD τ) arg6 fullShare x5 ∗ owns (c : Thread nD τ) arg8 fullShare (k0_pay5 x0 (k0_pay3 s1 x4) x5) ∗ owns (c : Thread nD τ) arg9 fullShare (k0_pay6 x0 (k0_pay3 s1 x4) x5) ∗ owns (c : Thread nD τ) arg10 fullShare (k0_pay3 s1 x4) ∗ owns (c : Thread nD τ) arg11 fullShare s1 ∗ owns (c : Thread nD τ) arg12 fullShare (upd (d := ![10000, 32]) (size := ![200, 32]) s2 o 200 rfl rfl (k0_pay7 x0 (k0_pay3 s1 x4) x5))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f4, %hf4, H4⟩, ⟨%f5, %hf5, H5⟩, ⟨%d7, %f7, -, H7⟩, ⟨%d8, %f8, -, H8⟩, ⟨%ds0, %fs0, -, HS0⟩, ⟨%fs1, %hfs1, HS1⟩, ⟨%fs2, %hfs2, HS2⟩, Hk⟩
  obtain rfl := harg1.eq_unread hf0; obtain rfl := harg5.eq_unread hf4; obtain rfl := harg6.eq_unread hf5; obtain rfl := harg11.eq_unread hfs1; obtain rfl := harg12.eq_unread hfs2
  sl_exec (disch := first | exact h1 | exact h2 | exact h3 | exact h4 | exact h5)
  sl_step
  iapply Hk
  isplitl [H0]
  · iexists _; isplitr; · ipureintro; exact harg1.read_unread _
    iexact H0
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [H8]
  · iexists _; isplitr
    swap; · iexact H8
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [HS0]
  · iexists _; isplitr
    swap; · iexact HS0
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [HS1]
  · iexists _; isplitr; · ipureintro; exact harg11.read_unread _
    iexact HS1
  iexists _; isplitr
  swap; · iexact HS2
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 32]) (o := o) (W := 200) arg12 harg12 s2 _ _ ho rfl rfl

end Cert.Kernel.Body

end
-- ==== Proof.K.CaseD.lean ====
import proofs.«179708_g35227321761815_cont_8to1_b_828_11_alg».proof.Proof.K.Setup
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.RowsStore (upd)

set_option maxHeartbeats 4000000 in
/-- A later point of the second phase: 200 more rows of both heads are stored and the mean's kept in the third scratch. -/
theorem runD (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : ¬c2 i) (h3 : ¬c3 i) (h4 : c4 i) (h5 : ¬c5 i) (o : ℕ) (ho : k0_off2 i = ![o, 0])
    (x0 : Vec F S200x10000 .f32) (x5 : Vec F S1x64 .f32) (s0 : Vec F S10000x64 .f32) (s2 : Vec F S10000x32 .bf16)
    (E : Set ℕ) (K : PUnit → sProp 𝕄) :
    iprop(owns (c : Thread nD τ) arg1 fullShare x0 ∗ owns (c : Thread nD τ) arg6 fullShare x5 ∗ (∃ d, owns (c : Thread nD τ) arg8 fullShare d) ∗ (∃ d, owns (c : Thread nD τ) arg9 fullShare d) ∗ owns (c : Thread nD τ) arg10 fullShare s0 ∗ owns (c : Thread nD τ) arg12 fullShare s2
        ∗ (iprop(owns (c : Thread nD τ) arg1 fullShare x0 ∗ owns (c : Thread nD τ) arg6 fullShare x5 ∗ owns (c : Thread nD τ) arg8 fullShare (k0_pay5 x0 s0 x5) ∗ owns (c : Thread nD τ) arg9 fullShare (k0_pay6 x0 s0 x5) ∗ owns (c : Thread nD τ) arg10 fullShare s0 ∗ owns (c : Thread nD τ) arg12 fullShare (upd (d := ![10000, 32]) (size := ![200, 32]) s2 o 200 rfl rfl (k0_pay7 x0 s0 x5))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f5, %hf5, H5⟩, ⟨%d7, %f7, -, H7⟩, ⟨%d8, %f8, -, H8⟩, ⟨%fs0, %hfs0, HS0⟩, ⟨%fs2, %hfs2, HS2⟩, Hk⟩
  obtain rfl := harg1.eq_unread hf0; obtain rfl := harg6.eq_unread hf5; obtain rfl := harg10.eq_unread hfs0; obtain rfl := harg12.eq_unread hfs2
  sl_exec (disch := first | exact h1 | exact h2 | exact h3 | exact h4 | exact h5)
  sl_step
  iapply Hk
  isplitl [H0]
  · iexists _; isplitr; · ipureintro; exact harg1.read_unread _
    iexact H0
  isplitl [H5]
  · iexists _; isplitr; · ipureintro; exact harg6.read_unread _
    iexact H5
  isplitl [H7]
  · iexists _; isplitr
    swap; · iexact H7
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [H8]
  · iexists _; isplitr
    swap; · iexact H8
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [HS0]
  · iexists _; isplitr; · ipureintro; exact harg10.read_unread _
    iexact HS0
  iexists _; isplitr
  swap; · iexact HS2
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 32]) (o := o) (W := 200) arg12 harg12 s2 _ _ ho rfl rfl

end Cert.Kernel.Body

end
-- ==== Proof.K.CaseE.lean ====
import proofs.«179708_g35227321761815_cont_8to1_b_828_11_alg».proof.Proof.K.Setup
import Idealize.ShloMosaic.Lib.Pipeline.Value

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.RowsStore (upd)

set_option maxHeartbeats 4000000 in
/-- A point of the third phase: 200 rows of the kept means against all of them, through the logistic function. -/
theorem runE (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : ¬c2 i) (h3 : ¬c3 i) (h4 : ¬c4 i) (h5 : c5 i)
    (s2 : Vec F S10000x32 .bf16)
    (E : Set ℕ) (K : PUnit → sProp 𝕄) :
    iprop((∃ d, owns (c : Thread nD τ) arg7 fullShare d) ∗ owns (c : Thread nD τ) arg12 fullShare s2
        ∗ (iprop(owns (c : Thread nD τ) arg7 fullShare (k0_pay8 (View.ld s2 (Rect.unit (s := S10000x32) (k0_off3 i) S200x32.size (k0_off3_inb i h5))) s2) ∗ owns (c : Thread nD τ) arg12 fullShare s2) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%d6, %f6, -, H6⟩, ⟨%fs2, %hfs2, HS2⟩, Hk⟩
  obtain rfl := harg12.eq_unread hfs2
  sl_exec (disch := first | exact h1 | exact h2 | exact h3 | exact h4 | exact h5)
  sl_step
  iapply Hk
  isplitl [H6]
  · iexists _; isplitr
    swap; · iexact H6
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  iexists _; isplitr; · ipureintro; exact harg12.read_unread _
  iexact HS2

end Cert.Kernel.Body

end
-- ==== Proof.K.Data.lean ====
import proofs.«179708_g35227321761815_cont_8to1_b_828_11_alg».proof.Proof.K.Inv
import proofs.«179708_g35227321761815_cont_8to1_b_828_11_alg».proof.Proof.K.CaseA
import proofs.«179708_g35227321761815_cont_8to1_b_828_11_alg».proof.Proof.K.CaseB
import proofs.«179708_g35227321761815_cont_8to1_b_828_11_alg».proof.Proof.K.CaseC
import proofs.«179708_g35227321761815_cont_8to1_b_828_11_alg».proof.Proof.K.CaseD
import proofs.«179708_g35227321761815_cont_8to1_b_828_11_alg».proof.Proof.K.CaseE

set_option maxRecDepth 16384

noncomputable section

/-!
  The proof data of the one pipelined call and its body obligation. After the body at a point each input window's
  buffer still holds its block; the reconstruction window's holds block `t - 100` of the reconstruction; each head
  window's holds block `t - 50` of its head's rows, capped at the last block, which it keeps untouched through the third
  phase until the write-back after the last point. Between points the three scratch buffers hold what `Inv` says.
  The obligation is proved by the six ranges of the point: the first point, the rest of the first phase, point 50, the
  rest of the second phase, the third phase, each by that range's run of the body.
-/

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.ValueIdx (ix2 eq_ix2)
open Idealize.ShloMosaic.RowsStore (upd)

variable (m : (ℓ : Loc nD τ sig) → Buf (Elt F) ℓ) (ρ : Dev nD → PrngReg)

theorem not_flush {b : Bool} {P : Prop} (h : b = true ↔ P) (hn : ¬P) : b = false := by
  cases b
  · rfl
  · exact absurd (h.mp rfl) hn

/-! ## The invariant between points -/

/-- Before the first point the scratch buffers hold anything; after point `n` what `Inv` says. -/
def PhiS (c : Dev nD) : (n : ℕ) → n ≤ cfg0.N → sProp 𝕄
  | 0, _ => Pipeline.ΦA spec0 c
  | n + 1, _ => iprop(iprop(∃ S0 : Vec F S10000x64 .f32, ∃ S1 : Vec F S10000x64 .f32, ∃ S2 : Vec F S10000x32 .bf16, ⌜Inv m c n S0 S1 S2⌝ ∗ owns (c : Thread nD τ) scM0 fullShare S0 ∗ owns (c : Thread nD τ) scM1 fullShare S1 ∗ owns (c : Thread nD τ) scM2 fullShare S2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ S0 : Vec F S10000x64 .f32, ∃ S1 : Vec F S10000x64 .f32, ∃ S2 : Vec F S10000x32 .bf16, ⌜Inv m c n S0 S1 S2⌝ ∗ owns (c : Thread nD τ) scM0 fullShare S0 ∗ owns (c : Thread nD τ) scM1 fullShare S1 ∗ owns (c : Thread nD τ) scM2 fullShare S2) ∗ (∃ r, prngReg c r)) := rfl

theorem PhiS_pos (c : Dev nD) (n : ℕ) (h : n ≤ cfg0.N) (hz : n ≠ 0) :
    PhiS m c n h = iprop(iprop(∃ S0 : Vec F S10000x64 .f32, ∃ S1 : Vec F S10000x64 .f32, ∃ S2 : Vec F S10000x32 .bf16, ⌜Inv m c (n - 1) S0 S1 S2⌝ ∗ owns (c : Thread nD τ) scM0 fullShare S0 ∗ owns (c : Thread nD τ) scM1 fullShare S1 ∗ owns (c : Thread nD τ) scM2 fullShare S2) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsOf (sREC m c) (t.val - 100)
    | ⟨7, _⟩ => rowsOf (sMU m c) (min (t.val - 50) 49)
    | ⟨8, _⟩ => rowsOf (sLV m c) (min (t.val - 50) 49)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = rowsOf (sREC m c) (t.val - 100) := by dsimp only [dats]
theorem after7 (c : Dev nD) (t : Fin cfg0.N) : (dats m 0 c).after 7 t = rowsOf (sMU m c) (min (t.val - 50) 49) := by dsimp only [dats]
theorem after8 (c : Dev nD) (t : Fin cfg0.N) : (dats m 0 c).after 8 t = rowsOf (sLV m c) (min (t.val - 50) 49) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## A head window through the third phase: untouched since point 99 -/

/-- A window not fetched, after a point that neither wrote it back nor was idle for it, holds what that point left. -/
theorem before_after_live (c : Dev nD) (w : Fin cfg0.W) (t : Fin cfg0.N) (ht : t.val ≠ 0) (hf : (cfg0.win w).fetch t = false)
    (hfl : (cfg0.win w).flush ⟨t.val - 1, Nat.lt_of_le_of_lt (Nat.sub_le _ _) t.isLt⟩ = false)
    (hlv : cfg0.idle w (cfg0.grid.coords ⟨t.val - 1, Nat.lt_of_le_of_lt (Nat.sub_le _ _) t.isLt⟩) = false) (d) :
    (dats m 0 c).before w t d = (dats m 0 c).kept w ⟨t.val - 1, Nat.lt_of_le_of_lt (Nat.sub_le _ _) t.isLt⟩ d := by
  rw [(dats m 0 c).before_of_pos w t ht hf, hfl, if_neg Bool.false_ne_true]
  unfold Dat.left; rw [hlv]

/-- After a point idle for it that did not write it back, what it held before that point. -/
theorem before_after_idle (c : Dev nD) (w : Fin cfg0.W) (t : Fin cfg0.N) (ht : t.val ≠ 0) (hf : (cfg0.win w).fetch t = false)
    (hfl : (cfg0.win w).flush ⟨t.val - 1, Nat.lt_of_le_of_lt (Nat.sub_le _ _) t.isLt⟩ = false)
    (hid : cfg0.idle w (cfg0.grid.coords ⟨t.val - 1, Nat.lt_of_le_of_lt (Nat.sub_le _ _) t.isLt⟩) = true) (d) :
    (dats m 0 c).before w t d = (dats m 0 c).before w ⟨t.val - 1, Nat.lt_of_le_of_lt (Nat.sub_le _ _) t.isLt⟩ d := by
  rw [(dats m 0 c).before_of_pos w t ht hf, hfl, if_neg Bool.false_ne_true]
  unfold Dat.left; rw [hid]

theorem before7_late (c : Dev nD) (d) : ∀ (k : ℕ) (h : 100 + k < cfg0.N), (dats m 0 c).before 7 ⟨100 + k, h⟩ d = rowsOf (sMU m c) 49
  | 0, h => by
    rw [before_after_live m c 7 ⟨100, h⟩ (by show (100 : ℕ) ≠ 0; omega) (fetch7 _)
      (not_flush (flush7 _) (by show ¬((50 ≤ 100 - 1 ∧ 100 - 1 < 99) ∨ 100 - 1 = 149); omega))
      (live7 _ (by show 50 ≤ 100 - 1; omega) (by show 100 - 1 < 100; omega)) d]
    show (dats m 0 c).after 7 ⟨99, _⟩ = _
    rw [after7]
    rfl
  | k + 1, h => by
    have hN : 100 + (k + 1) < 150 := lt_of_lt_of_eq h N_0
    rw [before_after_idle m c 7 ⟨100 + (k + 1), h⟩ (by show 100 + (k + 1) ≠ 0; omega) (fetch7 _)
      (not_flush (flush7 _) (by show ¬((50 ≤ 100 + (k + 1) - 1 ∧ 100 + (k + 1) - 1 < 99) ∨ 100 + (k + 1) - 1 = 149); omega))
      (idle7 _ (Or.inr (by show 100 ≤ 100 + (k + 1) - 1; omega))) d]
    exact before7_late c d k (by omega)

theorem before8_late (c : Dev nD) (d) : ∀ (k : ℕ) (h : 100 + k < cfg0.N), (dats m 0 c).before 8 ⟨100 + k, h⟩ d = rowsOf (sLV m c) 49
  | 0, h => by
    rw [before_after_live m c 8 ⟨100, h⟩ (by show (100 : ℕ) ≠ 0; omega) (fetch8 _)
      (not_flush (flush8 _) (by show ¬((50 ≤ 100 - 1 ∧ 100 - 1 < 99) ∨ 100 - 1 = 149); omega))
      (live8 _ (by show 50 ≤ 100 - 1; omega) (by show 100 - 1 < 100; omega)) d]
    show (dats m 0 c).after 8 ⟨99, _⟩ = _
    rw [after8]
    rfl
  | k + 1, h => by
    have hN : 100 + (k + 1) < 150 := lt_of_lt_of_eq h N_0
    rw [before_after_idle m c 8 ⟨100 + (k + 1), h⟩ (by show 100 + (k + 1) ≠ 0; omega) (fetch8 _)
      (not_flush (flush8 _) (by show ¬((50 ≤ 100 + (k + 1) - 1 ∧ 100 + (k + 1) - 1 < 99) ∨ 100 + (k + 1) - 1 = 149); omega))
      (idle8 _ (Or.inr (by show 100 ≤ 100 + (k + 1) - 1; omega))) d]
    exact before8_late c d k (by omega)

/-! ## The staging memrefs at a point -/

abbrev ms0 (t : Fin cfg0.N) : Memref sig .tc .vmem S200x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x64 .f32 := win0_2.stage (cfg0.slots t 2)
abbrev ms3 (t : Fin cfg0.N) : Memref sig .tc .vmem S1x64 .f32 := win0_3.stage (cfg0.slots t 3)
abbrev ms4 (t : Fin cfg0.N) : Memref sig .tc .vmem S64x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S200x10000 .f32 := win0_6.stage (cfg0.slots t 6)
abbrev ms7 (t : Fin cfg0.N) : Memref sig .tc .vmem S200x32 .f32 := win0_7.stage (cfg0.slots t 7)
abbrev ms8 (t : Fin cfg0.N) : Memref sig .tc .vmem S200x32 .f32 := win0_8.stage (cfg0.slots t 8)

/-- What each input window is left at: its block. -/
theorem lv0 (c : Dev nD) (t : Fin cfg0.N) : (dats m 0 c).leavesExact 0 t = owns (c : Thread nD τ) (ms0 t) fullShare (iblk m c 0 t) := by
  unfold Dat.leavesExact; rw [live0 t, after0]
theorem lv1 (c : Dev nD) (t : Fin cfg0.N) : (dats m 0 c).leavesExact 1 t = owns (c : Thread nD τ) (ms1 t) fullShare (iblk m c 1 t) := by
  unfold Dat.leavesExact; rw [live1 t, after1]
theorem lv2 (c : Dev nD) (t : Fin cfg0.N) : (dats m 0 c).leavesExact 2 t = owns (c : Thread nD τ) (ms2 t) fullShare (iblk m c 2 t) := by
  unfold Dat.leavesExact; rw [live2 t, after2]
theorem lv3 (c : Dev nD) (t : Fin cfg0.N) : (dats m 0 c).leavesExact 3 t = owns (c : Thread nD τ) (ms3 t) fullShare (iblk m c 3 t) := by
  unfold Dat.leavesExact; rw [live3 t, after3]
theorem lv4 (c : Dev nD) (t : Fin cfg0.N) : (dats m 0 c).leavesExact 4 t = owns (c : Thread nD τ) (ms4 t) fullShare (iblk m c 4 t) := by
  unfold Dat.leavesExact; rw [live4 t, after4]
theorem lv5 (c : Dev nD) (t : Fin cfg0.N) : (dats m 0 c).leavesExact 5 t = owns (c : Thread nD τ) (ms5 t) fullShare (iblk m c 5 t) := by
  unfold Dat.leavesExact; rw [live5 t, after5]
/-- The reconstruction window in the third phase, the head windows in the second: what the point stored. -/
theorem lv6 (c : Dev nD) (t : Fin cfg0.N) (h : 100 ≤ t.val) : (dats m 0 c).leavesExact 6 t = owns (c : Thread nD τ) (ms6 t) fullShare (rowsOf (sREC m c) (t.val - 100)) := by
  unfold Dat.leavesExact; rw [live6 t h, after6]
theorem lv7 (c : Dev nD) (t : Fin cfg0.N) (h : 50 ≤ t.val) (h' : t.val < 100) : (dats m 0 c).leavesExact 7 t = owns (c : Thread nD τ) (ms7 t) fullShare (rowsOf (sMU m c) (t.val - 50)) := by
  unfold Dat.leavesExact; rw [live7 t h h', after7, min_eq_left (by omega)]
theorem lv8 (c : Dev nD) (t : Fin cfg0.N) (h : 50 ≤ t.val) (h' : t.val < 100) : (dats m 0 c).leavesExact 8 t = owns (c : Thread nD τ) (ms8 t) fullShare (rowsOf (sLV m c) (t.val - 50)) := by
  unfold Dat.leavesExact; rw [live8 t h h', after8, min_eq_left (by omega)]

/-- A head window at a point of the third phase: handed back as found; at the last point what it was found holding is
    the last block of the head's rows, which is what is written back. -/
theorem late7 (c : Dev nD) (t : Fin cfg0.N) (h : 100 ≤ t.val) :
    (iprop(∃ d, owns (c : Thread nD τ) (ms7 t) fullShare ((dats m 0 c).before 7 t d)) : sProp 𝕄) ⊢ (dats m 0 c).leavesExact 7 t := by
  have hN : t.val < 150 := lt_of_lt_of_eq t.isLt N_0
  by_cases hl : t.val = 149
  · have e : (dats m 0 c).leavesExact 7 t = owns (c : Thread nD τ) (ms7 t) fullShare (rowsOf (sMU m c) 49) := by
      unfold Dat.leavesExact; rw [idle7 t (Or.inr h), (flush7 t).mpr (Or.inr hl), after7, min_eq_right (by omega)]
    rw [e]
    iintro ⟨%d, H⟩
    have hb : (dats m 0 c).before 7 t d = rowsOf (sMU m c) 49 := by
      have := before7_late m c d (t.val - 100) (by show 100 + (t.val - 100) < cfg0.N; have := t.isLt; omega)
      have et : (⟨100 + (t.val - 100), by have := t.isLt; omega⟩ : Fin cfg0.N) = t := Fin.ext (by show 100 + (t.val - 100) = t.val; omega)
      rw [et] at this; exact this
    rw [hb]; iexact H
  · rw [Dat.leavesExact_idle (dats m 0 c) 7 t (idle7 t (Or.inr h)) (not_flush (flush7 t) (by omega))]

theorem late8 (c : Dev nD) (t : Fin cfg0.N) (h : 100 ≤ t.val) :
    (iprop(∃ d, owns (c : Thread nD τ) (ms8 t) fullShare ((dats m 0 c).before 8 t d)) : sProp 𝕄) ⊢ (dats m 0 c).leavesExact 8 t := by
  have hN : t.val < 150 := lt_of_lt_of_eq t.isLt N_0
  by_cases hl : t.val = 149
  · have e : (dats m 0 c).leavesExact 8 t = owns (c : Thread nD τ) (ms8 t) fullShare (rowsOf (sLV m c) 49) := by
      unfold Dat.leavesExact; rw [idle8 t (Or.inr h), (flush8 t).mpr (Or.inr hl), after8, min_eq_right (by omega)]
    rw [e]
    iintro ⟨%d, H⟩
    have hb : (dats m 0 c).before 8 t d = rowsOf (sLV m c) 49 := by
      have := before8_late m c d (t.val - 100) (by show 100 + (t.val - 100) < cfg0.N; have := t.isLt; omega)
      have et : (⟨100 + (t.val - 100), by have := t.isLt; omega⟩ : Fin cfg0.N) = t := Fin.ext (by show 100 + (t.val - 100) = t.val; omega)
      rw [et] at this; exact this
    rw [hb]; iexact H
  · rw [Dat.leavesExact_idle (dats m 0 c) 8 t (idle8 t (Or.inr h)) (not_flush (flush8 t) (by omega))]

/-- The rows the third phase loads from the kept means are their block. -/
theorem ld_rows (Z : Vec F S10000x32 .bf16) (off : Fin 2 → ℕ) (b : ℕ) (hb : b < 50) (ho : off = ![200 * b, 0])
    (inb : ∀ a, off a + S200x32.size a ≤ S10000x32.size a) :
    View.ld Z (Rect.unit (s := S10000x32) off S200x32.size inb) = rowsOf Z b := by
  subst ho
  funext x
  have hx : (x 0).val < 200 := (x 0).isLt
  unfold rowsOf
  show Z ((Rect.unit (s := S10000x32) ![200 * b, 0] S200x32.size inb).idx x) = _
  refine congrArg Z (funext fun a => Fin.ext ?_)
  match a with
  | ⟨0, _⟩ =>
    show 200 * b + 1 * (x 0).val = (200 * b + (x 0).val) % 10000
    rw [Nat.mod_eq_of_lt (by omega)]; omega
  | ⟨1, _⟩ =>
    show 0 + 1 * (x 1).val = (x 1).val
    omega

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [lv0 m c t, lv1 m c t, lv2 m c t, lv3 m c t, lv4 m c t, lv5 m c t]
  simp only [iblk0 m c t, iblk1 m c t, iblk2 m c t, iblk3 m c t, iblk4 m c t, iblk5 m c t]
  have hN : t.val < 150 := lt_of_lt_of_eq t.isLt N_0
  have hi := idx0_0 t
  rcases (by omega : t.val = 0 ∨ (0 < t.val ∧ t.val < 50) ∨ t.val = 50 ∨ (50 < t.val ∧ t.val < 100) ∨ 100 ≤ t.val) with h | h | h | h | h
  · -- the first point
    have q1 : c1 (grid0.coords t) := (hc1 t).mpr (by omega)
    have q2 : c2 (grid0.coords t) := (hc2 t).mpr (by omega)
    have q3 : ¬c3 (grid0.coords t) := fun q => by have := (hc3 t).mp q; omega
    have q4 : ¬c4 (grid0.coords t) := fun q => by have := (hc4 t).mp q; omega
    have q5 : ¬c5 (grid0.coords t) := fun q => by have := (hc5 t).mp q; omega
    have ho : k0_off1 (grid0.coords t) = ![0, 0] := by rw [off1_eq, hoff1 t (by omega), h]
    have hi0 : win0_0.index t 0 = 0 := by rw [hi, if_pos (by omega), h]
    rw [hi0]
    rw [Dat.leavesExact_idle (dats m 0 c) 6 t (idle6 t (by omega)) (not_flush (flush6 t) (by omega)), Dat.leavesExact_idle (dats m 0 c) 7 t (idle7 t (by omega)) (not_flush (flush7 t) (by omega)), Dat.leavesExact_idle (dats m 0 c) 8 t (idle8 t (by omega)) (not_flush (flush8 t) (by omega))]
    rw [PhiS_castSucc m c t, PhiS_zero m c _ _ h, PhiA_eq]
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ q1 q2 q3 q4 q5 0 ho (rowsOf (aADJ m c) 0) (aX m c) (aW0 m c) (aB0 m c) e1 Set.univ _)
    isplitl [H0]; · iexact H0
    isplitl [H1]; · iexact H1
    isplitl [H2]; · iexact H2
    isplitl [H3]; · iexact H3
    isplitl [HS0]; · iexists _; iexact HS0
    isplitl [HS1]; · iexact HS1
    iintro ⟨H0, H1, H2, H3, HS0, HS1⟩
    isplitl [HS0 HS1 HS2 Hg]
    · isplitl [HS0 HS1 HS2]
      · iexists _; iexists _; iexists _
        isplitr; · ipureintro; exact (by rw [h]; exact inv_first m c e1 e2)
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · -- the rest of the first phase
    have q1 : ¬c1 (grid0.coords t) := fun q => by have := (hc1 t).mp q; omega
    have q2 : c2 (grid0.coords t) := (hc2 t).mpr (by omega)
    have q3 : ¬c3 (grid0.coords t) := fun q => by have := (hc3 t).mp q; omega
    have q4 : ¬c4 (grid0.coords t) := fun q => by have := (hc4 t).mp q; omega
    have q5 : ¬c5 (grid0.coords t) := fun q => by have := (hc5 t).mp q; omega
    have ho : k0_off1 (grid0.coords t) = ![200 * t.val, 0] := by rw [off1_eq, hoff1 t (by omega)]
    have hi0 : win0_0.index t 0 = t.val := by rw [hi, if_pos (by omega)]
    rw [hi0]
    rw [Dat.leavesExact_idle (dats m 0 c) 6 t (idle6 t (by omega)) (not_flush (flush6 t) (by omega)), Dat.leavesExact_idle (dats m 0 c) 7 t (idle7 t (by omega)) (not_flush (flush7 t) (by omega)), Dat.leavesExact_idle (dats m 0 c) 8 t (idle8 t (by omega)) (not_flush (flush8 t) (by omega))]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ q1 q2 q3 q4 q5 (200 * t.val) ho (rowsOf (aADJ m c) t.val) (aB0 m c) S0 S1 Set.univ _)
    isplitl [H0]; · iexact H0
    isplitl [H3]; · iexact H3
    isplitl [HS0]; · iexact HS0
    isplitl [HS1]; · iexact HS1
    iintro ⟨H0, H3, HS0, HS1⟩
    isplitl [HS0 HS1 HS2 Hg]
    · isplitl [HS0 HS1 HS2]
      · iexists _; iexists _; iexists _
        isplitr; · ipureintro; exact inv_phase1 m c t.val (by omega) (by omega) S0 S1 S2 hI
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · -- the first point of the second phase
    have q1 : ¬c1 (grid0.coords t) := fun q => by have := (hc1 t).mp q; omega
    have q2 : ¬c2 (grid0.coords t) := fun q => by have := (hc2 t).mp q; omega
    have q3 : c3 (grid0.coords t) := (hc3 t).mpr (by omega)
    have q4 : c4 (grid0.coords t) := (hc4 t).mpr (by omega)
    have q5 : ¬c5 (grid0.coords t) := fun q => by have := (hc5 t).mp q; omega
    have e50 : t.val - 50 = 0 := by omega
    have ho : k0_off2 (grid0.coords t) = ![0, 0] := by rw [off2_eq, hoff2 t (by omega) (by omega), e50]
    have hi0 : win0_0.index t 0 = 0 := by rw [hi, if_neg (by omega), if_pos (by omega)]; omega
    rw [hi0]
    rw [Dat.leavesExact_idle (dats m 0 c) 6 t (idle6 t (by omega)) (not_flush (flush6 t) (by omega)), lv7 m c t (by omega) (by omega), lv8 m c t (by omega) (by omega), e50]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hI' : Inv m c 49 S0 S1 S2 := (show t.val - 1 = 49 by omega) ▸ hI
    have hm := inv_mid m c S0 S1 S2 hI'
    iapply (runC c (grid0.coords t) _ _ _ _ _ _ _ _ _ _ _ _ _ _ _ _ _ _ _ _ _ _ _ _ q1 q2 q3 q4 q5 0 ho (rowsOf (aADJ m c) 0) (aW12 m c) (aB12 m c) S1 S2 Set.univ _)
    isplitl [H0]; · iexact H0
    isplitl [H4]; · iexact H4
    isplitl [H5]; · iexact H5
    isplitl [H7]; · iexists _; iexact H7
    isplitl [H8]; · iexists _; iexact H8
    isplitl [HS0]; · iexists _; iexact HS0
    isplitl [HS1]; · iexact HS1
    isplitl [HS2]; · iexact HS2
    iintro ⟨H0, H4, H5, H7, H8, HS0, HS1, HS2⟩
    rw [rows_mu m c 0 (by omega), rows_lv m c 0 (by omega), ← hm.2]
    isplitl [HS0 HS1 HS2 Hg]
    · isplitl [HS0 HS1 HS2]
      · iexists _; iexists _; iexists _
        isplitr; · ipureintro; exact (by rw [h]; exact hm.1)
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8
  · -- the rest of the second phase
    have q1 : ¬c1 (grid0.coords t) := fun q => by have := (hc1 t).mp q; omega
    have q2 : ¬c2 (grid0.coords t) := fun q => by have := (hc2 t).mp q; omega
    have q3 : ¬c3 (grid0.coords t) := fun q => by have := (hc3 t).mp q; omega
    have q4 : c4 (grid0.coords t) := (hc4 t).mpr (by omega)
    have q5 : ¬c5 (grid0.coords t) := fun q => by have := (hc5 t).mp q; omega
    have ho : k0_off2 (grid0.coords t) = ![200 * (t.val - 50), 0] := by rw [off2_eq, hoff2 t (by omega) (by omega)]
    have hi0 : win0_0.index t 0 = t.val - 50 := by rw [hi, if_neg (by omega), if_pos (by omega)]
    rw [hi0]
    rw [Dat.leavesExact_idle (dats m 0 c) 6 t (idle6 t (by omega)) (not_flush (flush6 t) (by omega)), lv7 m c t (by omega) (by omega), lv8 m c t (by omega) (by omega)]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hm := inv_phase2 m c t.val (by omega) (by omega) S0 S1 S2 hI
    iapply (runD c (grid0.coords t) _ _ _ _ _ _ _ _ _ _ _ _ _ _ _ _ _ _ _ _ _ _ _ _ q1 q2 q3 q4 q5 (200 * (t.val - 50)) ho (rowsOf (aADJ m c) (t.val - 50)) (aB12 m c) S0 S2 Set.univ _)
    isplitl [H0]; · iexact H0
    isplitl [H5]; · iexact H5
    isplitl [H7]; · iexists _; iexact H7
    isplitl [H8]; · iexists _; iexact H8
    isplitl [HS0]; · iexact HS0
    isplitl [HS2]; · iexact HS2
    iintro ⟨H0, H5, H7, H8, HS0, HS2⟩
    rw [rows_mu m c (t.val - 50) (by omega), rows_lv m c (t.val - 50) (by omega), ← hm.2]
    isplitl [HS0 HS1 HS2 Hg]
    · isplitl [HS0 HS1 HS2]
      · iexists _; iexists _; iexists _
        isplitr; · ipureintro; exact hm.1
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8
  · -- the third phase
    have q1 : ¬c1 (grid0.coords t) := fun q => by have := (hc1 t).mp q; omega
    have q2 : ¬c2 (grid0.coords t) := fun q => by have := (hc2 t).mp q; omega
    have q3 : ¬c3 (grid0.coords t) := fun q => by have := (hc3 t).mp q; omega
    have q4 : ¬c4 (grid0.coords t) := fun q => by have := (hc4 t).mp q; omega
    have q5 : c5 (grid0.coords t) := (hc5 t).mpr (by omega)
    have ho : k0_off3 (grid0.coords t) = ![200 * (t.val - 100), 0] := by rw [off3_eq, hoff3 t (by omega)]
    rw [lv6 m c t h]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hm := inv_phase3 m c t.val h S0 S1 S2 hI
    iapply (runE c (grid0.coords t) _ _ _ _ _ _ _ _ _ _ _ _ _ _ _ _ _ _ _ _ _ _ _ _ q1 q2 q3 q4 q5 S2 Set.univ _)
    isplitl [H6]; · iexists _; iexact H6
    isplitl [HS2]; · iexact HS2
    iintro ⟨H6, HS2⟩
    rw [rows_rec m c (t.val - 100) (by omega), ← hm.2, ← ld_rows S2 (k0_off3 (grid0.coords t)) (t.val - 100) (by omega) ho (k0_off3_inb (grid0.coords t) q5)]
    isplitl [HS0 HS1 HS2 Hg]
    · isplitl [HS0 HS1 HS2]
      · iexists _; iexists _; iexists _
        isplitr; · ipureintro; exact hm.1
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (late7 m c t (by omega)); iexists _; iexact H7
    iapply (late8 m c t (by omega)); iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 150 := N_0; omega), PhiA_eq]
  iintro ⟨⟨%S0, %S1, %S2, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, each array of the pipeline ending at what the library computes from
    the proof data, every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KI.Setup.lean ====
import proofs.«179708_g35227321761815_cont_8to1_b_828_11_alg».proof.Proof.Gen.KernelIdeal.Frame
import proofs.«179708_g35227321761815_cont_8to1_b_828_11_alg».proof.Proof.Gen.KernelIdeal.Skeleton
import proofs.«179708_g35227321761815_cont_8to1_b_828_11_alg».proof.Proof.LibRowsStore
import Idealize.ShloMosaic.Lib.Pipeline.FrameSuffix

set_option maxRecDepth 16384

noncomputable section

/-!
  The grid has 150 points in three phases of 50. This module decides, once over the grid, which of the body's five
  conditional blocks run at a point (the first point; points below 50; point 50; points 50 to 99; points from 100 on),
  the row offsets the body computes there (200 times the point's position in its phase), and where the three output
  windows are idle and written back.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The five conditions, as the body computes them, and where they hold -/

abbrev c1 (i : grid0.Coords) : Prop := (Scalar.cmpi .ne (Scalar.extui (Scalar.cmpi .eq (BitVec.ofNat 32 (i 0).val) 0#32)) 0#32) = 1#1
abbrev c2 (i : grid0.Coords) : Prop := k0_cond2 i = 1#1
abbrev c3 (i : grid0.Coords) : Prop := (Scalar.cmpi .ne (Scalar.extui (Scalar.cmpi .eq (BitVec.ofNat 32 (i 0).val) 50#32)) 0#32) = 1#1
abbrev c4 (i : grid0.Coords) : Prop := k0_cond4 i = 1#1
abbrev c5 (i : grid0.Coords) : Prop := k0_cond5 i = 1#1

/-- The first block runs at the first point only. -/
theorem hc1 : ∀ t : Fin cfg0.N, c1 (grid0.coords t) ↔ t.val = 0 :=
  (by decide +kernel : ∀ t : Fin grid0.N, c1 (grid0.coords t) ↔ t.val = 0)
/-- The second block runs at the points of the first phase. -/
theorem hc2 : ∀ t : Fin cfg0.N, c2 (grid0.coords t) ↔ t.val < 50 :=
  (by decide +kernel : ∀ t : Fin grid0.N, c2 (grid0.coords t) ↔ t.val < 50)
/-- The third block runs at the first point of the second phase only. -/
theorem hc3 : ∀ t : Fin cfg0.N, c3 (grid0.coords t) ↔ t.val = 50 :=
  (by decide +kernel : ∀ t : Fin grid0.N, c3 (grid0.coords t) ↔ t.val = 50)
/-- The fourth block runs at the points of the second phase. -/
theorem hc4 : ∀ t : Fin cfg0.N, c4 (grid0.coords t) ↔ (50 ≤ t.val ∧ t.val < 100) :=
  (by decide +kernel : ∀ t : Fin grid0.N, c4 (grid0.coords t) ↔ (50 ≤ t.val ∧ t.val < 100))
/-- The fifth block runs at the points of the third phase. -/
theorem hc5 : ∀ t : Fin cfg0.N, c5 (grid0.coords t) ↔ 100 ≤ t.val :=
  (by decide +kernel : ∀ t : Fin grid0.N, c5 (grid0.coords t) ↔ 100 ≤ t.val)

/-! ## The row offsets -/

/-- In the first phase the hidden rows go to rows `200 t` on. -/
theorem hoff1 : ∀ t : Fin cfg0.N, t.val < 50 → k0_off1 (grid0.coords t) 0 = 200 * t.val :=
  (by decide +kernel : ∀ t : Fin grid0.N, t.val < 50 → k0_off1 (grid0.coords t) 0 = 200 * t.val)
/-- In the second phase the mean rows go to rows `200 (t - 50)` on. -/
theorem hoff2 : ∀ t : Fin cfg0.N, 50 ≤ t.val → t.val < 100 → k0_off2 (grid0.coords t) 0 = 200 * (t.val - 50) :=
  (by decide +kernel : ∀ t : Fin grid0.N, 50 ≤ t.val → t.val < 100 → k0_off2 (grid0.coords t) 0 = 200 * (t.val - 50))
/-- In the third phase the mean rows are read from row `200 (t - 100)` on. -/
theorem hoff3 : ∀ t : Fin cfg0.N, 100 ≤ t.val → k0_off3 (grid0.coords t) 0 = 200 * (t.val - 100) :=
  (by decide +kernel : ∀ t : Fin grid0.N, 100 ≤ t.val → k0_off3 (grid0.coords t) 0 = 200 * (t.val - 100))

theorem off1_eq (i : grid0.Coords) : k0_off1 i = ![k0_off1 i 0, 0] := by
  funext a; revert a; rw [Fin.forall_fin_two]; exact ⟨rfl, rfl⟩
theorem off2_eq (i : grid0.Coords) : k0_off2 i = ![k0_off2 i 0, 0] := by
  funext a; revert a; rw [Fin.forall_fin_two]; exact ⟨rfl, rfl⟩
theorem off3_eq (i : grid0.Coords) : k0_off3 i = ![k0_off3 i 0, 0] := by
  funext a; revert a; rw [Fin.forall_fin_two]; exact ⟨rfl, rfl⟩

/-! ## Idle points and write-backs of the three output windows -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
/-- The reconstruction window is idle before the third phase and live in it; it is written back at every point of the third phase. -/
theorem idle6 : ∀ t : Fin cfg0.N, t.val < 100 → cfg0.idle 6 (grid0.coords t) = true := by decide +kernel
theorem live6 : ∀ t : Fin cfg0.N, 100 ≤ t.val → cfg0.idle 6 (grid0.coords t) = false := by decide +kernel
theorem flush6 : ∀ t : Fin cfg0.N, (cfg0.win 6).flush t = true ↔ 100 ≤ t.val := by decide +kernel
/-- The two head windows are live in the second phase only; they are written back at points 50 to 98 and at the last point. -/
theorem idle7 : ∀ t : Fin cfg0.N, (t.val < 50 ∨ 100 ≤ t.val) → cfg0.idle 7 (grid0.coords t) = true := by decide +kernel
theorem live7 : ∀ t : Fin cfg0.N, 50 ≤ t.val → t.val < 100 → cfg0.idle 7 (grid0.coords t) = false := by decide +kernel
theorem flush7 : ∀ t : Fin cfg0.N, (cfg0.win 7).flush t = true ↔ ((50 ≤ t.val ∧ t.val < 99) ∨ t.val = 149) := by decide +kernel
theorem idle8 : ∀ t : Fin cfg0.N, (t.val < 50 ∨ 100 ≤ t.val) → cfg0.idle 8 (grid0.coords t) = true := by decide +kernel
theorem live8 : ∀ t : Fin cfg0.N, 50 ≤ t.val → t.val < 100 → cfg0.idle 8 (grid0.coords t) = false := by decide +kernel
theorem flush8 : ∀ t : Fin cfg0.N, (cfg0.win 8).flush t = true ↔ ((50 ≤ t.val ∧ t.val < 99) ∨ t.val = 149) := by decide +kernel
theorem fetch6 : ∀ t : Fin cfg0.N, (cfg0.win 6).fetch t = false := by decide +kernel
theorem fetch7 : ∀ t : Fin cfg0.N, (cfg0.win 7).fetch t = false := by decide +kernel
theorem fetch8 : ∀ t : Fin cfg0.N, (cfg0.win 8).fetch t = false := by decide +kernel

/-! ## The scratch buffers -/

abbrev scM0 : Memref sig .tc .vmem S10000x64 .f32 := Memref.whole cc0_scratch0
abbrev scM1 : Memref sig .tc .vmem S10000x64 .f32 := Memref.whole cc0_scratch1
abbrev scM2 : Memref sig .tc .vmem S10000x32 .bf16 := Memref.whole cc0_scratch2

/-- What the launch hands the region: the three scratch buffers at some contents and the generator register at some state. -/
theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

end Cert.KernelIdeal.Body

end
-- ==== Proof.KI.Spec.lean ====
import proofs.«179708_g35227321761815_cont_8to1_b_828_11_alg».proof.Proof.KI.Setup
import Idealize.ShloMosaic.Lib.ValueIdx
import Idealize.ShloMosaic.Lib.Pipeline.Value

set_option maxRecDepth 16384

noncomputable section

/-!
  What the three results are, as functions of the six arrays the region is launched on (the adjacency, the
  features, the first layer's weights and bias row, the two heads' weights side by side and their bias rows end to end):
  the projected features `x W0`; the hidden rows, block `b` of 200 rows the ramp of `adj_b (x W0) + b0`; their
  projection by both heads; the two heads' rows, block by block, and the kept means; the reconstruction, block `b` the
  logistic function of the kept means' rows `b` against all of them. Written with the body's own operations, so the
  same text reads at words and at extended reals. Also: each input window's block at a point as rows of its array.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2)

variable (m : (ℓ : Loc nD τ sig) → Buf (Elt F) ℓ)

/-- Rows `[200 b, 200 b + 200)` of an array of 10000 rows. -/
def rowsOf {α : Type} {n : ℕ} (A : (⟨2, ![10000, n]⟩ : Shape).Idx → α) (b : ℕ) : (⟨2, ![200, n]⟩ : Shape).Idx → α :=
  fun y => A (ix2 ⟨(200 * b + (y 0).val) % 10000, Nat.mod_lt _ (by norm_num)⟩ (y 1))

/-- Fifty blocks of 200 rows stacked: row `r` is row `r % 200` of block `r / 200`. -/
def stack {α : Type} {n : ℕ} (B : ℕ → (⟨2, ![200, n]⟩ : Shape).Idx → α) : (⟨2, ![10000, n]⟩ : Shape).Idx → α :=
  fun y => B ((y 0).val / 200) (ix2 ⟨(y 0).val % 200, Nat.mod_lt _ (by norm_num)⟩ (y 1))

theorem stack_apply {α : Type} {n : ℕ} (B : ℕ → (⟨2, ![200, n]⟩ : Shape).Idx → α) (b : ℕ) (r : Fin 200) (q : Fin n)
    (k : Fin 10000) (hk : k.val = 200 * b + r.val) : stack B (ix2 k q) = B b (ix2 r q) := by
  have key : ∀ (b' r' : ℕ) (hr : r' < 200), b' = b → r' = r.val → B b' (ix2 ⟨r', hr⟩ q) = B b (ix2 r q) := by
    intro b' r' hr hb hr'; subst hb; subst hr'; rfl
  have hr := r.isLt
  exact key _ _ _ (by show k.val / 200 = b; omega) (by show k.val % 200 = r.val; omega)

theorem rowsOf_apply {α : Type} {n : ℕ} (A : (⟨2, ![10000, n]⟩ : Shape).Idx → α) (b : ℕ) (hb : b < 50) (r : Fin 200) (q : Fin n) :
    rowsOf A b (ix2 r q) = A (ix2 ⟨200 * b + r.val, by have := r.isLt; omega⟩ q) := by
  have hr := r.isLt
  unfold rowsOf
  refine congrArg A (congrArg (fun k => ix2 k q) (Fin.ext ?_))
  show (200 * b + r.val) % 10000 = 200 * b + r.val
  exact Nat.mod_eq_of_lt (by omega)

theorem rowsOf_stack {α : Type} {n : ℕ} (B : ℕ → (⟨2, ![200, n]⟩ : Shape).Idx → α) (b : ℕ) (hb : b < 50) :
    rowsOf (stack B) b = B b := by
  funext y
  have hy : (y 0).val < 200 := (y 0).isLt
  unfold rowsOf
  rw [stack_apply B b (y 0) (y 1) _ (by show (200 * b + (y 0).val) % 10000 = _; exact Nat.mod_eq_of_lt (by omega))]
  exact congrArg (B b) (eq_ix2 y).symm

/-! ## The arrays the region is launched on -/

abbrev aADJ (c : Dev nD) : Vec F S10000x10000 .f32 := V m c main_arg1
abbrev aX (c : Dev nD) : Vec F S10000x128 .f32 := V m c main_arg0
abbrev aW0 (c : Dev nD) : Vec F S128x64 .f32 := V m c main_arg2
abbrev aB0 (c : Dev nD) : Vec F S1x64 .f32 := V m c main_v3
abbrev aW12 (c : Dev nD) : Vec F S64x64 .f32 := V m c main_v0
abbrev aB12 (c : Dev nD) : Vec F S1x64 .f32 := V m c main_v2

/-! ## The windows' block indices, decided over the grid, and their blocks -/

theorem idx0_0 : ∀ t : Fin cfg0.N, win0_0.index t 0 = if t.val < 50 then t.val else if t.val < 100 then t.val - 50 else 49 :=
  (by decide +kernel : ∀ t : Fin grid0.N, win0_0.index t 0 = if t.val < 50 then t.val else if t.val < 100 then t.val - 50 else 49)
theorem idx0_1 : ∀ t : Fin cfg0.N, win0_0.index t 1 = 0 :=
  (by decide +kernel : ∀ t : Fin grid0.N, win0_0.index t 1 = 0)
theorem idx6 : ∀ t : Fin cfg0.N, win0_6.index t 0 = t.val - 100 ∧ win0_6.index t 1 = 0 :=
  (by decide +kernel : ∀ t : Fin grid0.N, win0_6.index t 0 = t.val - 100 ∧ win0_6.index t 1 = 0)
theorem idx7 : ∀ t : Fin cfg0.N, win0_7.index t 0 = min (t.val - 50) 49 ∧ win0_7.index t 1 = 0 :=
  (by decide +kernel : ∀ t : Fin grid0.N, win0_7.index t 0 = min (t.val - 50) 49 ∧ win0_7.index t 1 = 0)
theorem idx8 : ∀ t : Fin cfg0.N, win0_8.index t 0 = min (t.val - 50) 49 ∧ win0_8.index t 1 = 0 :=
  (by decide +kernel : ∀ t : Fin grid0.N, win0_8.index t 0 = min (t.val - 50) 49 ∧ win0_8.index t 1 = 0)

/-- The adjacency's block at a point is the 200 rows its block index names. -/
theorem iblk0 (c : Dev nD) (t : Fin cfg0.N) :
    (iblk m c 0 t : Vec F S200x10000 .f32) = rowsOf (aADJ m c) (win0_0.index t 0) := by
  funext y
  unfold iblk rowsOf
  rw [View.read_apply]
  show V m c main_arg1 (((cfg0.win 0).blk t).view.emb y) = V m c main_arg1 _
  have h0 := idx0_0 t
  have h1 := idx0_1 t
  have hN : t.val < 150 := lt_of_lt_of_eq t.isLt N_0
  have hy : (y 0).val < 200 := (y 0).isLt
  have hle : win0_0.index t 0 ≤ 49 := by rw [h0]; split_ifs <;> omega
  refine congrArg (V m c main_arg1) (funext fun a => Fin.ext ?_)
  match a with
  | ⟨0, _⟩ =>
    show win0_0.index t 0 * 200 + 1 * (y 0).val = (200 * win0_0.index t 0 + (y 0).val) % 10000
    rw [Nat.mod_eq_of_lt (by omega)]; omega
  | ⟨1, _⟩ =>
    show win0_0.index t 1 * 10000 + 1 * (y 1).val = (y 1).val
    rw [h1]; omega

theorem idx1 : ∀ t : Fin cfg0.N, win0_1.index t 0 = 0 ∧ win0_1.index t 1 = 0 :=
  (by decide +kernel : ∀ t : Fin grid0.N, win0_1.index t 0 = 0 ∧ win0_1.index t 1 = 0)
/-- Window 1's block is its whole array at every point. -/
theorem iblk1 (c : Dev nD) (t : Fin cfg0.N) : (iblk m c 1 t : Vec F S10000x128 .f32) = aX m c := by
  funext y
  unfold iblk
  rw [View.read_apply]
  show V m c main_arg0 (((cfg0.win 1).blk t).view.emb y) = V m c main_arg0 y
  obtain ⟨h0, h1⟩ := idx1 t
  refine congrArg (V m c main_arg0) (funext fun a => Fin.ext ?_)
  match a with
  | ⟨0, _⟩ =>
    show win0_1.index t 0 * 10000 + 1 * (y 0).val = (y 0).val
    rw [h0]; omega
  | ⟨1, _⟩ =>
    show win0_1.index t 1 * 128 + 1 * (y 1).val = (y 1).val
    rw [h1]; omega

theorem idx2 : ∀ t : Fin cfg0.N, win0_2.index t 0 = 0 ∧ win0_2.index t 1 = 0 :=
  (by decide +kernel : ∀ t : Fin grid0.N, win0_2.index t 0 = 0 ∧ win0_2.index t 1 = 0)
/-- Window 2's block is its whole array at every point. -/
theorem iblk2 (c : Dev nD) (t : Fin cfg0.N) : (iblk m c 2 t : Vec F S128x64 .f32) = aW0 m c := by
  funext y
  unfold iblk
  rw [View.read_apply]
  show V m c main_arg2 (((cfg0.win 2).blk t).view.emb y) = V m c main_arg2 y
  obtain ⟨h0, h1⟩ := idx2 t
  refine congrArg (V m c main_arg2) (funext fun a => Fin.ext ?_)
  match a with
  | ⟨0, _⟩ =>
    show win0_2.index t 0 * 128 + 1 * (y 0).val = (y 0).val
    rw [h0]; omega
  | ⟨1, _⟩ =>
    show win0_2.index t 1 * 64 + 1 * (y 1).val = (y 1).val
    rw [h1]; omega

theorem idx3 : ∀ t : Fin cfg0.N, win0_3.index t 0 = 0 ∧ win0_3.index t 1 = 0 :=
  (by decide +kernel : ∀ t : Fin grid0.N, win0_3.index t 0 = 0 ∧ win0_3.index t 1 = 0)
/-- Window 3's block is its whole array at every point. -/
theorem iblk3 (c : Dev nD) (t : Fin cfg0.N) : (iblk m c 3 t : Vec F S1x64 .f32) = aB0 m c := by
  funext y
  unfold iblk
  rw [View.read_apply]
  show V m c main_v3 (((cfg0.win 3).blk t).view.emb y) = V m c main_v3 y
  obtain ⟨h0, h1⟩ := idx3 t
  refine congrArg (V m c main_v3) (funext fun a => Fin.ext ?_)
  match a with
  | ⟨0, _⟩ =>
    show win0_3.index t 0 * 1 + 1 * (y 0).val = (y 0).val
    rw [h0]; omega
  | ⟨1, _⟩ =>
    show win0_3.index t 1 * 64 + 1 * (y 1).val = (y 1).val
    rw [h1]; omega

theorem idx4 : ∀ t : Fin cfg0.N, win0_4.index t 0 = 0 ∧ win0_4.index t 1 = 0 :=
  (by decide +kernel : ∀ t : Fin grid0.N, win0_4.index t 0 = 0 ∧ win0_4.index t 1 = 0)
/-- Window 4's block is its whole array at every point. -/
theorem iblk4 (c : Dev nD) (t : Fin cfg0.N) : (iblk m c 4 t : Vec F S64x64 .f32) = aW12 m c := by
  funext y
  unfold iblk
  rw [View.read_apply]
  show V m c main_v0 (((cfg0.win 4).blk t).view.emb y) = V m c main_v0 y
  obtain ⟨h0, h1⟩ := idx4 t
  refine congrArg (V m c main_v0) (funext fun a => Fin.ext ?_)
  match a with
  | ⟨0, _⟩ =>
    show win0_4.index t 0 * 64 + 1 * (y 0).val = (y 0).val
    rw [h0]; omega
  | ⟨1, _⟩ =>
    show win0_4.index t 1 * 64 + 1 * (y 1).val = (y 1).val
    rw [h1]; omega

theorem idx5 : ∀ t : Fin cfg0.N, win0_5.index t 0 = 0 ∧ win0_5.index t 1 = 0 :=
  (by decide +kernel : ∀ t : Fin grid0.N, win0_5.index t 0 = 0 ∧ win0_5.index t 1 = 0)
/-- Window 5's block is its whole array at every point. -/
theorem iblk5 (c : Dev nD) (t : Fin cfg0.N) : (iblk m c 5 t : Vec F S1x64 .f32) = aB12 m c := by
  funext y
  unfold iblk
  rw [View.read_apply]
  show V m c main_v2 (((cfg0.win 5).blk t).view.emb y) = V m c main_v2 y
  obtain ⟨h0, h1⟩ := idx5 t
  refine congrArg (V m c main_v2) (funext fun a => Fin.ext ?_)
  match a with
  | ⟨0, _⟩ =>
    show win0_5.index t 0 * 1 + 1 * (y 0).val = (y 0).val
    rw [h0]; omega
  | ⟨1, _⟩ =>
    show win0_5.index t 1 * 64 + 1 * (y 1).val = (y 1).val
    rw [h1]; omega

/-! ## The results -/

/-- The features projected by the first layer's weights. -/
def sXW (c : Dev nD) : Vec F S10000x64 .f32 := k0_pay1 (aX m c) (aW0 m c)
/-- The hidden rows: block `b` is the ramp of the adjacency's rows `b` times the projected features plus the bias row. -/
def sH (c : Dev nD) : Vec F S10000x64 .f32 := stack fun b => k0_pay2 (rowsOf (aADJ m c) b) (sXW m c) (aB0 m c)
/-- The hidden rows projected by the two heads' weights side by side. -/
def sHW (c : Dev nD) : Vec F S10000x64 .f32 := k0_pay3 (sH m c) (aW12 m c)
/-- The mean head's rows. -/
def sMU (c : Dev nD) : Vec F S10000x32 .f32 := stack fun b => k0_pay5 (rowsOf (aADJ m c) b) (sHW m c) (aB12 m c)
/-- The log-variance head's rows. -/
def sLV (c : Dev nD) : Vec F S10000x32 .f32 := stack fun b => k0_pay6 (rowsOf (aADJ m c) b) (sHW m c) (aB12 m c)
/-- The means as kept for the third phase. -/
def sZ (c : Dev nD) : Vec F S10000x32 .bf16 := stack fun b => k0_pay7 (rowsOf (aADJ m c) b) (sHW m c) (aB12 m c)
/-- The reconstruction: block `b` is the logistic function of the kept means' rows `b` against all the kept means. -/
def sREC (c : Dev nD) : Vec F S10000x10000 .f32 := stack fun b => k0_pay8 (rowsOf (sZ m c) b) (sZ m c)

end Cert.KernelIdeal.Body

end
-- ==== Proof.KI.Inv.lean ====
import proofs.«179708_g35227321761815_cont_8to1_b_828_11_alg».proof.Proof.KI.Spec

set_option maxRecDepth 16384

noncomputable section

/-!
  What the three scratch buffers hold after point `n`: the first the projected features through the first phase and
  the hidden rows' projection from point 50 on; the second the hidden rows on its first `200 (n + 1)` rows; the third,
  from point 50 on, the kept means on its first `200 (n - 49)` rows. Each point's stores keep this, and in the second
  and third phases what the point stores into its output blocks is the block of the result.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2)
open Idealize.ShloMosaic.RowsStore (upd upd_of_mem upd_of_not_mem)

variable (m : (ℓ : Loc nD τ sig) → Buf (Elt F) ℓ)

/-- The scratch buffers' contents after point `n`. -/
def Inv (c : Dev nD) (n : ℕ) (S0 S1 : Vec F S10000x64 .f32) (S2 : Vec F S10000x32 .bf16) : Prop :=
  (n < 50 → S0 = sXW m c) ∧ (50 ≤ n → S0 = sHW m c)
  ∧ (∀ y : S10000x64.Idx, (y 0).val < 200 * (n + 1) → S1 y = sH m c y)
  ∧ (∀ y : S10000x32.Idx, 50 ≤ n → (y 0).val < 200 * (n + 1 - 50) → S2 y = sZ m c y)

/-- Rows `[200 b, 200 b + 200)` rewritten with block `b` of a stack agree with the stack up to row `200 (b + 1)`, if the
    old contents did up to row `200 b`. -/
theorem upd_stack {α : Type} {n : ℕ} (S : (⟨2, ![10000, n]⟩ : Shape).Idx → α) (B : ℕ → (⟨2, ![200, n]⟩ : Shape).Idx → α)
    (b : ℕ) (hb : b < 50) (hS : ∀ y : (⟨2, ![10000, n]⟩ : Shape).Idx, (y 0).val < 200 * b → S y = stack B y)
    (y : (⟨2, ![10000, n]⟩ : Shape).Idx) (hy : (y 0).val < 200 * (b + 1)) :
    upd (d := ![10000, n]) (size := ![200, n]) S (200 * b) 200 rfl rfl (B b) y = stack B y := by
  by_cases h : 200 * b ≤ (y 0).val
  · have hlt : (y 0).val - 200 * b < 200 := by omega
    rw [upd_of_mem (d := ![10000, n]) (size := ![200, n]) S (200 * b) 200 rfl rfl (B b) y (ix2 ⟨(y 0).val - 200 * b, hlt⟩ (y 1)) (by show (y 0).val = 200 * b + ((y 0).val - 200 * b); omega) rfl]
    exact (stack_apply B b ⟨(y 0).val - 200 * b, hlt⟩ (y 1) (y 0) (by show (y 0).val = 200 * b + ((y 0).val - 200 * b); omega)).symm.trans
      (congrArg (stack B) (eq_ix2 y).symm)
  · rw [upd_of_not_mem (d := ![10000, n]) (size := ![200, n]) S (200 * b) 200 rfl rfl (B b) y (Or.inl (by omega))]
    exact hS y (by omega)

/-- The first point. -/
theorem inv_first (c : Dev nD) (S1 : Vec F S10000x64 .f32) (S2 : Vec F S10000x32 .bf16) :
    Inv m c 0 (sXW m c) (upd (d := ![10000, 64]) (size := ![200, 64]) S1 0 200 rfl rfl (k0_pay2 (rowsOf (aADJ m c) 0) (sXW m c) (aB0 m c))) S2 := by
  refine ⟨fun _ => rfl, fun h => absurd h (by omega), fun y hy => ?_, fun y h => absurd h (by omega)⟩
  exact upd_stack S1 (fun b => k0_pay2 (rowsOf (aADJ m c) b) (sXW m c) (aB0 m c)) 0 (by omega) (fun y hy => absurd hy (by omega)) y hy

/-- A later point of the first phase. -/
theorem inv_phase1 (c : Dev nD) (n : ℕ) (h0 : 0 < n) (hn : n < 50) (S0 S1 : Vec F S10000x64 .f32) (S2 : Vec F S10000x32 .bf16)
    (h : Inv m c (n - 1) S0 S1 S2) :
    Inv m c n S0 (upd (d := ![10000, 64]) (size := ![200, 64]) S1 (200 * n) 200 rfl rfl (k0_pay2 (rowsOf (aADJ m c) n) S0 (aB0 m c))) S2 := by
  obtain ⟨hA, -, hS1, -⟩ := h
  have e0 : S0 = sXW m c := hA (by omega)
  subst e0
  refine ⟨fun _ => rfl, fun h => absurd h (by omega), fun y hy => ?_, fun y h => absurd h (by omega)⟩
  exact upd_stack S1 (fun b => k0_pay2 (rowsOf (aADJ m c) b) (sXW m c) (aB0 m c)) n hn (fun y hy => hS1 y (by omega)) y hy

/-- After the first phase the second scratch holds all the hidden rows. -/
theorem inv_hidden (c : Dev nD) (n : ℕ) (hn : 49 ≤ n) (S0 S1 : Vec F S10000x64 .f32) (S2 : Vec F S10000x32 .bf16)
    (h : Inv m c n S0 S1 S2) : S1 = sH m c :=
  funext fun y => h.2.2.1 y (by have h2 : (y 0).val < 10000 := Idealize.ShloMosaic.ValueIdx.idx2_lt0 y; omega)

/-- After the second phase the third scratch holds all the kept means. -/
theorem inv_means (c : Dev nD) (n : ℕ) (hn : 99 ≤ n) (S0 S1 : Vec F S10000x64 .f32) (S2 : Vec F S10000x32 .bf16)
    (h : Inv m c n S0 S1 S2) : S2 = sZ m c :=
  funext fun y => h.2.2.2 y (by omega) (by have h2 : (y 0).val < 10000 := Idealize.ShloMosaic.ValueIdx.idx2_lt0 y; omega)

/-- The first point of the second phase. -/
theorem inv_mid (c : Dev nD) (S0 S1 : Vec F S10000x64 .f32) (S2 : Vec F S10000x32 .bf16) (h : Inv m c 49 S0 S1 S2) :
    Inv m c 50 (k0_pay3 S1 (aW12 m c)) S1
      (upd (d := ![10000, 32]) (size := ![200, 32]) S2 0 200 rfl rfl (k0_pay7 (rowsOf (aADJ m c) 0) (k0_pay3 S1 (aW12 m c)) (aB12 m c)))
    ∧ k0_pay3 S1 (aW12 m c) = sHW m c := by
  have e1 : S1 = sH m c := inv_hidden m c 49 (le_refl _) S0 S1 S2 h
  subst e1
  refine ⟨⟨fun h => absurd h (by omega), fun _ => rfl, fun y _ => rfl, fun y _ hy => ?_⟩, rfl⟩
  exact upd_stack S2 (fun b => k0_pay7 (rowsOf (aADJ m c) b) (sHW m c) (aB12 m c)) 0 (by omega) (fun y hy => absurd hy (by omega)) y hy

/-- A later point of the second phase. -/
theorem inv_phase2 (c : Dev nD) (n : ℕ) (h0 : 50 < n) (hn : n < 100) (S0 S1 : Vec F S10000x64 .f32) (S2 : Vec F S10000x32 .bf16)
    (h : Inv m c (n - 1) S0 S1 S2) :
    Inv m c n S0 S1 (upd (d := ![10000, 32]) (size := ![200, 32]) S2 (200 * (n - 50)) 200 rfl rfl (k0_pay7 (rowsOf (aADJ m c) (n - 50)) S0 (aB12 m c)))
    ∧ S0 = sHW m c := by
  obtain ⟨-, hB, hS1, hS2⟩ := h
  have e0 : S0 = sHW m c := hB (by omega)
  subst e0
  refine ⟨⟨fun h => absurd h (by omega), fun _ => rfl, fun y hy => hS1 y (by have h2 : (y 0).val < 10000 := Idealize.ShloMosaic.ValueIdx.idx2_lt0 y; omega), fun y _ hy => ?_⟩, rfl⟩
  exact upd_stack S2 (fun b => k0_pay7 (rowsOf (aADJ m c) b) (sHW m c) (aB12 m c)) (n - 50) (by omega)
    (fun y hy => hS2 y (by omega) (by omega)) y (by omega)

/-- A point of the third phase: nothing in scratch changes. -/
theorem inv_phase3 (c : Dev nD) (n : ℕ) (h0 : 100 ≤ n) (S0 S1 : Vec F S10000x64 .f32) (S2 : Vec F S10000x32 .bf16)
    (h : Inv m c (n - 1) S0 S1 S2) : Inv m c n S0 S1 S2 ∧ S2 = sZ m c := by
  have e2 : S2 = sZ m c := inv_means m c (n - 1) (by omega) S0 S1 S2 h
  obtain ⟨-, hB, hS1, -⟩ := h
  exact ⟨⟨fun h => absurd h (by omega), fun _ => hB (by omega), fun y hy => hS1 y (by have h2 : (y 0).val < 10000 := Idealize.ShloMosaic.ValueIdx.idx2_lt0 y; omega), fun y _ _ => congrFun e2 y⟩, e2⟩

/-- Block `b` of each head's rows, and of the reconstruction, as the body computes it. -/
theorem rows_mu (c : Dev nD) (b : ℕ) (hb : b < 50) : rowsOf (sMU m c) b = k0_pay5 (rowsOf (aADJ m c) b) (sHW m c) (aB12 m c) :=
  rowsOf_stack _ b hb
theorem rows_lv (c : Dev nD) (b : ℕ) (hb : b < 50) : rowsOf (sLV m c) b = k0_pay6 (rowsOf (aADJ m c) b) (sHW m c) (aB12 m c) :=
  rowsOf_stack _ b hb
theorem rows_rec (c : Dev nD) (b : ℕ) (hb : b < 50) : rowsOf (sREC m c) b = k0_pay8 (rowsOf (sZ m c) b) (sZ m c) :=
  rowsOf_stack _ b hb

end Cert.KernelIdeal.Body

end
-- ==== Proof.KI.CaseA.lean ====
import proofs.«179708_g35227321761815_cont_8to1_b_828_11_alg».proof.Proof.KI.Setup
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.RowsStore (upd)

set_option maxHeartbeats 4000000 in
/-- The first point: the features are projected into the first scratch, then the first 200 hidden rows are written into the second. -/
theorem runA (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : c1 i) (h2 : c2 i) (h3 : ¬c3 i) (h4 : ¬c4 i) (h5 : ¬c5 i) (o : ℕ) (ho : k0_off1 i = ![o, 0])
    (x0 : Vec F S200x10000 .f32) (x1 : Vec F S10000x128 .f32) (x2 : Vec F S128x64 .f32) (x3 : Vec F S1x64 .f32) (s1 : Vec F S10000x64 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg10 fullShare d) ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare (k0_pay1 x1 x2) ∗ owns (c : Thread nD τ) arg11 fullShare (upd (d := ![10000, 64]) (size := ![200, 64]) s1 o 200 rfl rfl (k0_pay2 x0 (k0_pay1 x1 x2) x3))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg11.eq_unread hfs1
  sl_exec (disch := first | exact h1 | exact h2 | exact h3 | exact h4 | exact h5)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  iexists _; isplitr
  swap; · iexact HS1
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 64]) (o := o) (W := 200) arg11 harg11 s1 _ _ ho rfl rfl

end Cert.KernelIdeal.Body

end
-- ==== Proof.KI.CaseB.lean ====
import proofs.«179708_g35227321761815_cont_8to1_b_828_11_alg».proof.Proof.KI.Setup
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.RowsStore (upd)

set_option maxHeartbeats 4000000 in
/-- A later point of the first phase: 200 more hidden rows are written into the second scratch. -/
theorem runB (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : c2 i) (h3 : ¬c3 i) (h4 : ¬c4 i) (h5 : ¬c5 i) (o : ℕ) (ho : k0_off1 i = ![o, 0])
    (x0 : Vec F S200x10000 .f32) (x3 : Vec F S1x64 .f32) (s0 : Vec F S10000x64 .f32) (s1 : Vec F S10000x64 .f32)
    (E : Set ℕ) (K : PUnit → sProp 𝕄) :
    iprop(owns (c : Thread nD τ) arg1 fullShare x0 ∗ owns (c : Thread nD τ) arg4 fullShare x3 ∗ owns (c : Thread nD τ) arg10 fullShare s0 ∗ owns (c : Thread nD τ) arg11 fullShare s1
        ∗ (iprop(owns (c : Thread nD τ) arg1 fullShare x0 ∗ owns (c : Thread nD τ) arg4 fullShare x3 ∗ owns (c : Thread nD τ) arg10 fullShare s0 ∗ owns (c : Thread nD τ) arg11 fullShare (upd (d := ![10000, 64]) (size := ![200, 64]) s1 o 200 rfl rfl (k0_pay2 x0 s0 x3))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f3, %hf3, H3⟩, ⟨%fs0, %hfs0, HS0⟩, ⟨%fs1, %hfs1, HS1⟩, Hk⟩
  obtain rfl := harg1.eq_unread hf0; obtain rfl := harg4.eq_unread hf3; obtain rfl := harg10.eq_unread hfs0; obtain rfl := harg11.eq_unread hfs1
  sl_exec (disch := first | exact h1 | exact h2 | exact h3 | exact h4 | exact h5)
  sl_step
  iapply Hk
  isplitl [H0]
  · iexists _; isplitr; · ipureintro; exact harg1.read_unread _
    iexact H0
  isplitl [H3]
  · iexists _; isplitr; · ipureintro; exact harg4.read_unread _
    iexact H3
  isplitl [HS0]
  · iexists _; isplitr; · ipureintro; exact harg10.read_unread _
    iexact HS0
  iexists _; isplitr
  swap; · iexact HS1
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 64]) (o := o) (W := 200) arg11 harg11 s1 _ _ ho rfl rfl

end Cert.KernelIdeal.Body

end
-- ==== Proof.KI.CaseC.lean ====
import proofs.«179708_g35227321761815_cont_8to1_b_828_11_alg».proof.Proof.KI.Setup
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.RowsStore (upd)

set_option maxHeartbeats 4000000 in
/-- The first point of the second phase: the hidden rows are projected by both heads' weights into the first scratch, then the first 200 rows of both heads are stored and the mean's kept in the third scratch. -/
theorem runC (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : ¬c2 i) (h3 : c3 i) (h4 : c4 i) (h5 : ¬c5 i) (o : ℕ) (ho : k0_off2 i = ![o, 0])
    (x0 : Vec F S200x10000 .f32) (x4 : Vec F S64x64 .f32) (x5 : Vec F S1x64 .f32) (s1 : Vec F S10000x64 .f32) (s2 : Vec F S10000x32 .bf16)
    (E : Set ℕ) (K : PUnit → sProp 𝕄) :
    iprop(owns (c : Thread nD τ) arg1 fullShare x0 ∗ owns (c : Thread nD τ) arg5 fullShare x4 ∗ owns (c : Thread nD τ) arg6 fullShare x5 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare s1 ∗ owns (c : Thread nD τ) arg12 fullShare s2
        ∗ (iprop(owns (c : Thread nD τ) arg1 fullShare x0 ∗ owns (c : Thread nD τ) arg5 fullShare x4 ∗ owns (c : Thread nD τ) arg6 fullShare x5 ∗ owns (c : Thread nD τ) arg8 fullShare (k0_pay5 x0 (k0_pay3 s1 x4) x5) ∗ owns (c : Thread nD τ) arg9 fullShare (k0_pay6 x0 (k0_pay3 s1 x4) x5) ∗ owns (c : Thread nD τ) arg10 fullShare (k0_pay3 s1 x4) ∗ owns (c : Thread nD τ) arg11 fullShare s1 ∗ owns (c : Thread nD τ) arg12 fullShare (upd (d := ![10000, 32]) (size := ![200, 32]) s2 o 200 rfl rfl (k0_pay7 x0 (k0_pay3 s1 x4) x5))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f4, %hf4, H4⟩, ⟨%f5, %hf5, H5⟩, ⟨%d7, %f7, -, H7⟩, ⟨%d8, %f8, -, H8⟩, ⟨%ds0, %fs0, -, HS0⟩, ⟨%fs1, %hfs1, HS1⟩, ⟨%fs2, %hfs2, HS2⟩, Hk⟩
  obtain rfl := harg1.eq_unread hf0; obtain rfl := harg5.eq_unread hf4; obtain rfl := harg6.eq_unread hf5; obtain rfl := harg11.eq_unread hfs1; obtain rfl := harg12.eq_unread hfs2
  sl_exec (disch := first | exact h1 | exact h2 | exact h3 | exact h4 | exact h5)
  sl_step
  iapply Hk
  isplitl [H0]
  · iexists _; isplitr; · ipureintro; exact harg1.read_unread _
    iexact H0
  isplitl [H4]
  · iexists _; isplitr; · ipureintro; exact harg5.read_unread _
    iexact H4
  isplitl [H5]
  · iexists _; isplitr; · ipureintro; exact harg6.read_unread _
    iexact H5
  isplitl [H7]
  · iexists _; isplitr
    swap; · iexact H7
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [H8]
  · iexists _; isplitr
    swap; · iexact H8
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [HS0]
  · iexists _; isplitr
    swap; · iexact HS0
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [HS1]
  · iexists _; isplitr; · ipureintro; exact harg11.read_unread _
    iexact HS1
  iexists _; isplitr
  swap; · iexact HS2
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 32]) (o := o) (W := 200) arg12 harg12 s2 _ _ ho rfl rfl

end Cert.KernelIdeal.Body

end
-- ==== Proof.KI.CaseD.lean ====
import proofs.«179708_g35227321761815_cont_8to1_b_828_11_alg».proof.Proof.KI.Setup
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.RowsStore (upd)

set_option maxHeartbeats 4000000 in
/-- A later point of the second phase: 200 more rows of both heads are stored and the mean's kept in the third scratch. -/
theorem runD (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : ¬c2 i) (h3 : ¬c3 i) (h4 : c4 i) (h5 : ¬c5 i) (o : ℕ) (ho : k0_off2 i = ![o, 0])
    (x0 : Vec F S200x10000 .f32) (x5 : Vec F S1x64 .f32) (s0 : Vec F S10000x64 .f32) (s2 : Vec F S10000x32 .bf16)
    (E : Set ℕ) (K : PUnit → sProp 𝕄) :
    iprop(owns (c : Thread nD τ) arg1 fullShare x0 ∗ owns (c : Thread nD τ) arg6 fullShare x5 ∗ (∃ d, owns (c : Thread nD τ) arg8 fullShare d) ∗ (∃ d, owns (c : Thread nD τ) arg9 fullShare d) ∗ owns (c : Thread nD τ) arg10 fullShare s0 ∗ owns (c : Thread nD τ) arg12 fullShare s2
        ∗ (iprop(owns (c : Thread nD τ) arg1 fullShare x0 ∗ owns (c : Thread nD τ) arg6 fullShare x5 ∗ owns (c : Thread nD τ) arg8 fullShare (k0_pay5 x0 s0 x5) ∗ owns (c : Thread nD τ) arg9 fullShare (k0_pay6 x0 s0 x5) ∗ owns (c : Thread nD τ) arg10 fullShare s0 ∗ owns (c : Thread nD τ) arg12 fullShare (upd (d := ![10000, 32]) (size := ![200, 32]) s2 o 200 rfl rfl (k0_pay7 x0 s0 x5))) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%f0, %hf0, H0⟩, ⟨%f5, %hf5, H5⟩, ⟨%d7, %f7, -, H7⟩, ⟨%d8, %f8, -, H8⟩, ⟨%fs0, %hfs0, HS0⟩, ⟨%fs2, %hfs2, HS2⟩, Hk⟩
  obtain rfl := harg1.eq_unread hf0; obtain rfl := harg6.eq_unread hf5; obtain rfl := harg10.eq_unread hfs0; obtain rfl := harg12.eq_unread hfs2
  sl_exec (disch := first | exact h1 | exact h2 | exact h3 | exact h4 | exact h5)
  sl_step
  iapply Hk
  isplitl [H0]
  · iexists _; isplitr; · ipureintro; exact harg1.read_unread _
    iexact H0
  isplitl [H5]
  · iexists _; isplitr; · ipureintro; exact harg6.read_unread _
    iexact H5
  isplitl [H7]
  · iexists _; isplitr
    swap; · iexact H7
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [H8]
  · iexists _; isplitr
    swap; · iexact H8
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  isplitl [HS0]
  · iexists _; isplitr; · ipureintro; exact harg10.read_unread _
    iexact HS0
  iexists _; isplitr
  swap; · iexact HS2
  ipureintro
  sl_unfold_run_names
  simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  exact RowsStore.read_store (size := ![200, 32]) (o := o) (W := 200) arg12 harg12 s2 _ _ ho rfl rfl

end Cert.KernelIdeal.Body

end
-- ==== Proof.KI.CaseE.lean ====
import proofs.«179708_g35227321761815_cont_8to1_b_828_11_alg».proof.Proof.KI.Setup
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.RowsStore (upd)

set_option maxHeartbeats 4000000 in
/-- A point of the third phase: 200 rows of the kept means against all of them, through the logistic function. -/
theorem runE (c : Dev nD) (i : grid0.Coords)
    (arg1 : Memref sig .tc .vmem S200x10000 .f32) (harg1 : arg1.IsWhole) (arg2 : Memref sig .tc .vmem S10000x128 .f32) (harg2 : arg2.IsWhole) (arg3 : Memref sig .tc .vmem S128x64 .f32) (harg3 : arg3.IsWhole) (arg4 : Memref sig .tc .vmem S1x64 .f32) (harg4 : arg4.IsWhole) (arg5 : Memref sig .tc .vmem S64x64 .f32) (harg5 : arg5.IsWhole) (arg6 : Memref sig .tc .vmem S1x64 .f32) (harg6 : arg6.IsWhole) (arg7 : Memref sig .tc .vmem S200x10000 .f32) (harg7 : arg7.IsWhole) (arg8 : Memref sig .tc .vmem S200x32 .f32) (harg8 : arg8.IsWhole) (arg9 : Memref sig .tc .vmem S200x32 .f32) (harg9 : arg9.IsWhole) (arg10 : Memref sig .tc .vmem S10000x64 .f32) (harg10 : arg10.IsWhole) (arg11 : Memref sig .tc .vmem S10000x64 .f32) (harg11 : arg11.IsWhole) (arg12 : Memref sig .tc .vmem S10000x32 .bf16) (harg12 : arg12.IsWhole)
    (h1 : ¬c1 i) (h2 : ¬c2 i) (h3 : ¬c3 i) (h4 : ¬c4 i) (h5 : c5 i)
    (s2 : Vec F S10000x32 .bf16)
    (E : Set ℕ) (K : PUnit → sProp 𝕄) :
    iprop((∃ d, owns (c : Thread nD τ) arg7 fullShare d) ∗ owns (c : Thread nD τ) arg12 fullShare s2
        ∗ (iprop(owns (c : Thread nD τ) arg7 fullShare (k0_pay8 (View.ld s2 (Rect.unit (s := S10000x32) (k0_off3 i) S200x32.size (k0_off3_inb i h5))) s2) ∗ owns (c : Thread nD τ) arg12 fullShare s2) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K := by
  have hz : (![0, 0] : Fin 2 → ℕ) = fun _ => 0 := by funext a; revert a; rw [Fin.forall_fin_two]; exact ⟨rfl, rfl⟩
  simp only [cc0__fused_kernel_eq_skeleton]; unfold cc0__fused_kernel_skel
  unfold owns
  iintro ⟨⟨%d6, %f6, -, H6⟩, ⟨%fs2, %hfs2, HS2⟩, Hk⟩
  obtain rfl := harg12.eq_unread hfs2
  sl_exec (disch := first | exact h1 | exact h2 | exact h3 | exact h4 | exact h5)
  sl_step
  iapply Hk
  isplitl [H6]
  · iexists _; isplitr
    swap; · iexact H6
    ipureintro
    sl_unfold_run_names
    refine (View.read_writes_eq_canon _ _ _ (fun y => ⟨_, List.mem_singleton_self _, by dsimp only; exact View.mem_set_unit_zero hz _ y⟩)).trans ?_
    rw [View.canon_unit_zero hz]
    simp only [View.readAt_eq_ld, harg1.read_unread, harg2.read_unread, harg3.read_unread, harg4.read_unread, harg5.read_unread, harg6.read_unread, harg10.read_unread, harg11.read_unread, harg12.read_unread, View.ld_unit_zero (S := S200x10000) hz, View.ld_unit_zero (S := S10000x128) hz, View.ld_unit_zero (S := S128x64) hz, View.ld_unit_zero (S := S1x64) hz, View.ld_unit_zero (S := S64x64) hz, View.ld_unit_zero (S := S10000x64) hz, View.ld_unit_zero (S := S10000x32) hz, View.readCov_cons_toLoadRect]
  iexists _; isplitr; · ipureintro; exact harg12.read_unread _
  iexact HS2

end Cert.KernelIdeal.Body

end
-- ==== Proof.KI.Data.lean ====
import proofs.«179708_g35227321761815_cont_8to1_b_828_11_alg».proof.Proof.KI.Inv
import proofs.«179708_g35227321761815_cont_8to1_b_828_11_alg».proof.Proof.KI.CaseA
import proofs.«179708_g35227321761815_cont_8to1_b_828_11_alg».proof.Proof.KI.CaseB
import proofs.«179708_g35227321761815_cont_8to1_b_828_11_alg».proof.Proof.KI.CaseC
import proofs.«179708_g35227321761815_cont_8to1_b_828_11_alg».proof.Proof.KI.CaseD
import proofs.«179708_g35227321761815_cont_8to1_b_828_11_alg».proof.Proof.KI.CaseE

set_option maxRecDepth 16384

noncomputable section

/-!
  The proof data of the one pipelined call and its body obligation. After the body at a point each input window's
  buffer still holds its block; the reconstruction window's holds block `t - 100` of the reconstruction; each head
  window's holds block `t - 50` of its head's rows, capped at the last block, which it keeps untouched through the third
  phase until the write-back after the last point. Between points the three scratch buffers hold what `Inv` says.
  The obligation is proved by the six ranges of the point: the first point, the rest of the first phase, point 50, the
  rest of the second phase, the third phase, each by that range's run of the body.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2)
open Idealize.ShloMosaic.RowsStore (upd)

variable (m : (ℓ : Loc nD τ sig) → Buf (Elt F) ℓ) (ρ : Dev nD → PrngReg)

theorem not_flush {b : Bool} {P : Prop} (h : b = true ↔ P) (hn : ¬P) : b = false := by
  cases b
  · rfl
  · exact absurd (h.mp rfl) hn

/-! ## The invariant between points -/

/-- Before the first point the scratch buffers hold anything; after point `n` what `Inv` says. -/
def PhiS (c : Dev nD) : (n : ℕ) → n ≤ cfg0.N → sProp 𝕄
  | 0, _ => Pipeline.ΦA spec0 c
  | n + 1, _ => iprop(iprop(∃ S0 : Vec F S10000x64 .f32, ∃ S1 : Vec F S10000x64 .f32, ∃ S2 : Vec F S10000x32 .bf16, ⌜Inv m c n S0 S1 S2⌝ ∗ owns (c : Thread nD τ) scM0 fullShare S0 ∗ owns (c : Thread nD τ) scM1 fullShare S1 ∗ owns (c : Thread nD τ) scM2 fullShare S2) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ S0 : Vec F S10000x64 .f32, ∃ S1 : Vec F S10000x64 .f32, ∃ S2 : Vec F S10000x32 .bf16, ⌜Inv m c n S0 S1 S2⌝ ∗ owns (c : Thread nD τ) scM0 fullShare S0 ∗ owns (c : Thread nD τ) scM1 fullShare S1 ∗ owns (c : Thread nD τ) scM2 fullShare S2) ∗ (∃ r, prngReg c r)) := rfl

theorem PhiS_pos (c : Dev nD) (n : ℕ) (h : n ≤ cfg0.N) (hz : n ≠ 0) :
    PhiS m c n h = iprop(iprop(∃ S0 : Vec F S10000x64 .f32, ∃ S1 : Vec F S10000x64 .f32, ∃ S2 : Vec F S10000x32 .bf16, ⌜Inv m c (n - 1) S0 S1 S2⌝ ∗ owns (c : Thread nD τ) scM0 fullShare S0 ∗ owns (c : Thread nD τ) scM1 fullShare S1 ∗ owns (c : Thread nD τ) scM2 fullShare S2) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsOf (sREC m c) (t.val - 100)
    | ⟨7, _⟩ => rowsOf (sMU m c) (min (t.val - 50) 49)
    | ⟨8, _⟩ => rowsOf (sLV m c) (min (t.val - 50) 49)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = rowsOf (sREC m c) (t.val - 100) := by dsimp only [dats]
theorem after7 (c : Dev nD) (t : Fin cfg0.N) : (dats m 0 c).after 7 t = rowsOf (sMU m c) (min (t.val - 50) 49) := by dsimp only [dats]
theorem after8 (c : Dev nD) (t : Fin cfg0.N) : (dats m 0 c).after 8 t = rowsOf (sLV m c) (min (t.val - 50) 49) := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-! ## A head window through the third phase: untouched since point 99 -/

/-- A window not fetched, after a point that neither wrote it back nor was idle for it, holds what that point left. -/
theorem before_after_live (c : Dev nD) (w : Fin cfg0.W) (t : Fin cfg0.N) (ht : t.val ≠ 0) (hf : (cfg0.win w).fetch t = false)
    (hfl : (cfg0.win w).flush ⟨t.val - 1, Nat.lt_of_le_of_lt (Nat.sub_le _ _) t.isLt⟩ = false)
    (hlv : cfg0.idle w (cfg0.grid.coords ⟨t.val - 1, Nat.lt_of_le_of_lt (Nat.sub_le _ _) t.isLt⟩) = false) (d) :
    (dats m 0 c).before w t d = (dats m 0 c).kept w ⟨t.val - 1, Nat.lt_of_le_of_lt (Nat.sub_le _ _) t.isLt⟩ d := by
  rw [(dats m 0 c).before_of_pos w t ht hf, hfl, if_neg Bool.false_ne_true]
  unfold Dat.left; rw [hlv]

/-- After a point idle for it that did not write it back, what it held before that point. -/
theorem before_after_idle (c : Dev nD) (w : Fin cfg0.W) (t : Fin cfg0.N) (ht : t.val ≠ 0) (hf : (cfg0.win w).fetch t = false)
    (hfl : (cfg0.win w).flush ⟨t.val - 1, Nat.lt_of_le_of_lt (Nat.sub_le _ _) t.isLt⟩ = false)
    (hid : cfg0.idle w (cfg0.grid.coords ⟨t.val - 1, Nat.lt_of_le_of_lt (Nat.sub_le _ _) t.isLt⟩) = true) (d) :
    (dats m 0 c).before w t d = (dats m 0 c).before w ⟨t.val - 1, Nat.lt_of_le_of_lt (Nat.sub_le _ _) t.isLt⟩ d := by
  rw [(dats m 0 c).before_of_pos w t ht hf, hfl, if_neg Bool.false_ne_true]
  unfold Dat.left; rw [hid]

theorem before7_late (c : Dev nD) (d) : ∀ (k : ℕ) (h : 100 + k < cfg0.N), (dats m 0 c).before 7 ⟨100 + k, h⟩ d = rowsOf (sMU m c) 49
  | 0, h => by
    rw [before_after_live m c 7 ⟨100, h⟩ (by show (100 : ℕ) ≠ 0; omega) (fetch7 _)
      (not_flush (flush7 _) (by show ¬((50 ≤ 100 - 1 ∧ 100 - 1 < 99) ∨ 100 - 1 = 149); omega))
      (live7 _ (by show 50 ≤ 100 - 1; omega) (by show 100 - 1 < 100; omega)) d]
    show (dats m 0 c).after 7 ⟨99, _⟩ = _
    rw [after7]
    rfl
  | k + 1, h => by
    have hN : 100 + (k + 1) < 150 := lt_of_lt_of_eq h N_0
    rw [before_after_idle m c 7 ⟨100 + (k + 1), h⟩ (by show 100 + (k + 1) ≠ 0; omega) (fetch7 _)
      (not_flush (flush7 _) (by show ¬((50 ≤ 100 + (k + 1) - 1 ∧ 100 + (k + 1) - 1 < 99) ∨ 100 + (k + 1) - 1 = 149); omega))
      (idle7 _ (Or.inr (by show 100 ≤ 100 + (k + 1) - 1; omega))) d]
    exact before7_late c d k (by omega)

theorem before8_late (c : Dev nD) (d) : ∀ (k : ℕ) (h : 100 + k < cfg0.N), (dats m 0 c).before 8 ⟨100 + k, h⟩ d = rowsOf (sLV m c) 49
  | 0, h => by
    rw [before_after_live m c 8 ⟨100, h⟩ (by show (100 : ℕ) ≠ 0; omega) (fetch8 _)
      (not_flush (flush8 _) (by show ¬((50 ≤ 100 - 1 ∧ 100 - 1 < 99) ∨ 100 - 1 = 149); omega))
      (live8 _ (by show 50 ≤ 100 - 1; omega) (by show 100 - 1 < 100; omega)) d]
    show (dats m 0 c).after 8 ⟨99, _⟩ = _
    rw [after8]
    rfl
  | k + 1, h => by
    have hN : 100 + (k + 1) < 150 := lt_of_lt_of_eq h N_0
    rw [before_after_idle m c 8 ⟨100 + (k + 1), h⟩ (by show 100 + (k + 1) ≠ 0; omega) (fetch8 _)
      (not_flush (flush8 _) (by show ¬((50 ≤ 100 + (k + 1) - 1 ∧ 100 + (k + 1) - 1 < 99) ∨ 100 + (k + 1) - 1 = 149); omega))
      (idle8 _ (Or.inr (by show 100 ≤ 100 + (k + 1) - 1; omega))) d]
    exact before8_late c d k (by omega)

/-! ## The staging memrefs at a point -/

abbrev ms0 (t : Fin cfg0.N) : Memref sig .tc .vmem S200x10000 .f32 := win0_0.stage (cfg0.slots t 0)
abbrev ms1 (t : Fin cfg0.N) : Memref sig .tc .vmem S10000x128 .f32 := win0_1.stage (cfg0.slots t 1)
abbrev ms2 (t : Fin cfg0.N) : Memref sig .tc .vmem S128x64 .f32 := win0_2.stage (cfg0.slots t 2)
abbrev ms3 (t : Fin cfg0.N) : Memref sig .tc .vmem S1x64 .f32 := win0_3.stage (cfg0.slots t 3)
abbrev ms4 (t : Fin cfg0.N) : Memref sig .tc .vmem S64x64 .f32 := win0_4.stage (cfg0.slots t 4)
abbrev ms5 (t : Fin cfg0.N) : Memref sig .tc .vmem S1x64 .f32 := win0_5.stage (cfg0.slots t 5)
abbrev ms6 (t : Fin cfg0.N) : Memref sig .tc .vmem S200x10000 .f32 := win0_6.stage (cfg0.slots t 6)
abbrev ms7 (t : Fin cfg0.N) : Memref sig .tc .vmem S200x32 .f32 := win0_7.stage (cfg0.slots t 7)
abbrev ms8 (t : Fin cfg0.N) : Memref sig .tc .vmem S200x32 .f32 := win0_8.stage (cfg0.slots t 8)

/-- What each input window is left at: its block. -/
theorem lv0 (c : Dev nD) (t : Fin cfg0.N) : (dats m 0 c).leavesExact 0 t = owns (c : Thread nD τ) (ms0 t) fullShare (iblk m c 0 t) := by
  unfold Dat.leavesExact; rw [live0 t, after0]
theorem lv1 (c : Dev nD) (t : Fin cfg0.N) : (dats m 0 c).leavesExact 1 t = owns (c : Thread nD τ) (ms1 t) fullShare (iblk m c 1 t) := by
  unfold Dat.leavesExact; rw [live1 t, after1]
theorem lv2 (c : Dev nD) (t : Fin cfg0.N) : (dats m 0 c).leavesExact 2 t = owns (c : Thread nD τ) (ms2 t) fullShare (iblk m c 2 t) := by
  unfold Dat.leavesExact; rw [live2 t, after2]
theorem lv3 (c : Dev nD) (t : Fin cfg0.N) : (dats m 0 c).leavesExact 3 t = owns (c : Thread nD τ) (ms3 t) fullShare (iblk m c 3 t) := by
  unfold Dat.leavesExact; rw [live3 t, after3]
theorem lv4 (c : Dev nD) (t : Fin cfg0.N) : (dats m 0 c).leavesExact 4 t = owns (c : Thread nD τ) (ms4 t) fullShare (iblk m c 4 t) := by
  unfold Dat.leavesExact; rw [live4 t, after4]
theorem lv5 (c : Dev nD) (t : Fin cfg0.N) : (dats m 0 c).leavesExact 5 t = owns (c : Thread nD τ) (ms5 t) fullShare (iblk m c 5 t) := by
  unfold Dat.leavesExact; rw [live5 t, after5]
/-- The reconstruction window in the third phase, the head windows in the second: what the point stored. -/
theorem lv6 (c : Dev nD) (t : Fin cfg0.N) (h : 100 ≤ t.val) : (dats m 0 c).leavesExact 6 t = owns (c : Thread nD τ) (ms6 t) fullShare (rowsOf (sREC m c) (t.val - 100)) := by
  unfold Dat.leavesExact; rw [live6 t h, after6]
theorem lv7 (c : Dev nD) (t : Fin cfg0.N) (h : 50 ≤ t.val) (h' : t.val < 100) : (dats m 0 c).leavesExact 7 t = owns (c : Thread nD τ) (ms7 t) fullShare (rowsOf (sMU m c) (t.val - 50)) := by
  unfold Dat.leavesExact; rw [live7 t h h', after7, min_eq_left (by omega)]
theorem lv8 (c : Dev nD) (t : Fin cfg0.N) (h : 50 ≤ t.val) (h' : t.val < 100) : (dats m 0 c).leavesExact 8 t = owns (c : Thread nD τ) (ms8 t) fullShare (rowsOf (sLV m c) (t.val - 50)) := by
  unfold Dat.leavesExact; rw [live8 t h h', after8, min_eq_left (by omega)]

/-- A head window at a point of the third phase: handed back as found; at the last point what it was found holding is
    the last block of the head's rows, which is what is written back. -/
theorem late7 (c : Dev nD) (t : Fin cfg0.N) (h : 100 ≤ t.val) :
    (iprop(∃ d, owns (c : Thread nD τ) (ms7 t) fullShare ((dats m 0 c).before 7 t d)) : sProp 𝕄) ⊢ (dats m 0 c).leavesExact 7 t := by
  have hN : t.val < 150 := lt_of_lt_of_eq t.isLt N_0
  by_cases hl : t.val = 149
  · have e : (dats m 0 c).leavesExact 7 t = owns (c : Thread nD τ) (ms7 t) fullShare (rowsOf (sMU m c) 49) := by
      unfold Dat.leavesExact; rw [idle7 t (Or.inr h), (flush7 t).mpr (Or.inr hl), after7, min_eq_right (by omega)]
    rw [e]
    iintro ⟨%d, H⟩
    have hb : (dats m 0 c).before 7 t d = rowsOf (sMU m c) 49 := by
      have := before7_late m c d (t.val - 100) (by show 100 + (t.val - 100) < cfg0.N; have := t.isLt; omega)
      have et : (⟨100 + (t.val - 100), by have := t.isLt; omega⟩ : Fin cfg0.N) = t := Fin.ext (by show 100 + (t.val - 100) = t.val; omega)
      rw [et] at this; exact this
    rw [hb]; iexact H
  · rw [Dat.leavesExact_idle (dats m 0 c) 7 t (idle7 t (Or.inr h)) (not_flush (flush7 t) (by omega))]

theorem late8 (c : Dev nD) (t : Fin cfg0.N) (h : 100 ≤ t.val) :
    (iprop(∃ d, owns (c : Thread nD τ) (ms8 t) fullShare ((dats m 0 c).before 8 t d)) : sProp 𝕄) ⊢ (dats m 0 c).leavesExact 8 t := by
  have hN : t.val < 150 := lt_of_lt_of_eq t.isLt N_0
  by_cases hl : t.val = 149
  · have e : (dats m 0 c).leavesExact 8 t = owns (c : Thread nD τ) (ms8 t) fullShare (rowsOf (sLV m c) 49) := by
      unfold Dat.leavesExact; rw [idle8 t (Or.inr h), (flush8 t).mpr (Or.inr hl), after8, min_eq_right (by omega)]
    rw [e]
    iintro ⟨%d, H⟩
    have hb : (dats m 0 c).before 8 t d = rowsOf (sLV m c) 49 := by
      have := before8_late m c d (t.val - 100) (by show 100 + (t.val - 100) < cfg0.N; have := t.isLt; omega)
      have et : (⟨100 + (t.val - 100), by have := t.isLt; omega⟩ : Fin cfg0.N) = t := Fin.ext (by show 100 + (t.val - 100) = t.val; omega)
      rw [et] at this; exact this
    rw [hb]; iexact H
  · rw [Dat.leavesExact_idle (dats m 0 c) 8 t (idle8 t (Or.inr h)) (not_flush (flush8 t) (by omega))]

/-- The rows the third phase loads from the kept means are their block. -/
theorem ld_rows (Z : Vec F S10000x32 .bf16) (off : Fin 2 → ℕ) (b : ℕ) (hb : b < 50) (ho : off = ![200 * b, 0])
    (inb : ∀ a, off a + S200x32.size a ≤ S10000x32.size a) :
    View.ld Z (Rect.unit (s := S10000x32) off S200x32.size inb) = rowsOf Z b := by
  subst ho
  funext x
  have hx : (x 0).val < 200 := (x 0).isLt
  unfold rowsOf
  show Z ((Rect.unit (s := S10000x32) ![200 * b, 0] S200x32.size inb).idx x) = _
  refine congrArg Z (funext fun a => Fin.ext ?_)
  match a with
  | ⟨0, _⟩ =>
    show 200 * b + 1 * (x 0).val = (200 * b + (x 0).val) % 10000
    rw [Nat.mod_eq_of_lt (by omega)]; omega
  | ⟨1, _⟩ =>
    show 0 + 1 * (x 1).val = (x 1).val
    omega

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t ∗ (dats m 0 c).leavesExact 7 t ∗ (dats m 0 c).leavesExact 8 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = PhiS m c (t.val + 1) t.isLt from rfl, PhiS_succ]
  rw [lv0 m c t, lv1 m c t, lv2 m c t, lv3 m c t, lv4 m c t, lv5 m c t]
  simp only [iblk0 m c t, iblk1 m c t, iblk2 m c t, iblk3 m c t, iblk4 m c t, iblk5 m c t]
  have hN : t.val < 150 := lt_of_lt_of_eq t.isLt N_0
  have hi := idx0_0 t
  rcases (by omega : t.val = 0 ∨ (0 < t.val ∧ t.val < 50) ∨ t.val = 50 ∨ (50 < t.val ∧ t.val < 100) ∨ 100 ≤ t.val) with h | h | h | h | h
  · -- the first point
    have q1 : c1 (grid0.coords t) := (hc1 t).mpr (by omega)
    have q2 : c2 (grid0.coords t) := (hc2 t).mpr (by omega)
    have q3 : ¬c3 (grid0.coords t) := fun q => by have := (hc3 t).mp q; omega
    have q4 : ¬c4 (grid0.coords t) := fun q => by have := (hc4 t).mp q; omega
    have q5 : ¬c5 (grid0.coords t) := fun q => by have := (hc5 t).mp q; omega
    have ho : k0_off1 (grid0.coords t) = ![0, 0] := by rw [off1_eq, hoff1 t (by omega), h]
    have hi0 : win0_0.index t 0 = 0 := by rw [hi, if_pos (by omega), h]
    rw [hi0]
    rw [Dat.leavesExact_idle (dats m 0 c) 6 t (idle6 t (by omega)) (not_flush (flush6 t) (by omega)), Dat.leavesExact_idle (dats m 0 c) 7 t (idle7 t (by omega)) (not_flush (flush7 t) (by omega)), Dat.leavesExact_idle (dats m 0 c) 8 t (idle8 t (by omega)) (not_flush (flush8 t) (by omega))]
    rw [PhiS_castSucc m c t, PhiS_zero m c _ _ h, PhiA_eq]
    iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ q1 q2 q3 q4 q5 0 ho (rowsOf (aADJ m c) 0) (aX m c) (aW0 m c) (aB0 m c) e1 Set.univ _)
    isplitl [H0]; · iexact H0
    isplitl [H1]; · iexact H1
    isplitl [H2]; · iexact H2
    isplitl [H3]; · iexact H3
    isplitl [HS0]; · iexists _; iexact HS0
    isplitl [HS1]; · iexact HS1
    iintro ⟨H0, H1, H2, H3, HS0, HS1⟩
    isplitl [HS0 HS1 HS2 Hg]
    · isplitl [HS0 HS1 HS2]
      · iexists _; iexists _; iexists _
        isplitr; · ipureintro; exact (by rw [h]; exact inv_first m c e1 e2)
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · -- the rest of the first phase
    have q1 : ¬c1 (grid0.coords t) := fun q => by have := (hc1 t).mp q; omega
    have q2 : c2 (grid0.coords t) := (hc2 t).mpr (by omega)
    have q3 : ¬c3 (grid0.coords t) := fun q => by have := (hc3 t).mp q; omega
    have q4 : ¬c4 (grid0.coords t) := fun q => by have := (hc4 t).mp q; omega
    have q5 : ¬c5 (grid0.coords t) := fun q => by have := (hc5 t).mp q; omega
    have ho : k0_off1 (grid0.coords t) = ![200 * t.val, 0] := by rw [off1_eq, hoff1 t (by omega)]
    have hi0 : win0_0.index t 0 = t.val := by rw [hi, if_pos (by omega)]
    rw [hi0]
    rw [Dat.leavesExact_idle (dats m 0 c) 6 t (idle6 t (by omega)) (not_flush (flush6 t) (by omega)), Dat.leavesExact_idle (dats m 0 c) 7 t (idle7 t (by omega)) (not_flush (flush7 t) (by omega)), Dat.leavesExact_idle (dats m 0 c) 8 t (idle8 t (by omega)) (not_flush (flush8 t) (by omega))]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ q1 q2 q3 q4 q5 (200 * t.val) ho (rowsOf (aADJ m c) t.val) (aB0 m c) S0 S1 Set.univ _)
    isplitl [H0]; · iexact H0
    isplitl [H3]; · iexact H3
    isplitl [HS0]; · iexact HS0
    isplitl [HS1]; · iexact HS1
    iintro ⟨H0, H3, HS0, HS1⟩
    isplitl [HS0 HS1 HS2 Hg]
    · isplitl [HS0 HS1 HS2]
      · iexists _; iexists _; iexists _
        isplitr; · ipureintro; exact inv_phase1 m c t.val (by omega) (by omega) S0 S1 S2 hI
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8
  · -- the first point of the second phase
    have q1 : ¬c1 (grid0.coords t) := fun q => by have := (hc1 t).mp q; omega
    have q2 : ¬c2 (grid0.coords t) := fun q => by have := (hc2 t).mp q; omega
    have q3 : c3 (grid0.coords t) := (hc3 t).mpr (by omega)
    have q4 : c4 (grid0.coords t) := (hc4 t).mpr (by omega)
    have q5 : ¬c5 (grid0.coords t) := fun q => by have := (hc5 t).mp q; omega
    have e50 : t.val - 50 = 0 := by omega
    have ho : k0_off2 (grid0.coords t) = ![0, 0] := by rw [off2_eq, hoff2 t (by omega) (by omega), e50]
    have hi0 : win0_0.index t 0 = 0 := by rw [hi, if_neg (by omega), if_pos (by omega)]; omega
    rw [hi0]
    rw [Dat.leavesExact_idle (dats m 0 c) 6 t (idle6 t (by omega)) (not_flush (flush6 t) (by omega)), lv7 m c t (by omega) (by omega), lv8 m c t (by omega) (by omega), e50]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hI' : Inv m c 49 S0 S1 S2 := (show t.val - 1 = 49 by omega) ▸ hI
    have hm := inv_mid m c S0 S1 S2 hI'
    iapply (runC c (grid0.coords t) _ _ _ _ _ _ _ _ _ _ _ _ _ _ _ _ _ _ _ _ _ _ _ _ q1 q2 q3 q4 q5 0 ho (rowsOf (aADJ m c) 0) (aW12 m c) (aB12 m c) S1 S2 Set.univ _)
    isplitl [H0]; · iexact H0
    isplitl [H4]; · iexact H4
    isplitl [H5]; · iexact H5
    isplitl [H7]; · iexists _; iexact H7
    isplitl [H8]; · iexists _; iexact H8
    isplitl [HS0]; · iexists _; iexact HS0
    isplitl [HS1]; · iexact HS1
    isplitl [HS2]; · iexact HS2
    iintro ⟨H0, H4, H5, H7, H8, HS0, HS1, HS2⟩
    rw [rows_mu m c 0 (by omega), rows_lv m c 0 (by omega), ← hm.2]
    isplitl [HS0 HS1 HS2 Hg]
    · isplitl [HS0 HS1 HS2]
      · iexists _; iexists _; iexists _
        isplitr; · ipureintro; exact (by rw [h]; exact hm.1)
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8
  · -- the rest of the second phase
    have q1 : ¬c1 (grid0.coords t) := fun q => by have := (hc1 t).mp q; omega
    have q2 : ¬c2 (grid0.coords t) := fun q => by have := (hc2 t).mp q; omega
    have q3 : ¬c3 (grid0.coords t) := fun q => by have := (hc3 t).mp q; omega
    have q4 : c4 (grid0.coords t) := (hc4 t).mpr (by omega)
    have q5 : ¬c5 (grid0.coords t) := fun q => by have := (hc5 t).mp q; omega
    have ho : k0_off2 (grid0.coords t) = ![200 * (t.val - 50), 0] := by rw [off2_eq, hoff2 t (by omega) (by omega)]
    have hi0 : win0_0.index t 0 = t.val - 50 := by rw [hi, if_neg (by omega), if_pos (by omega)]
    rw [hi0]
    rw [Dat.leavesExact_idle (dats m 0 c) 6 t (idle6 t (by omega)) (not_flush (flush6 t) (by omega)), lv7 m c t (by omega) (by omega), lv8 m c t (by omega) (by omega)]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hm := inv_phase2 m c t.val (by omega) (by omega) S0 S1 S2 hI
    iapply (runD c (grid0.coords t) _ _ _ _ _ _ _ _ _ _ _ _ _ _ _ _ _ _ _ _ _ _ _ _ q1 q2 q3 q4 q5 (200 * (t.val - 50)) ho (rowsOf (aADJ m c) (t.val - 50)) (aB12 m c) S0 S2 Set.univ _)
    isplitl [H0]; · iexact H0
    isplitl [H5]; · iexact H5
    isplitl [H7]; · iexists _; iexact H7
    isplitl [H8]; · iexists _; iexact H8
    isplitl [HS0]; · iexact HS0
    isplitl [HS2]; · iexact HS2
    iintro ⟨H0, H5, H7, H8, HS0, HS2⟩
    rw [rows_mu m c (t.val - 50) (by omega), rows_lv m c (t.val - 50) (by omega), ← hm.2]
    isplitl [HS0 HS1 HS2 Hg]
    · isplitl [HS0 HS1 HS2]
      · iexists _; iexists _; iexists _
        isplitr; · ipureintro; exact hm.1
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iexact H8
  · -- the third phase
    have q1 : ¬c1 (grid0.coords t) := fun q => by have := (hc1 t).mp q; omega
    have q2 : ¬c2 (grid0.coords t) := fun q => by have := (hc2 t).mp q; omega
    have q3 : ¬c3 (grid0.coords t) := fun q => by have := (hc3 t).mp q; omega
    have q4 : ¬c4 (grid0.coords t) := fun q => by have := (hc4 t).mp q; omega
    have q5 : c5 (grid0.coords t) := (hc5 t).mpr (by omega)
    have ho : k0_off3 (grid0.coords t) = ![200 * (t.val - 100), 0] := by rw [off3_eq, hoff3 t (by omega)]
    rw [lv6 m c t h]
    rw [PhiS_castSucc m c t, PhiS_pos m c _ _ (by omega)]
    iintro ⟨⟨⟨%S0, %S1, %S2, %hI, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    have hm := inv_phase3 m c t.val h S0 S1 S2 hI
    iapply (runE c (grid0.coords t) _ _ _ _ _ _ _ _ _ _ _ _ _ _ _ _ _ _ _ _ _ _ _ _ q1 q2 q3 q4 q5 S2 Set.univ _)
    isplitl [H6]; · iexists _; iexact H6
    isplitl [HS2]; · iexact HS2
    iintro ⟨H6, HS2⟩
    rw [rows_rec m c (t.val - 100) (by omega), ← hm.2, ← ld_rows S2 (k0_off3 (grid0.coords t)) (t.val - 100) (by omega) ho (k0_off3_inb (grid0.coords t) q5)]
    isplitl [HS0 HS1 HS2 Hg]
    · isplitl [HS0 HS1 HS2]
      · iexists _; iexists _; iexists _
        isplitr; · ipureintro; exact hm.1
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (late7 m c t (by omega)); iexists _; iexact H7
    iapply (late8 m c t (by omega)); iexists _; iexact H8

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 150 := N_0; omega), PhiA_eq]
  iintro ⟨⟨%S0, %S1, %S2, -, HS0, HS1, HS2⟩, Hg⟩
  isplitl [HS0 HS1 HS2]
  · isplitl [HS0]; · iexists _; iexact HS0
    isplitl [HS1]; · iexists _; iexact HS1
    iexists _; iexact HS2
  iexact Hg

/-! ## The run and the frame -/

set_option backward.isDefEq.respectTransparency.types false in
/-- Every weakly fair execution of @main terminates, each array of the pipeline ending at what the library computes from
    the proof data, every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.KI.Final.lean ====
import proofs.«179708_g35227321761815_cont_8to1_b_828_11_alg».proof.Proof.KI.Data

set_option maxRecDepth 16384

noncomputable section

/-!
  The three result arrays after the run. The write-backs of each output window cover its array block by block (the
  reconstruction's at the points of the third phase; each head's at points 50 to 98 and, the last block, after the last
  point), and what each writes is its block of one array: so the arrays end holding the reconstruction, the mean head's
  rows and the log-variance head's rows of Spec.
-/

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx (ix2 eq_ix2 idx2_lt0 idx2_lt1)

variable (m : (ℓ : Loc nD τ sig) → Buf (Elt F) ℓ) (ρ : Dev nD → PrngReg)

/-- An index of result 0's array is in point `t`'s block iff each coordinate is in the block's range. -/
theorem mem_blk6 (t : Fin cfg0.N) (i : S10000x10000.Idx) :
    i ∈ ((cfg0.win 6).blk t).view.set ↔ ∀ a : Fin 2, win0_6.index t a * S200x10000.size a ≤ (i a).val ∧ (i a).val < win0_6.index t a * S200x10000.size a + S200x10000.size a := by
  show i ∈ ((View.whole main_v4_0).slice (win0_6.rect t)).set ↔ _
  rw [View.set_slice_whole, Rect.mem_set_unit]
  exact Iff.rfl

/-- What point `t` writes back is its block of the result. -/
theorem flushed6 (c : Dev nD) (t : Fin cfg0.N) :
    (dats m 0 c).flushed 6 t = ((cfg0.win 6).blk t).view.read (Elt F) (sREC m c) := by
  show (cfg0.win 6).cut (grid0.coords t) ((dats m 0 c).after 6 t) = _
  rw [after6]
  funext y
  obtain ⟨h0, h1⟩ := idx6 t
  have hN : t.val < 150 := lt_of_lt_of_eq t.isLt N_0
  have hy : (y 0).val < 200 := (y 0).isLt
  rw [View.read_apply]
  show rowsOf (sREC m c) (t.val - 100) y = sREC m c (((cfg0.win 6).blk t).view.emb y)
  unfold rowsOf
  refine congrArg (sREC m c) (funext fun a => Fin.ext ?_)
  match a with
  | ⟨0, _⟩ =>
    show (200 * (t.val - 100) + (y 0).val) % 10000 = win0_6.index t 0 * 200 + 1 * (y 0).val
    rw [h0, Nat.mod_eq_of_lt (by omega)]; omega
  | ⟨1, _⟩ =>
    show (y 1).val = win0_6.index t 1 * 10000 + 1 * (y 1).val
    rw [h1]; omega

/-- An index of result 1's array is in point `t`'s block iff each coordinate is in the block's range. -/
theorem mem_blk7 (t : Fin cfg0.N) (i : S10000x32.Idx) :
    i ∈ ((cfg0.win 7).blk t).view.set ↔ ∀ a : Fin 2, win0_7.index t a * S200x32.size a ≤ (i a).val ∧ (i a).val < win0_7.index t a * S200x32.size a + S200x32.size a := by
  show i ∈ ((View.whole main_v4_1).slice (win0_7.rect t)).set ↔ _
  rw [View.set_slice_whole, Rect.mem_set_unit]
  exact Iff.rfl

/-- What point `t` writes back is its block of the result. -/
theorem flushed7 (c : Dev nD) (t : Fin cfg0.N) :
    (dats m 0 c).flushed 7 t = ((cfg0.win 7).blk t).view.read (Elt F) (sMU m c) := by
  show (cfg0.win 7).cut (grid0.coords t) ((dats m 0 c).after 7 t) = _
  rw [after7]
  funext y
  obtain ⟨h0, h1⟩ := idx7 t
  have hN : t.val < 150 := lt_of_lt_of_eq t.isLt N_0
  have hy : (y 0).val < 200 := (y 0).isLt
  rw [View.read_apply]
  show rowsOf (sMU m c) (min (t.val - 50) 49) y = sMU m c (((cfg0.win 7).blk t).view.emb y)
  unfold rowsOf
  refine congrArg (sMU m c) (funext fun a => Fin.ext ?_)
  match a with
  | ⟨0, _⟩ =>
    show (200 * (min (t.val - 50) 49) + (y 0).val) % 10000 = win0_7.index t 0 * 200 + 1 * (y 0).val
    rw [h0, Nat.mod_eq_of_lt (by omega)]; omega
  | ⟨1, _⟩ =>
    show (y 1).val = win0_7.index t 1 * 32 + 1 * (y 1).val
    rw [h1]; omega

/-- An index of result 2's array is in point `t`'s block iff each coordinate is in the block's range. -/
theorem mem_blk8 (t : Fin cfg0.N) (i : S10000x32.Idx) :
    i ∈ ((cfg0.win 8).blk t).view.set ↔ ∀ a : Fin 2, win0_8.index t a * S200x32.size a ≤ (i a).val ∧ (i a).val < win0_8.index t a * S200x32.size a + S200x32.size a := by
  show i ∈ ((View.whole main_v4_2).slice (win0_8.rect t)).set ↔ _
  rw [View.set_slice_whole, Rect.mem_set_unit]
  exact Iff.rfl

/-- What point `t` writes back is its block of the result. -/
theorem flushed8 (c : Dev nD) (t : Fin cfg0.N) :
    (dats m 0 c).flushed 8 t = ((cfg0.win 8).blk t).view.read (Elt F) (sLV m c) := by
  show (cfg0.win 8).cut (grid0.coords t) ((dats m 0 c).after 8 t) = _
  rw [after8]
  funext y
  obtain ⟨h0, h1⟩ := idx8 t
  have hN : t.val < 150 := lt_of_lt_of_eq t.isLt N_0
  have hy : (y 0).val < 200 := (y 0).isLt
  rw [View.read_apply]
  show rowsOf (sLV m c) (min (t.val - 50) 49) y = sLV m c (((cfg0.win 8).blk t).view.emb y)
  unfold rowsOf
  refine congrArg (sLV m c) (funext fun a => Fin.ext ?_)
  match a with
  | ⟨0, _⟩ =>
    show (200 * (min (t.val - 50) 49) + (y 0).val) % 10000 = win0_8.index t 0 * 200 + 1 * (y 0).val
    rw [h0, Nat.mod_eq_of_lt (by omega)]; omega
  | ⟨1, _⟩ =>
    show (y 1).val = win0_8.index t 1 * 32 + 1 * (y 1).val
    rw [h1]; omega

/-- Every index of the reconstruction is in the block some point of the third phase writes back. -/
theorem cover6 (i : S10000x10000.Idx) : ∃ t : Fin cfg0.N, (cfg0.win 6).flush t = true ∧ i ∈ ((cfg0.win 6).blk t).view.set := by
  have hi0 : (i 0).val < 10000 := idx2_lt0 i
  have hi1 : (i 1).val < 10000 := idx2_lt1 i
  have hlt : 100 + (i 0).val / 200 < cfg0.N := by show _ < grid0.N; rw [N_0]; omega
  refine ⟨⟨100 + (i 0).val / 200, hlt⟩, (flush6 _).mpr (by show 100 ≤ 100 + (i 0).val / 200; omega), ?_⟩
  rw [mem_blk6]
  obtain ⟨h0, h1⟩ := idx6 ⟨100 + (i 0).val / 200, hlt⟩
  intro a
  match a with
  | ⟨0, _⟩ =>
    show win0_6.index ⟨100 + (i 0).val / 200, hlt⟩ 0 * 200 ≤ (i 0).val ∧ (i 0).val < win0_6.index ⟨100 + (i 0).val / 200, hlt⟩ 0 * 200 + 200
    rw [h0]
    show (100 + (i 0).val / 200 - 100) * 200 ≤ (i 0).val ∧ (i 0).val < (100 + (i 0).val / 200 - 100) * 200 + 200
    omega
  | ⟨1, _⟩ =>
    show win0_6.index ⟨100 + (i 0).val / 200, hlt⟩ 1 * 10000 ≤ (i 1).val ∧ (i 1).val < win0_6.index ⟨100 + (i 0).val / 200, hlt⟩ 1 * 10000 + 10000
    rw [h1]; omega

/-- The point whose write-back covers block `b` of a head's rows: point `50 + b`, or the last point for the last block. -/
def headPoint (b : ℕ) : ℕ := if b < 49 then 50 + b else 149

theorem headPoint_lt (b : ℕ) : headPoint b < cfg0.N := by
  show _ < grid0.N; rw [N_0]; unfold headPoint; split_ifs <;> omega

theorem cover7 (i : S10000x32.Idx) : ∃ t : Fin cfg0.N, (cfg0.win 7).flush t = true ∧ i ∈ ((cfg0.win 7).blk t).view.set := by
  have hi0 : (i 0).val < 10000 := idx2_lt0 i
  have hi1 : (i 1).val < 32 := idx2_lt1 i
  have hp : headPoint ((i 0).val / 200) = 50 + (i 0).val / 200 ∧ (i 0).val / 200 < 49 ∨ headPoint ((i 0).val / 200) = 149 ∧ (i 0).val / 200 = 49 := by
    unfold headPoint; split_ifs with hb
    · exact Or.inl ⟨rfl, hb⟩
    · exact Or.inr ⟨rfl, by omega⟩
  refine ⟨⟨headPoint ((i 0).val / 200), headPoint_lt _⟩, (flush7 _).mpr (by show (50 ≤ headPoint ((i 0).val / 200) ∧ headPoint ((i 0).val / 200) < 99) ∨ headPoint ((i 0).val / 200) = 149; omega), ?_⟩
  rw [mem_blk7]
  obtain ⟨h0, h1⟩ := idx7 ⟨headPoint ((i 0).val / 200), headPoint_lt _⟩
  intro a
  match a with
  | ⟨0, _⟩ =>
    show win0_7.index ⟨headPoint ((i 0).val / 200), headPoint_lt _⟩ 0 * 200 ≤ (i 0).val ∧ (i 0).val < win0_7.index ⟨headPoint ((i 0).val / 200), headPoint_lt _⟩ 0 * 200 + 200
    rw [h0]
    show min (headPoint ((i 0).val / 200) - 50) 49 * 200 ≤ (i 0).val ∧ (i 0).val < min (headPoint ((i 0).val / 200) - 50) 49 * 200 + 200
    omega
  | ⟨1, _⟩ =>
    show win0_7.index ⟨headPoint ((i 0).val / 200), headPoint_lt _⟩ 1 * 32 ≤ (i 1).val ∧ (i 1).val < win0_7.index ⟨headPoint ((i 0).val / 200), headPoint_lt _⟩ 1 * 32 + 32
    rw [h1]; omega

theorem cover8 (i : S10000x32.Idx) : ∃ t : Fin cfg0.N, (cfg0.win 8).flush t = true ∧ i ∈ ((cfg0.win 8).blk t).view.set := by
  have hi0 : (i 0).val < 10000 := idx2_lt0 i
  have hi1 : (i 1).val < 32 := idx2_lt1 i
  have hp : headPoint ((i 0).val / 200) = 50 + (i 0).val / 200 ∧ (i 0).val / 200 < 49 ∨ headPoint ((i 0).val / 200) = 149 ∧ (i 0).val / 200 = 49 := by
    unfold headPoint; split_ifs with hb
    · exact Or.inl ⟨rfl, hb⟩
    · exact Or.inr ⟨rfl, by omega⟩
  refine ⟨⟨headPoint ((i 0).val / 200), headPoint_lt _⟩, (flush8 _).mpr (by show (50 ≤ headPoint ((i 0).val / 200) ∧ headPoint ((i 0).val / 200) < 99) ∨ headPoint ((i 0).val / 200) = 149; omega), ?_⟩
  rw [mem_blk8]
  obtain ⟨h0, h1⟩ := idx8 ⟨headPoint ((i 0).val / 200), headPoint_lt _⟩
  intro a
  match a with
  | ⟨0, _⟩ =>
    show win0_8.index ⟨headPoint ((i 0).val / 200), headPoint_lt _⟩ 0 * 200 ≤ (i 0).val ∧ (i 0).val < win0_8.index ⟨headPoint ((i 0).val / 200), headPoint_lt _⟩ 0 * 200 + 200
    rw [h0]
    show min (headPoint ((i 0).val / 200) - 50) 49 * 200 ≤ (i 0).val ∧ (i 0).val < min (headPoint ((i 0).val / 200) - 50) 49 * 200 + 200
    omega
  | ⟨1, _⟩ =>
    show win0_8.index ⟨headPoint ((i 0).val / 200), headPoint_lt _⟩ 1 * 32 ≤ (i 1).val ∧ (i 1).val < win0_8.index ⟨headPoint ((i 0).val / 200), headPoint_lt _⟩ 1 * 32 + 32
    rw [h1]; omega

theorem final6 (c : Dev nD) : (dats m 0 c).arrAt 6 cfg0.N = sREC m c :=
  (dats m 0 c).arrAt_eq_of_cover 6 (sREC m c) (fun t _ => flushed6 m c t) cover6
theorem final7 (c : Dev nD) : (dats m 0 c).arrAt 7 cfg0.N = sMU m c :=
  (dats m 0 c).arrAt_eq_of_cover 7 (sMU m c) (fun t _ => flushed7 m c t) cover7
theorem final8 (c : Dev nD) : (dats m 0 c).arrAt 8 cfg0.N = sLV m c :=
  (dats m 0 c).arrAt_eq_of_cover 8 (sLV m c) (fun t _ => flushed8 m c t) cover8

/-- The run with its results named: the reconstruction, the mean head's rows, the log-variance head's rows; the
    argument arrays unchanged. -/
theorem run_values : θ_run defs (onTc (τ := τ) (main (F := F))) ⟨m, fun _ => 0, ρ⟩ (fun r => ∀ c : Dev nD,
      r.2.mem ((c.tc : Thread nD τ).loc main_v4_0) = sREC m c
      ∧ r.2.mem ((c.tc : Thread nD τ).loc main_v4_1) = sMU m c
      ∧ r.2.mem ((c.tc : Thread nD τ).loc main_v4_2) = sLV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).1 6).trans (final6 m c), ((h c).1 7).trans (final7 m c), ((h c).1 8).trans (final8 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩)
    (run_main m ρ)

end Cert.KernelIdeal.Body

end
-- ==== Proof.LibDotInner.lean ====
/-
  A product of two matrices along the last axis of the first and the first axis of the second, read at an entry.

  `x @ W` — a [M, K] matrix against a [K, N] matrix — has at (p, f) the entry Σ_k x[p, k] · W[k, f]. Over the extended reals
  this holds of the matrix unit started from the zero splat, whatever order it sums in. The dimension numbers enter only through
  four coordinate facts (which operand coordinate is the result's row, the result's column, the contraction's index); a
  caller proves them of its own record and gets the entry as a sum over `Fin K`.
-/
import Idealize.ShloMosaic.PureOps.Ideal.Laws
import Idealize.ShloMosaic.Lib.ValueIdx

noncomputable section

open scoped BigOperators

namespace Idealize.ShloMosaic.DotInner

open Idealize.ShloMosaic Idealize.ShloMosaic.ValueIdx

variable {M N K : ℕ} {φ₁ φ₂ : FTy}

/-- The two operand indices at result entry (p, f) and contraction coordinate k are (p, k) and (k, f). -/
theorem operand_idx (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (p : Fin M) (f : Fin N) (k : Fin K) :
    D.lhsIdx (ix2 p f) ((contrEquiv1 D K hr hs).symm k) = ix2 p k
      ∧ D.rhsIdx (ix2 p f) ((contrEquiv1 D K hr hs).symm k) = ix2 k f := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact (hr0 _ _).trans hk
    | ⟨1, _⟩ => exact hr1 _ _

/-- THE MATRIX UNIT from the zero splat: entry (p, f) is Σ_k lhs[p, k] · rhs[k, f]. -/
theorem matmul_zero_apply (D : DotDims ⟨2, ![M, K]⟩ ⟨2, ![K, N]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (lhs : FVec Ideal ⟨2, ![M, K]⟩ φ₁) (rhs : FVec Ideal ⟨2, ![K, N]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 k f) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotInner

end
-- ==== Proof.LibDotLastAxes.lean ====
/-
  A product of two matrices along the LAST axis of both, read at an entry.

  `x @ W.T` — a [M, K] matrix against a [N, K] matrix, contracting the K axis of each — has at (p, f) the entry
  Σ_k x[p, k] · W[f, k]. Over the extended reals this holds of the kernel's matrix unit started from the zero splat and of the
  host's `dot_general` alike, whatever order either sums in. The dimension numbers enter only through four coordinate facts
  (which operand coordinate is the result's row, the result's column, the contraction's index); a caller proves them of its
  own record and gets the entry as a sum over `Fin K`.
-/
import Idealize.ShloMosaic.PureOps.Ideal.Laws
import Idealize.ShloMosaic.Lib.ValueIdx

noncomputable section

open scoped BigOperators

namespace Idealize.ShloMosaic.DotLastAxes

open Idealize.ShloMosaic Idealize.ShloMosaic.ValueIdx

variable {M N K : ℕ} {φ₁ φ₂ : FTy}

/-- The two operand indices at result entry (p, f) and contraction coordinate k are (p, k) and (f, k). -/
theorem operand_idx (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (p : Fin M) (f : Fin N) (k : Fin K) :
    D.lhsIdx (ix2 p f) ((contrEquiv1 D K hr hs).symm k) = ix2 p k
      ∧ D.rhsIdx (ix2 p f) ((contrEquiv1 D K hr hs).symm k) = ix2 f k := by
  have hk := contrEquiv1_symm_val D K hr hs k
  refine ⟨funext fun a => Fin.ext ?_, funext fun a => Fin.ext ?_⟩
  · match a with
    | ⟨0, _⟩ => exact hl0 _ _
    | ⟨1, _⟩ => exact (hl1 _ _).trans hk
  · match a with
    | ⟨0, _⟩ => exact hr0 _ _
    | ⟨1, _⟩ => exact (hr1 _ _).trans hk

/-- THE MATRIX UNIT from the zero splat: entry (p, f) is Σ_k lhs[p, k] · rhs[f, k]. -/
theorem matmul_zero_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (lhs : FVec Ideal ⟨2, ![M, K]⟩ φ₁) (rhs : FVec Ideal ⟨2, ![N, K]⟩ φ₂) (p : Fin M) (f : Fin N) :
    FloatOps.matmul D prec lhs rhs (constant (F := Ideal) ⟨2, ![M, N]⟩ .f32 0x00000000#32) (ix2 p f)
      = ∑ k : Fin K, lhs (ix2 p k) * rhs (ix2 f k) := by
  rw [Ideal.matmul_constant_zero_apply, ← Equiv.sum_comp (contrEquiv1 D K hr hs).symm]
  refine Finset.sum_congr rfl fun k _ => ?_
  obtain ⟨el, er⟩ := operand_idx D hr hs hl0 hl1 hr0 hr1 p f k
  rw [el, er]

/-- THE HOST'S `dot_general`: the same entry, the same sum. -/
theorem dotGeneral_apply (D : DotDims ⟨2, ![M, K]⟩ ⟨2, ![N, K]⟩ ⟨2, ![M, N]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (j 1).val) (hr1 : ∀ j q, (D.rhsIdx j q 1).val = (q ⟨0, by omega⟩).val)
    (prec : Option ContractPrecision) (sched : HostSchedule)
    (lhs : FVec Ideal ⟨2, ![M, K]⟩ φ₁) (rhs : FVec Ideal ⟨2, ![N, K]⟩ φ₂) (p : Fin M) (f : Fin N) :
    FloatOps.dotGeneral D prec sched lhs rhs (ix2 p f) = ∑ k : Fin K, lhs (ix2 p k) * rhs (ix2 f k) := by
  rw [Ideal.dotGeneral_apply, ← Equiv.sum_comp (contrEquiv1 D K hr hs).symm]
  refine Finset.sum_congr rfl fun k _ => ?_
  obtain ⟨el, er⟩ := operand_idx D hr hs hl0 hl1 hr0 hr1 p f k
  rw [el, er]

end Idealize.ShloMosaic.DotLastAxes

end
-- ==== Proof.KI.Dots.lean ====
/-
  The body's four matrix products, each from the zero accumulator, read at an entry over the extended reals: the
  features by the first layer's weights, 200 adjacency rows by a projected array, the hidden rows by both heads' weights
  side by side (all three `Σ_k A[p, k] · B[k, f]`), and 200 kept means against all of them along their last axes
  (`Σ_k A[p, k] · B[f, k]`).
-/
import proofs.«179708_g35227321761815_cont_8to1_b_828_11_alg».proof.Proof.Gen.KernelIdeal
import proofs.«179708_g35227321761815_cont_8to1_b_828_11_alg».proof.Proof.LibDotInner
import proofs.«179708_g35227321761815_cont_8to1_b_828_11_alg».proof.Proof.LibDotLastAxes

noncomputable section

open scoped BigOperators

namespace Cert.KernelIdeal.Dots

open Idealize.ShloMosaic Idealize.ShloMosaic.ValueIdx Cert.KernelIdeal Cert.KernelIdeal.Gen

/-- `x W0` at an entry. -/
theorem mm_features (A : FVec Ideal S10000x128 .f32) (B : FVec Ideal S128x64 .f32) (p : Fin 10000) (f : Fin 64) :
    matmul dot_S10000x128_S128x64_S10000x64_1_0_0_1_n_n none A B (constant (F := Ideal) S10000x64 .f32 0x00000000#32) (ix2 p f)
      = ∑ k : Fin 128, A (ix2 p k) * B (ix2 k f) :=
  DotInner.matmul_zero_apply (M := 10000) (N := 64) (K := 128) dot_S10000x128_S128x64_S10000x64_1_0_0_1_n_n rfl rfl
    (fun j q => by
      unfold DotDims.lhsIdx
      rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
      rfl)
    (fun j q => dot_S10000x128_S128x64_S10000x64_1_0_0_1_n_n.lhsIdx_val_of_single rfl j q)
    (fun j q => dot_S10000x128_S128x64_S10000x64_1_0_0_1_n_n.rhsIdx_val_of_single rfl j q)
    (fun j q => by
      unfold DotDims.rhsIdx
      rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
      rfl)
    none A B p f

/-- 200 adjacency rows times a projected array at an entry. -/
theorem mm_adj (A : FVec Ideal S200x10000 .f32) (B : FVec Ideal S10000x64 .f32) (p : Fin 200) (f : Fin 64) :
    matmul dot_S200x10000_S10000x64_S200x64_1_0_0_1_n_n none A B (constant (F := Ideal) S200x64 .f32 0x00000000#32) (ix2 p f)
      = ∑ k : Fin 10000, A (ix2 p k) * B (ix2 k f) :=
  DotInner.matmul_zero_apply (M := 200) (N := 64) (K := 10000) dot_S200x10000_S10000x64_S200x64_1_0_0_1_n_n rfl rfl
    (fun j q => by
      unfold DotDims.lhsIdx
      rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
      rfl)
    (fun j q => dot_S200x10000_S10000x64_S200x64_1_0_0_1_n_n.lhsIdx_val_of_single rfl j q)
    (fun j q => dot_S200x10000_S10000x64_S200x64_1_0_0_1_n_n.rhsIdx_val_of_single rfl j q)
    (fun j q => by
      unfold DotDims.rhsIdx
      rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
      rfl)
    none A B p f

/-- The hidden rows times both heads' weights at an entry. -/
theorem mm_heads (A : FVec Ideal S10000x64 .f32) (B : FVec Ideal S64x64 .f32) (p : Fin 10000) (f : Fin 64) :
    matmul dot_S10000x64_S64x64_S10000x64_1_0_0_1_n_n none A B (constant (F := Ideal) S10000x64 .f32 0x00000000#32) (ix2 p f)
      = ∑ k : Fin 64, A (ix2 p k) * B (ix2 k f) :=
  DotInner.matmul_zero_apply (M := 10000) (N := 64) (K := 64) dot_S10000x64_S64x64_S10000x64_1_0_0_1_n_n rfl rfl
    (fun j q => by
      unfold DotDims.lhsIdx
      rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
      rfl)
    (fun j q => dot_S10000x64_S64x64_S10000x64_1_0_0_1_n_n.lhsIdx_val_of_single rfl j q)
    (fun j q => dot_S10000x64_S64x64_S10000x64_1_0_0_1_n_n.rhsIdx_val_of_single rfl j q)
    (fun j q => by
      unfold DotDims.rhsIdx
      rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
      rfl)
    none A B p f

/-- 200 kept means against all the kept means at an entry. -/
theorem mm_gram (A : FVec Ideal S200x32 .bf16) (B : FVec Ideal S10000x32 .bf16) (p : Fin 200) (f : Fin 10000) :
    matmul dot_S200x32_S10000x32_S200x10000_1_1_0_0_n_n none A B (constant (F := Ideal) S200x10000 .f32 0x00000000#32) (ix2 p f)
      = ∑ k : Fin 32, A (ix2 p k) * B (ix2 f k) :=
  DotLastAxes.matmul_zero_apply (M := 200) (N := 10000) (K := 32) dot_S200x32_S10000x32_S200x10000_1_1_0_0_n_n rfl rfl
    (fun j q => by
      unfold DotDims.lhsIdx
      rw [dif_neg (show ¬(0 : Fin S200x32.rank) ∈ dot_S200x32_S10000x32_S200x10000_1_1_0_0_n_n.lhsBatch by decide), dif_pos (show (0 : Fin S200x32.rank) ∈ dot_S200x32_S10000x32_S200x10000_1_1_0_0_n_n.lhsNonContracting by decide)]
      rfl)
    (fun j q => dot_S200x32_S10000x32_S200x10000_1_1_0_0_n_n.lhsIdx_val_of_single rfl j q)
    (fun j q => by
      unfold DotDims.rhsIdx
      rw [dif_neg (show ¬(0 : Fin S10000x32.rank) ∈ dot_S200x32_S10000x32_S200x10000_1_1_0_0_n_n.rhsBatch by decide), dif_pos (show (0 : Fin S10000x32.rank) ∈ dot_S200x32_S10000x32_S200x10000_1_1_0_0_n_n.rhsNonContracting by decide)]
      rfl)
    (fun j q => dot_S200x32_S10000x32_S200x10000_1_1_0_0_n_n.rhsIdx_val_of_single rfl j q)
    none A B p f

end Cert.KernelIdeal.Dots

end
-- ==== Proof.KI.Pay.lean ====
/-
  The body's stored values read at an entry over the extended reals: each matrix product its plain sum, the bias row
  added, the ramp a maximum with zero, a change of float format the identity, a column slice a shift of the column, the
  logistic function applied entrywise.
-/
import proofs.«179708_g35227321761815_cont_8to1_b_828_11_alg».proof.Proof.Gen.KernelIdeal.Skeleton
import proofs.«179708_g35227321761815_cont_8to1_b_828_11_alg».proof.Proof.KI.Dots
import Idealize.ShloMosaic.Lib.Pipeline.Value
import Idealize.ShloMosaic.Lib.ValueLayout

noncomputable section

open scoped BigOperators

namespace Cert.KernelIdeal.Pay

open Idealize.ShloMosaic Idealize.ShloMosaic.ValueIdx Cert.KernelIdeal Cert.KernelIdeal.Gen

/-- The projected features. -/
theorem pay1_apply (X : FVec Ideal S10000x128 .f32) (W : FVec Ideal S128x64 .f32) (p : Fin 10000) (f : Fin 64) :
    k0_pay1 (F := Ideal) X W (ix2 p f) = ∑ k : Fin 128, X (ix2 p k) * W (ix2 k f) := by
  simp only [k0_pay1, shapeCast_self]
  exact Dots.mm_features X W p f

/-- 200 hidden rows: the ramp of the adjacency rows times the projected features plus the bias row. -/
theorem pay2_apply (A : FVec Ideal S200x10000 .f32) (S : FVec Ideal S10000x64 .f32) (B : FVec Ideal S1x64 .f32) (r : Fin 200) (f : Fin 64) :
    k0_pay2 (F := Ideal) A S B (ix2 r f)
      = max ((∑ k : Fin 10000, A (ix2 r k) * S (ix2 k f)) + B (ix2 (0 : Fin 1) f)) (Ideal.ofBits .f32 0x00000000#32) := by
  simp only [k0_pay2, shapeCast_self]
  rw [maximumf_apply, addf_apply, Dots.mm_adj, broadcastTo_1b_ab_apply]
  rfl

/-- The hidden rows times both heads' weights. -/
theorem pay3_apply (H : FVec Ideal S10000x64 .f32) (W : FVec Ideal S64x64 .f32) (p : Fin 10000) (f : Fin 64) :
    k0_pay3 (F := Ideal) H W (ix2 p f) = ∑ k : Fin 64, H (ix2 p k) * W (ix2 k f) := by
  simp only [k0_pay3, shapeCast_self]
  exact Dots.mm_heads H W p f

/-- 200 rows of both heads, side by side. -/
theorem pay4_apply (A : FVec Ideal S200x10000 .f32) (S : FVec Ideal S10000x64 .f32) (B : FVec Ideal S1x64 .f32) (r : Fin 200) (f : Fin 64) :
    k0_pay4 (F := Ideal) A S B (ix2 r f)
      = max ((∑ k : Fin 10000, A (ix2 r k) * S (ix2 k f)) + B (ix2 (0 : Fin 1) f)) (Ideal.ofBits .f32 0x00000000#32) := by
  simp only [k0_pay4, shapeCast_self]
  rw [maximumf_apply, addf_apply, Dots.mm_adj, broadcastTo_1b_ab_apply]
  rfl

/-- The mean head's 200 rows: the first 32 columns. -/
theorem pay5_apply (A : FVec Ideal S200x10000 .f32) (S : FVec Ideal S10000x64 .f32) (B : FVec Ideal S1x64 .f32) (r : Fin 200) (q : Fin 32) :
    k0_pay5 (F := Ideal) A S B (ix2 r q) = k0_pay4 (F := Ideal) A S B (ix2 r (⟨q.val, by have := q.isLt; omega⟩ : Fin 64)) := by
  simp only [k0_pay5]
  exact slice2_axis1_apply 0 _ _ r q ⟨q.val, by have := q.isLt; omega⟩ (by show q.val = 0 + q.val; omega)

/-- The log-variance head's 200 rows: the last 32 columns. -/
theorem pay6_apply (A : FVec Ideal S200x10000 .f32) (S : FVec Ideal S10000x64 .f32) (B : FVec Ideal S1x64 .f32) (r : Fin 200) (q : Fin 32) :
    k0_pay6 (F := Ideal) A S B (ix2 r q) = k0_pay4 (F := Ideal) A S B (ix2 r (⟨32 + q.val, by have := q.isLt; omega⟩ : Fin 64)) := by
  simp only [k0_pay6]
  exact slice2_axis1_apply 32 _ _ r q ⟨32 + q.val, by have := q.isLt; omega⟩ rfl

/-- The kept means are the means. -/
theorem pay7_apply (A : FVec Ideal S200x10000 .f32) (S : FVec Ideal S10000x64 .f32) (B : FVec Ideal S1x64 .f32) (i : S200x32.Idx) :
    k0_pay7 (F := Ideal) A S B i = k0_pay5 (F := Ideal) A S B i := by
  simp only [k0_pay7, shapeCast_self]
  rfl

/-- 200 rows of the reconstruction. -/
theorem pay8_apply (A : FVec Ideal S200x32 .bf16) (Z : FVec Ideal S10000x32 .bf16) (r : Fin 200) (j : Fin 10000) :
    k0_pay8 (F := Ideal) A Z (ix2 r j) = Ideal.logistic (∑ k : Fin 32, A (ix2 r k) * Z (ix2 j k)) := by
  simp only [k0_pay8]
  show Ideal.logistic (matmul dot_S200x32_S10000x32_S200x10000_1_1_0_0_n_n none A Z (constant (F := Ideal) S200x10000 .f32 0x00000000#32) (ix2 r j)) = _
  rw [Dots.mm_gram]

end Cert.KernelIdeal.Pay

end
-- ==== Proof.Bridge.lean ====
/-
  The reference's stages and the kernel's results are the same functions of the eight argument arrays, entry by entry
  over the extended reals. No law beyond the definitions is used: the kernel's matrix unit from a zero accumulator and the
  host's dot_general are the same sum; the two heads' weights side by side and their biases end to end select, column by
  column, one head's; block `b` of a row-stacked result at row `r` is the reference's row `200 b + r`; a change of float
  format is the identity; the logistic function is `1 / (1 + e^(-x))`.
-/
import proofs.«179708_g35227321761815_cont_8to1_b_828_11_alg».proof.Proof.KI.Spec
import proofs.«179708_g35227321761815_cont_8to1_b_828_11_alg».proof.Proof.KI.Pay
import proofs.«179708_g35227321761815_cont_8to1_b_828_11_alg».proof.Proof.Gen.ReferenceIdeal.Read
import Idealize.ShloMosaic.Lib.StableHlo.Run
import Idealize.ShloMosaic.Lib.ValueLayout

set_option maxRecDepth 16384

noncomputable section

open scoped BigOperators

namespace Cert.Bridge

open Idealize.ShloMosaic Idealize.ShloMosaic.ValueIdx Idealize.ShloMosaic.TcCoe Idealize.SL.Sem
open Cert.KernelIdeal Cert.KernelIdeal.Gen Cert.KernelIdeal.Body

/-! ## The host lines before the call -/

/-- The first layer's bias as a row. -/
def hB0 (b0 : FVec Ideal S64 .f32) : FVec Ideal S1x64 .f32 := broadcastInDim S1x64 ![1] bcast_S64_S1x64_1 b0
/-- The two heads' weights side by side. -/
def hW12 (W1 W2 : FVec Ideal S64x32 .f32) : FVec Ideal S64x64 .f32 :=
  concatenate S64x64 1 [⟨S64x32, W1⟩, ⟨S64x32, W2⟩] concatenates_S64x32_S64x32_S64x64_d1
/-- The two heads' biases end to end, as a row. -/
def hB12 (b1 b2 : FVec Ideal S32 .f32) : FVec Ideal S1x64 .f32 :=
  broadcastInDim S1x64 ![1] bcast_S64_S1x64_1 (concatenate S64 0 [⟨S32, b1⟩, ⟨S32, b2⟩] concatenates_S32_S32_S64_d0)

theorem row_apply (v : FVec Ideal S64 .f32) (f : Fin 64) :
    broadcastInDim S1x64 ![1] bcast_S64_S1x64_1 v (ix2 (0 : Fin 1) f) = v (ix1 f) :=
  broadcastInDim_apply _ bcast_S64_S1x64_1 v _ (ix1 f) (fun a => match a with
    | ⟨0, _⟩ => by show f.val = if (64 : Nat) = 1 then 0 else f.val; rw [if_neg (by decide)])

theorem hW12_left (W1 W2 : FVec Ideal S64x32 .f32) (j : Fin 64) (q : Fin 32) :
    hW12 W1 W2 (ix2 j (⟨q.val, by have := q.isLt; omega⟩ : Fin 64)) = W1 (ix2 j q) := by
  unfold hW12
  exact concatenate_pair_apply_left (t := S64x64) (s₁ := S64x32) (s₂ := S64x32) (1 : Fin 2) W1 W2 concatenates_S64x32_S64x32_S64x64_d1
    (ix2 j (⟨q.val, by have := q.isLt; omega⟩ : Fin 64)) rfl (ix2 j q)
    (fun b => match b with | ⟨0, _⟩ => rfl | ⟨1, _⟩ => rfl)

theorem hW12_right (W1 W2 : FVec Ideal S64x32 .f32) (j : Fin 64) (q : Fin 32) :
    hW12 W1 W2 (ix2 j (⟨32 + q.val, by have := q.isLt; omega⟩ : Fin 64)) = W2 (ix2 j q) := by
  unfold hW12
  exact concatenate_pair_apply_right (t := S64x64) (s₁ := S64x32) (s₂ := S64x32) (1 : Fin 2) W1 W2 concatenates_S64x32_S64x32_S64x64_d1
    (ix2 j (⟨32 + q.val, by have := q.isLt; omega⟩ : Fin 64)) rfl rfl (ix2 j q)
    (fun b hb => match b with | ⟨0, _⟩ => rfl | ⟨1, _⟩ => absurd rfl hb)
    (by show q.val + 32 = 32 + q.val; omega)

theorem hB12_left (b1 b2 : FVec Ideal S32 .f32) (q : Fin 32) :
    hB12 b1 b2 (ix2 (0 : Fin 1) (⟨q.val, by have := q.isLt; omega⟩ : Fin 64)) = b1 (ix1 q) := by
  unfold hB12
  rw [row_apply]
  exact concatenate_pair_apply_left (t := S64) (s₁ := S32) (s₂ := S32) (0 : Fin 1) b1 b2 concatenates_S32_S32_S64_d0
    (ix1 (⟨q.val, by have := q.isLt; omega⟩ : Fin 64)) rfl (ix1 q)
    (fun b => match b with | ⟨0, _⟩ => rfl)

theorem hB12_right (b1 b2 : FVec Ideal S32 .f32) (q : Fin 32) :
    hB12 b1 b2 (ix2 (0 : Fin 1) (⟨32 + q.val, by have := q.isLt; omega⟩ : Fin 64)) = b2 (ix1 q) := by
  unfold hB12
  rw [row_apply]
  exact concatenate_pair_apply_right (t := S64) (s₁ := S32) (s₂ := S32) (0 : Fin 1) b1 b2 concatenates_S32_S32_S64_d0
    (ix1 (⟨32 + q.val, by have := q.isLt; omega⟩ : Fin 64)) rfl rfl (ix1 q)
    (fun b hb => match b with | ⟨0, _⟩ => absurd rfl hb)
    (by show q.val + 32 = 32 + q.val; omega)

theorem one_word : Ideal.ofBits .f32 0x3F800000#32 = 1 := by
  simp [Ideal.ofBits, Ideal.ieee, -EReal.coe_mul]; norm_num

/-! ## Stage by stage -/

variable (X : FVec Ideal S10000x128 .f32) (ADJ : FVec Ideal S10000x10000 .f32) (W0 : FVec Ideal S128x64 .f32)
  (b0 : FVec Ideal S64 .f32) (W1 W2 : FVec Ideal S64x32 .f32) (b1 b2 : FVec Ideal S32 .f32)

/-- The projected features. -/
theorem features : k0_pay1 (F := Ideal) X W0 = Cert.ReferenceIdeal.Read.val_main_v0 (F := Ideal) X W0 := by
  funext i
  obtain ⟨p, f, rfl⟩ : ∃ (p : Fin 10000) (f : Fin 64), i = ix2 p f := ⟨i 0, i 1, eq_ix2 i⟩
  rw [Cert.ReferenceIdeal.Read.val_main_v0_apply, Pay.pay1_apply]
  refine Finset.sum_congr rfl fun k _ => ?_
  congr 1
  · exact congrArg X (funext fun a => match a with | ⟨0, _⟩ => rfl | ⟨1, _⟩ => rfl)
  · exact congrArg W0 (funext fun a => match a with | ⟨0, _⟩ => rfl | ⟨1, _⟩ => rfl)

/-- The hidden rows. -/
theorem hidden :
    stack (fun b => k0_pay2 (F := Ideal) (rowsOf ADJ b) (Cert.ReferenceIdeal.Read.val_main_v0 (F := Ideal) X W0) (hB0 b0))
      = Cert.ReferenceIdeal.Read.val_main_v5 (F := Ideal) X ADJ W0 b0 := by
  funext i
  obtain ⟨p, q, rfl⟩ : ∃ (p : Fin 10000) (q : Fin 64), i = ix2 p q := ⟨i 0, i 1, eq_ix2 i⟩
  have hp : p.val < 10000 := p.isLt
  have hb : p.val / 200 < 50 := by omega
  have hr : p.val % 200 < 200 := Nat.mod_lt _ (by norm_num)
  rw [stack_apply _ (p.val / 200) ⟨p.val % 200, hr⟩ q p (by show p.val = 200 * (p.val / 200) + p.val % 200; omega)]
  rw [Pay.pay2_apply]
  rw [Cert.ReferenceIdeal.Read.val_main_v5_apply, Cert.ReferenceIdeal.Read.val_main_v4_apply, Cert.ReferenceIdeal.Read.val_main_v1_apply, Cert.ReferenceIdeal.Read.val_main_v3_apply, Cert.ReferenceIdeal.Read.val_main_call0_v0_apply, Cert.ReferenceIdeal.Read.val_main_call0_cst_apply]
  show max (_ + _) _ = max (_ + _) _
  congr 1
  congr 1
  · refine Finset.sum_congr rfl fun k _ => ?_
    rw [rowsOf_apply ADJ (p.val / 200) hb ⟨p.val % 200, hr⟩ k]
    congr 1
    · exact (congrArg ADJ (funext fun a => Fin.ext (by
        match a with
        | ⟨0, _⟩ => show 200 * (p.val / 200) + p.val % 200 = p.val; omega
        | ⟨1, _⟩ => rfl)))
    · exact congrArg _ (funext fun a => match a with | ⟨0, _⟩ => rfl | ⟨1, _⟩ => rfl)
  · show Cert.ReferenceIdeal.Read.val_main_v2 (F := Ideal) b0 _ = Cert.ReferenceIdeal.Read.val_main_v2 (F := Ideal) b0 _
    exact congrArg _ (funext fun a => match a with | ⟨0, _⟩ => rfl | ⟨1, _⟩ => rfl)

/-- The hidden rows by both heads' weights: the first 32 columns are the mean head's projection, -/
theorem heads_left (k : Fin 10000) (q : Fin 32) :
    k0_pay3 (F := Ideal) (Cert.ReferenceIdeal.Read.val_main_v5 (F := Ideal) X ADJ W0 b0) (hW12 W1 W2) (ix2 k (⟨q.val, by have := q.isLt; omega⟩ : Fin 64))
      = Cert.ReferenceIdeal.Read.val_main_v6 (F := Ideal) X ADJ W0 b0 W1 (ix2 k q) := by
  rw [Pay.pay3_apply, Cert.ReferenceIdeal.Read.val_main_v6_apply]
  refine Finset.sum_congr rfl fun j _ => ?_
  rw [hW12_left]
  congr 1
  · exact congrArg _ (funext fun a => match a with | ⟨0, _⟩ => rfl | ⟨1, _⟩ => rfl)
  · exact congrArg W1 (funext fun a => match a with | ⟨0, _⟩ => rfl | ⟨1, _⟩ => rfl)

/-- the last 32 the log-variance head's. -/
theorem heads_right (k : Fin 10000) (q : Fin 32) :
    k0_pay3 (F := Ideal) (Cert.ReferenceIdeal.Read.val_main_v5 (F := Ideal) X ADJ W0 b0) (hW12 W1 W2) (ix2 k (⟨32 + q.val, by have := q.isLt; omega⟩ : Fin 64))
      = Cert.ReferenceIdeal.Read.val_main_v12 (F := Ideal) X ADJ W0 b0 W2 (ix2 k q) := by
  rw [Pay.pay3_apply, Cert.ReferenceIdeal.Read.val_main_v12_apply]
  refine Finset.sum_congr rfl fun j _ => ?_
  rw [hW12_right]
  congr 1
  · exact congrArg _ (funext fun a => match a with | ⟨0, _⟩ => rfl | ⟨1, _⟩ => rfl)
  · exact congrArg W2 (funext fun a => match a with | ⟨0, _⟩ => rfl | ⟨1, _⟩ => rfl)

/-- The mean head's rows. -/
theorem mean_rows :
    stack (fun b => k0_pay5 (F := Ideal) (rowsOf ADJ b) (k0_pay3 (F := Ideal) (Cert.ReferenceIdeal.Read.val_main_v5 (F := Ideal) X ADJ W0 b0) (hW12 W1 W2)) (hB12 b1 b2))
      = Cert.ReferenceIdeal.Read.val_main_v11 (F := Ideal) X ADJ W0 b0 W1 b1 := by
  funext i
  obtain ⟨p, q, rfl⟩ : ∃ (p : Fin 10000) (q : Fin 32), i = ix2 p q := ⟨i 0, i 1, eq_ix2 i⟩
  have hp : p.val < 10000 := p.isLt
  have hb : p.val / 200 < 50 := by omega
  have hr : p.val % 200 < 200 := Nat.mod_lt _ (by norm_num)
  rw [stack_apply _ (p.val / 200) ⟨p.val % 200, hr⟩ q p (by show p.val = 200 * (p.val / 200) + p.val % 200; omega)]
  rw [Pay.pay5_apply, Pay.pay4_apply]
  rw [Cert.ReferenceIdeal.Read.val_main_v11_apply, Cert.ReferenceIdeal.Read.val_main_v10_apply, Cert.ReferenceIdeal.Read.val_main_v7_apply, Cert.ReferenceIdeal.Read.val_main_v9_apply, Cert.ReferenceIdeal.Read.val_main_v8_apply, Cert.ReferenceIdeal.Read.val_main_call1_v0_apply, Cert.ReferenceIdeal.Read.val_main_call1_cst_apply]
  show max (_ + _) _ = max (_ + _) _
  congr 1
  congr 1
  · refine Finset.sum_congr rfl fun k _ => ?_
    rw [rowsOf_apply ADJ (p.val / 200) hb ⟨p.val % 200, hr⟩ k, heads_left X ADJ W0 b0 W1 W2 k q]
    congr 1
    · exact (congrArg ADJ (funext fun a => Fin.ext (by
        match a with
        | ⟨0, _⟩ => show 200 * (p.val / 200) + p.val % 200 = p.val; omega
        | ⟨1, _⟩ => rfl)))
    · exact congrArg _ (funext fun a => match a with | ⟨0, _⟩ => rfl | ⟨1, _⟩ => rfl)
  · rw [hB12_left b1 b2 q]
    exact congrArg _ (funext fun a => match a with | ⟨0, _⟩ => rfl)

/-- The log-variance head's rows. -/
theorem logvar_rows :
    stack (fun b => k0_pay6 (F := Ideal) (rowsOf ADJ b) (k0_pay3 (F := Ideal) (Cert.ReferenceIdeal.Read.val_main_v5 (F := Ideal) X ADJ W0 b0) (hW12 W1 W2)) (hB12 b1 b2))
      = Cert.ReferenceIdeal.Read.val_main_v17 (F := Ideal) X ADJ W0 b0 W2 b2 := by
  funext i
  obtain ⟨p, q, rfl⟩ : ∃ (p : Fin 10000) (q : Fin 32), i = ix2 p q := ⟨i 0, i 1, eq_ix2 i⟩
  have hp : p.val < 10000 := p.isLt
  have hb : p.val / 200 < 50 := by omega
  have hr : p.val % 200 < 200 := Nat.mod_lt _ (by norm_num)
  rw [stack_apply _ (p.val / 200) ⟨p.val % 200, hr⟩ q p (by show p.val = 200 * (p.val / 200) + p.val % 200; omega)]
  rw [Pay.pay6_apply, Pay.pay4_apply]
  rw [Cert.ReferenceIdeal.Read.val_main_v17_apply, Cert.ReferenceIdeal.Read.val_main_v16_apply, Cert.ReferenceIdeal.Read.val_main_v13_apply, Cert.ReferenceIdeal.Read.val_main_v15_apply, Cert.ReferenceIdeal.Read.val_main_v14_apply, Cert.ReferenceIdeal.Read.val_main_call2_v0_apply, Cert.ReferenceIdeal.Read.val_main_call2_cst_apply]
  show max (_ + _) _ = max (_ + _) _
  congr 1
  congr 1
  · refine Finset.sum_congr rfl fun k _ => ?_
    rw [rowsOf_apply ADJ (p.val / 200) hb ⟨p.val % 200, hr⟩ k, heads_right X ADJ W0 b0 W1 W2 k q]
    congr 1
    · exact (congrArg ADJ (funext fun a => Fin.ext (by
        match a with
        | ⟨0, _⟩ => show 200 * (p.val / 200) + p.val % 200 = p.val; omega
        | ⟨1, _⟩ => rfl)))
    · exact congrArg _ (funext fun a => match a with | ⟨0, _⟩ => rfl | ⟨1, _⟩ => rfl)
  · rw [hB12_right b1 b2 q]
    exact congrArg _ (funext fun a => match a with | ⟨0, _⟩ => rfl)

/-- The means as kept are the means. -/
theorem kept_rows (HW : FVec Ideal S10000x64 .f32) (B : FVec Ideal S1x64 .f32) :
    (stack (fun b => k0_pay7 (F := Ideal) (rowsOf ADJ b) HW B) : S10000x32.Idx → EReal)
      = stack (fun b => k0_pay5 (F := Ideal) (rowsOf ADJ b) HW B) :=
  congrArg stack (funext fun b => funext fun i => Pay.pay7_apply _ _ _ i)

/-- The reconstruction. -/
theorem recon (Z : FVec Ideal S10000x32 .bf16) (hZ : (Z : S10000x32.Idx → EReal) = Cert.ReferenceIdeal.Read.val_main_v11 (F := Ideal) X ADJ W0 b0 W1 b1) :
    stack (fun b => k0_pay8 (F := Ideal) (rowsOf Z b) Z) = Cert.ReferenceIdeal.Read.val_main_v25 (F := Ideal) X ADJ W0 b0 W1 b1 := by
  funext i
  obtain ⟨p, q, rfl⟩ : ∃ (p : Fin 10000) (q : Fin 10000), i = ix2 p q := ⟨i 0, i 1, eq_ix2 i⟩
  have hp : p.val < 10000 := p.isLt
  have hb : p.val / 200 < 50 := by omega
  have hr : p.val % 200 < 200 := Nat.mod_lt _ (by norm_num)
  rw [stack_apply _ (p.val / 200) ⟨p.val % 200, hr⟩ q p (by show p.val = 200 * (p.val / 200) + p.val % 200; omega)]
  rw [Pay.pay8_apply]
  rw [Cert.ReferenceIdeal.Read.val_main_v25_apply, Cert.ReferenceIdeal.Read.val_main_v24_apply, Cert.ReferenceIdeal.Read.val_main_cst_0_apply, Cert.ReferenceIdeal.Read.val_main_v23_apply, Cert.ReferenceIdeal.Read.val_main_v22_apply, Cert.ReferenceIdeal.Read.val_main_cst_apply, Cert.ReferenceIdeal.Read.val_main_v21_apply, Cert.ReferenceIdeal.Read.val_main_v20_apply, Cert.ReferenceIdeal.Read.val_main_v19_apply]
  show Ideal.logistic _ = Ideal.div (Ideal.ofBits .f32 0x3F800000#32) ((Ideal.ofBits .f32 0x3F800000#32 : EReal) + Ideal.exp (-(_ : EReal)))
  rw [one_word]
  have key : (∑ k : Fin 32, rowsOf Z (p.val / 200) (ix2 (⟨p.val % 200, hr⟩ : Fin 200) k) * Z (ix2 q k) : EReal)
      = ∑ k : Fin 32, Cert.ReferenceIdeal.Read.val_main_v11 (F := Ideal) X ADJ W0 b0 W1 b1 (Cert.ReferenceIdeal.Read.lidx_main_v19 (ix2 p q) k)
          * Cert.ReferenceIdeal.Read.val_main_v18 (F := Ideal) X ADJ W0 b0 W1 b1 (Cert.ReferenceIdeal.Read.ridx_main_v19 (ix2 p q) k) := by
    refine Finset.sum_congr rfl fun k _ => ?_
    rw [rowsOf_apply Z (p.val / 200) hb ⟨p.val % 200, hr⟩ k, Cert.ReferenceIdeal.Read.val_main_v18_apply]
    have e1 : Z (ix2 (⟨200 * (p.val / 200) + p.val % 200, by omega⟩ : Fin 10000) k)
        = Cert.ReferenceIdeal.Read.val_main_v11 (F := Ideal) X ADJ W0 b0 W1 b1 (Cert.ReferenceIdeal.Read.lidx_main_v19 (ix2 p q) k) := by
      rw [hZ]
      exact congrArg _ (funext fun a => Fin.ext (by
        match a with
        | ⟨0, _⟩ => show 200 * (p.val / 200) + p.val % 200 = p.val; omega
        | ⟨1, _⟩ => rfl))
    have e2 : Z (ix2 q k)
        = Cert.ReferenceIdeal.Read.val_main_v11 (F := Ideal) X ADJ W0 b0 W1 b1 (Cert.ReferenceIdeal.Read.idx_main_v18 (Cert.ReferenceIdeal.Read.ridx_main_v19 (ix2 p q) k)) := by
      rw [hZ]
      exact congrArg _ (funext fun a => match a with | ⟨0, _⟩ => rfl | ⟨1, _⟩ => rfl)
    rw [e1, e2]
  exact congrArg Ideal.logistic key

end Cert.Bridge

end
-- ==== Proof.Results.lean ====
/-
  The kernel's three results are the reference's: the spec's arrays, read with the host lines before the call opened,
  are the reference's stages of the same argument arrays; so the two programs, run from memories that agree on the
  arguments, end with equal results.
-/
import proofs.«179708_g35227321761815_cont_8to1_b_828_11_alg».proof.Proof.KI.Final
import proofs.«179708_g35227321761815_cont_8to1_b_828_11_alg».proof.Proof.Bridge
import proofs.«179708_g35227321761815_cont_8to1_b_828_11_alg».proof.Defs
import proofs.«179708_g35227321761815_cont_8to1_b_828_11_alg».proof.Proof.Gen.ReferenceIdeal
import proofs.«179708_g35227321761815_cont_8to1_b_828_11_alg».proof.Proof.Gen.Pre_finite_inputs

set_option maxRecDepth 16384

noncomputable section

namespace Cert.Results

open Idealize.ShloMosaic Idealize.ShloMosaic.TcCoe Idealize.SL.Sem
open Cert.KernelIdeal Cert.KernelIdeal.Gen Cert.KernelIdeal.Body

variable (m : (ℓ : Loc nD τ sig) → Buf (Elt Ideal) ℓ)

/-! ## The host lines before the call, as the region finds their results -/

theorem V_v3 (c : Dev nD) : (V m c main_v3 : S1x64.Idx → Elt Ideal .f32) = Bridge.hB0 (m ((c.tc : Thread nD τ).loc main_arg3)) := by
  unfold Bridge.hB0
  dsimp only [Gen.V, Gen.hostOps0]; after_results

theorem V_v0 (c : Dev nD) : (V m c main_v0 : S64x64.Idx → Elt Ideal .f32) = Bridge.hW12 (m ((c.tc : Thread nD τ).loc main_arg4)) (m ((c.tc : Thread nD τ).loc main_arg6)) := by
  unfold Bridge.hW12
  dsimp only [Gen.V, Gen.hostOps0]; after_results

theorem V_v2 (c : Dev nD) : (V m c main_v2 : S1x64.Idx → Elt Ideal .f32) = Bridge.hB12 (m ((c.tc : Thread nD τ).loc main_arg5)) (m ((c.tc : Thread nD τ).loc main_arg7)) := by
  unfold Bridge.hB12
  dsimp only [Gen.V, Gen.hostOps0]; after_results

/-! ## The three results -/

theorem hidden_eq (c : Dev nD) : sH m c = Cert.ReferenceIdeal.Read.val_main_v5 (F := Ideal) (m ((c.tc : Thread nD τ).loc main_arg0)) (m ((c.tc : Thread nD τ).loc main_arg1)) (m ((c.tc : Thread nD τ).loc main_arg2)) (m ((c.tc : Thread nD τ).loc main_arg3)) := by
  unfold sH sXW
  simp only [aX, aADJ, aW0, aB0]
  rw [V_main_arg0 m c, V_main_arg1 m c, V_main_arg2 m c, V_v3 m c, Bridge.features, Bridge.hidden]

theorem mean_eq (c : Dev nD) : sMU m c = Cert.ReferenceIdeal.Read.val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold sMU sHW
  rw [hidden_eq m c]
  simp only [aADJ, aW12, aB12]
  rw [V_main_arg1 m c, V_v0 m c, V_v2 m c]
  exact Bridge.mean_rows _ _ _ _ _ _ _ _

theorem logvar_eq (c : Dev nD) : sLV m c = Cert.ReferenceIdeal.Read.val_main_v17 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  unfold sLV sHW
  rw [hidden_eq m c]
  simp only [aADJ, aW12, aB12]
  rw [V_main_arg1 m c, V_v0 m c, V_v2 m c]
  exact Bridge.logvar_rows _ _ _ _ _ _ _ _

theorem kept_eq (c : Dev nD) : (sZ m c : S10000x32.Idx → EReal) = Cert.ReferenceIdeal.Read.val_main_v11 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold sZ
  rw [Bridge.kept_rows]
  exact mean_eq m c

theorem recon_eq (c : Dev nD) : sREC m c = Cert.ReferenceIdeal.Read.val_main_v25 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold sREC
  exact Bridge.recon _ _ _ _ _ _ (sZ m c) (kept_eq m c)

/-! ## The claim -/

/-- Run from memories agreeing on the arguments, the idealized kernel and the idealized reference both end, with the
    reconstruction, the mean head's rows (twice) and the log-variance head's rows equal, and their arguments unchanged. -/
theorem algebraic : Cert.algebraic_KernelIdeal_ReferenceIdeal := by
  intro m ρ m' ρ' _ hagree
  refine ⟨fun c => sREC m c, fun c => sMU m c, fun c => sMU m c, fun c => sLV m c, ?_, ?_⟩
  · exact (θ_run (Cert.KernelIdeal.defs (F := Ideal)) _ _).mono
      (fun r h c => ⟨(h c).1, (h c).2.1, (h c).2.1, (h c).2.2.1, (h c).2.2.2⟩) (run_values m ρ)
  · refine (θ_run (Cert.ReferenceIdeal.defs (F := Ideal)) _ _).mono (fun r h c => ?_) (Cert.ReferenceIdeal.Value.run (F := Ideal) m' ρ')
    obtain ⟨a0, a1, a2, a3, a4, a5, a6, a7⟩ := hagree c
    refine ⟨(h c).1.trans ?_, (h c).2.1.trans ?_, (h c).2.2.1.trans ?_, (h c).2.2.2.1.trans ?_, (h c).2.2.2.2⟩
    · exact (Cert.ReferenceIdeal.Read.val_main_v25_eq (F := Ideal) _ _ _ _ _ _).trans (by rw [a0, a1, a2, a3, a4, a5]; exact (recon_eq m c).symm)
    · exact (Cert.ReferenceIdeal.Read.val_main_v11_eq (F := Ideal) _ _ _ _ _ _).trans (by rw [a0, a1, a2, a3, a4, a5]; exact (mean_eq m c).symm)
    · exact (Cert.ReferenceIdeal.Read.val_main_v11_eq (F := Ideal) _ _ _ _ _ _).trans (by rw [a0, a1, a2, a3, a4, a5]; exact (mean_eq m c).symm)
    · exact (Cert.ReferenceIdeal.Read.val_main_v17_eq (F := Ideal) _ _ _ _ _ _).trans (by rw [a0, a1, a2, a3, a6, a7]; exact (logvar_eq m c).symm)

end Cert.Results

end
-- ==== Proof.lean ====
/- The proof of `Cert.Claim`.

   The kernel is one pipelined call over 150 grid points in three phases of 50: the hidden rows
   `max (adj (x W0) + b0, 0)` block by block into a scratch buffer; both heads' rows
   `max (adj (h [W1 | W2]) + [b1 | b2], 0)` block by block, the means also kept in a scratch buffer; the reconstruction
   `logistic (mu mu^T)` block by block. What the scratch buffers hold between points is an invariant over the grid
   (Proof/KI/Inv.lean), kept by each of the body's five conditional blocks (Proof/KI/Case*.lean, Proof/KI/Data.lean);
   the three output arrays end as one function of the arguments each (Proof/KI/Final.lean), and those functions are the
   reference's stages, entry by entry over the extended reals (Proof/Bridge.lean, Proof/Results.lean). The word-level
   kernel's frame is the same development read at words (Proof/K/). The reference's frame is its run with the results
   dropped. Nothing was rewritten by the idealization, so `preserves` is trivial. -/
import proofs.«179708_g35227321761815_cont_8to1_b_828_11_alg».proof.Defs
import proofs.«179708_g35227321761815_cont_8to1_b_828_11_alg».proof.Proof.K.Data
import proofs.«179708_g35227321761815_cont_8to1_b_828_11_alg».proof.Proof.KI.Data
import proofs.«179708_g35227321761815_cont_8to1_b_828_11_alg».proof.Proof.Results
import proofs.«179708_g35227321761815_cont_8to1_b_828_11_alg».proof.Proof.Gen.Kernel
import proofs.«179708_g35227321761815_cont_8to1_b_828_11_alg».proof.Proof.Gen.KernelIdeal
import proofs.«179708_g35227321761815_cont_8to1_b_828_11_alg».proof.Proof.Gen.ReferenceIdeal
import proofs.«179708_g35227321761815_cont_8to1_b_828_11_alg».proof.Proof.Gen.ReferenceIdeal.Run
import proofs.«179708_g35227321761815_cont_8to1_b_828_11_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Body.frame m ρ

theorem frame_kernel_ideal : Cert.frame_KernelIdeal := fun m ρ _ => Cert.KernelIdeal.Body.frame m ρ

theorem frame_reference_ideal : Cert.frame_ReferenceIdeal := fun m ρ _ =>
  (θ_run Cert.ReferenceIdeal.defs _ _).mono (fun _ h c => (h c).2.2.2.2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, Cert.Results.algebraic⟩

end Cert.Proof

end
